-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v108)) (v1 : (c : Dev Cert.KernelIdeal.nD) → Buf (Elt Ideal) ((c.tc : Thread Cert.KernelIdeal.nD Cert.KernelIdeal.τ).loc Cert.KernelIdeal.main_v85)) (v2 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_v85) = v1 c
          ∧ r.2.mem ((c.tc : Thread Cert.KernelIdeal.nD Cert.KernelIdeal.τ).loc Cert.KernelIdeal.main_v70) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_v111) = v1 c
          ∧ r.2.mem ((c.tc : Thread Cert.ReferenceIdeal.nD Cert.ReferenceIdeal.τ).loc Cert.ReferenceIdeal.main_v96) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S800000x128 : Shape := ⟨2, ![800000, 128]⟩
abbrev S2x800000 : Shape := ⟨2, ![2, 800000]⟩
abbrev S256x128 : Shape := ⟨2, ![256, 128]⟩
abbrev S128 : Shape := ⟨1, ![128]⟩
abbrev S256x1 : Shape := ⟨2, ![256, 1]⟩
abbrev S1 : Shape := ⟨1, ![1]⟩
abbrev S_ : Shape := ⟨0, ![]⟩

class Facts : Prop where
  bcast_S_S800000x128 : S_.BroadcastsInDim S800000x128 (![] : Fin 0 → Fin S800000x128.rank)
  reducesTo_S800000x128_S_d0_1 : S800000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S256x128 .f32) (main_arg9 : FVec F S128 .f32) (main_arg10 : FVec F S256x1 .f32) (main_arg11 : FVec F S1 .f32) (main_v33 : IVec S_ 1) : IVec S_ 1 :=
  let main_v34 : FVec F S256x128 .f32 := Host.absf main_arg8
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S256x1 .f32 := Host.absf main_arg10
  let main_cst_16 : FVec F S_ .f32 := constant S_ .f32 0x7F800000#32
  let main_v45 : FVec F S256x1 .f32 := broadcastInDim S256x1 ![] bcast_S_S256x1 main_cst_16
  let main_v46 : IVec S256x1 1 := cmpf .olt main_v44 main_v45
  let main_c_17 : IVec S_ 1 := constantI S_ 1 1#1
  let main_v47 : IVec S_ 1 := (fun x v => Host.reduce IntOp.andi x v reducesTo_S256x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S128 .f32) (main_arg6 : FVec F S256x128 .f32) (main_arg7 : FVec F S128 .f32) (main_arg8 : FVec F S256x128 .f32) (main_arg9 : FVec F S128 .f32) (main_arg10 : FVec F S256x1 .f32) (main_arg11 : FVec F S1 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S800000x128 .f32) (main_arg1 : IVec S2x800000 32) (main_arg2 : FVec F S256x128 .f32) (main_arg3 : FVec F S128 .f32) (main_arg4 : FVec F S256x128 .f32) (main_arg5 : FVec F S128 .f32) (main_arg6 : FVec F S256x128 .f32) (main_arg7 : FVec F S128 .f32) (main_arg8 : FVec F S256x128 .f32) (main_arg9 : FVec F S128 .f32) (main_arg10 : FVec F S256x1 .f32) (main_arg11 : FVec F S1 .f32) : IVec S_ 1 :=
  let main_v0 : FVec F S800000x128 .f32 := Host.absf main_arg0
  let main_cst : FVec F S_ .f32 := constant S_ .f32 0x7F800000#32
  let main_v1 : FVec F S800000x128 .f32 := broadcastInDim S800000x128 ![] bcast_S_S800000x128 main_cst
  let main_v2 : IVec S800000x128 1 := cmpf .olt main_v0 main_v1
  let main_c : IVec S_ 1 := constantI S_ 1 1#1
  let main_v3 : IVec S_ 1 := (fun x v => Host.reduce IntOp.andi x v reducesTo_S800000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_arg8 main_arg9 main_arg10 main_arg11 main_v13 main_v16
-- ==== Kernel.lean ====
abbrev S800000x128 : Shape := ⟨2, ![800000, 128]⟩
abbrev S2x800000 : Shape := ⟨2, ![2, 800000]⟩
abbrev S256x128 : Shape := ⟨2, ![256, 128]⟩
abbrev S128 : Shape := ⟨1, ![128]⟩
abbrev S256x1 : Shape := ⟨2, ![256, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S50000x128 : Shape := ⟨2, ![50000, 128]⟩
abbrev S128x128 : Shape := ⟨2, ![128, 128]⟩
abbrev S1x128 : Shape := ⟨2, ![1, 128]⟩
abbrev S10000x128 : Shape := ⟨2, ![10000, 128]⟩
abbrev S800000x256 : Shape := ⟨2, ![800000, 256]⟩
abbrev S128x1 : Shape := ⟨2, ![128, 1]⟩
abbrev S1x1 : Shape := ⟨2, ![1, 1]⟩

abbrev nBuf : Space → Nat
  | .hbm => 144
  | .vmem => 36
  | .smem => 0
  | _ => 0

abbrev hbmTy0_0 (i : Nat) : BufTy := match i % 128 with
  | 0 => ⟨S800000x128, .f32⟩
  | 1 => ⟨S2x800000, .i32⟩
  | 2 => ⟨S256x128, .f32⟩
  | 3 => ⟨S128, .f32⟩
  | 4 => ⟨S256x128, .f32⟩
  | 5 => ⟨S128, .f32⟩
  | 6 => ⟨S256x128, .f32⟩
  | 7 => ⟨S128, .f32⟩
  | 8 => ⟨S256x128, .f32⟩
  | 9 => ⟨S128, .f32⟩
  | 10 => ⟨S256x1, .f32⟩
  | 11 => ⟨S1, .f32⟩
  | 12 => ⟨S1x800000, .i32⟩
  | 13 => ⟨S800000, .i32⟩
  | 14 => ⟨S1x800000, .i32⟩
  | 15 => ⟨S800000, .i32⟩
  | 16 => ⟨S_, .f32⟩
  | 17 => ⟨S800000x1, .f32⟩
  | 18 => ⟨S_, .f32⟩
  | 19 => ⟨S50000x1, .f32⟩
  | 20 => ⟨S800000x1, .i32⟩
  | 21 => ⟨S50000x1, .f32⟩
  | 22 => ⟨S_, .f32⟩
  | 23 => ⟨S50000x1, .f32⟩
  | 24 => ⟨S800000x1, .i32⟩
  | 25 => ⟨S50000x1, .f32⟩
  | 26 => ⟨S_, .f32⟩
  | 27 => ⟨S50000x128, .f32⟩
  | 28 => ⟨S800000x1, .i32⟩
  | 29 => ⟨S50000x128, .f32⟩
  | 30 => ⟨S_, .f32⟩
  | 31 => ⟨S50000x1, .f32⟩
  | 32 => ⟨S50000x1, .f32⟩
  | 33 => ⟨S50000x128, .f32⟩
  | 34 => ⟨S50000x128, .f32⟩
  | 35 => ⟨S_, .f32⟩
  | 36 => ⟨S50000x128, .f32⟩
  | 37 => ⟨S800000x1, .i32⟩
  | 38 => ⟨S50000x128, .f32⟩
  | 39 => ⟨S_, .f32⟩
  | 40 => ⟨S50000x1, .f32⟩
  | 41 => ⟨S50000x1, .f32⟩
  | 42 => ⟨S50000x128, .f32⟩
  | 43 => ⟨S50000x128, .f32⟩
  | 44 => ⟨S128x128, .f32⟩
  | 45 => ⟨S128x128, .f32⟩
  | 46 => ⟨S1x128, .f32⟩
  | 47 => ⟨S50000x128, .bf16⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x128, .bf16⟩
  | 57 => ⟨S800000x128, .f32⟩
  | 58 => ⟨S_, .f32⟩
  | 59 => ⟨S50000x128, .f32⟩
  | 60 => ⟨S800000x1, .i32⟩
  | 61 => ⟨S50000x128, .f32⟩
  | 62 => ⟨S_, .f32⟩
  | 63 => ⟨S50000x1, .f32⟩
  | 64 => ⟨S50000x1, .f32⟩
  | 65 => ⟨S50000x128, .f32⟩
  | 66 => ⟨S50000x128, .f32⟩
  | 67 => ⟨S128x128, .f32⟩
  | 68 => ⟨S128x128, .f32⟩
  | 69 => ⟨S1x128, .f32⟩
  | 70 => ⟨S50000x128, .bf16⟩
  | 71 => ⟨S128x128, .f32⟩
  | 72 => ⟨S128x128, .f32⟩
  | 73 => ⟨S1x128, .f32⟩
  | 74 => ⟨S50000x128, .bf16⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000x128, .bf16⟩
  | 84 => ⟨S800000x128, .f32⟩
  | 85 => ⟨S_, .f32⟩
  | 86 => ⟨S50000x128, .f32⟩
  | 87 => ⟨S800000x1, .i32⟩
  | 88 => ⟨S50000x128, .f32⟩
  | 89 => ⟨S_, .f32⟩
  | 90 => ⟨S50000x1, .f32⟩
  | 91 => ⟨S50000x1, .f32⟩
  | 92 => ⟨S50000x128, .f32⟩
  | 93 => ⟨S50000x128, .f32⟩
  | 94 => ⟨S128x128, .f32⟩
  | 95 => ⟨S128x128, .f32⟩
  | 96 => ⟨S1x128, .f32⟩
  | 97 => ⟨S50000x128, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x128, .f32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S800000x128, .f32⟩
  | 116 => ⟨S800000x256, .f32⟩
  | 117 => ⟨S128x1, .f32⟩
  | 118 => ⟨S128x1, .f32⟩
  | 119 => ⟨S50000x1, .f32⟩
  | 120 => ⟨S50000x1, .f32⟩
  | 121 => ⟨S_, .i32⟩
  | 122 => ⟨S800000, .i32⟩
  | 123 => ⟨S800000, .i1⟩
  | 124 => ⟨S_, .i32⟩
  | 125 => ⟨S800000, .i32⟩
  | 126 => ⟨S800000, .i32⟩
  | 127 => ⟨S800000, .i32⟩
  | _ => ⟨S800000x128, .f32⟩

abbrev hbmTy0_1 (i : Nat) : BufTy := match i % 128 with
  | 0 => ⟨S800000x1, .i32⟩
  | 1 => ⟨S800000x1, .f32⟩
  | 2 => ⟨S_, .i32⟩
  | 3 => ⟨S800000, .i32⟩
  | 4 => ⟨S800000, .i1⟩
  | 5 => ⟨S_, .i32⟩
  | 6 => ⟨S800000, .i32⟩
  | 7 => ⟨S800000, .i32⟩
  | 8 => ⟨S800000, .i32⟩
  | 9 => ⟨S800000x1, .i32⟩
  | 10 => ⟨S800000x1, .f32⟩
  | 11 => ⟨S800000x1, .f32⟩
  | 12 => ⟨S1x1, .f32⟩
  | 13 => ⟨S800000x1, .f32⟩
  | 14 => ⟨S800000x1, .f32⟩
  | 15 => ⟨S800000, .f32⟩
  | _ => ⟨S800000x128, .f32⟩

abbrev hbmTy (i : Nat) : BufTy := match i / 128 with
  | 0 => hbmTy0_0 i
  | 1 => hbmTy0_1 i
  | _ => ⟨S800000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S10000x128, .bf16⟩
  | .local _ .vmem, ⟨8, _⟩ => ⟨S10000x128, .bf16⟩
  | .local _ .vmem, ⟨9, _⟩ => ⟨S10000x128, .bf16⟩
  | .local _ .vmem, ⟨10, _⟩ => ⟨S10000x128, .bf16⟩
  | .local _ .vmem, ⟨11, _⟩ => ⟨S10000x128, .f32⟩
  | .local _ .vmem, ⟨12, _⟩ => ⟨S10000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S10000x128, .bf16⟩
  | .local _ .vmem, ⟨17, _⟩ => ⟨S10000x128, .bf16⟩
  | .local _ .vmem, ⟨18, _⟩ => ⟨S10000x128, .bf16⟩
  | .local _ .vmem, ⟨19, _⟩ => ⟨S10000x128, .bf16⟩
  | .local _ .vmem, ⟨20, _⟩ => ⟨S10000x128, .f32⟩
  | .local _ .vmem, ⟨21, _⟩ => ⟨S10000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S10000x128, .bf16⟩
  | .local _ .vmem, ⟨26, _⟩ => ⟨S10000x128, .bf16⟩
  | .local _ .vmem, ⟨27, _⟩ => ⟨S10000x128, .bf16⟩
  | .local _ .vmem, ⟨28, _⟩ => ⟨S10000x128, .bf16⟩
  | .local _ .vmem, ⟨29, _⟩ => ⟨S10000x128, .f32⟩
  | .local _ .vmem, ⟨30, _⟩ => ⟨S10000x128, .f32⟩
  | .local _ .vmem, ⟨31, _⟩ => ⟨S128x128, .f32⟩
  | .local _ .vmem, ⟨32, _⟩ => ⟨S128x128, .f32⟩
  | .local _ .vmem, ⟨33, _⟩ => ⟨S1x128, .f32⟩
  | .local _ .vmem, ⟨34, _⟩ => ⟨S10000x128, .f32⟩
  | .local _ .vmem, ⟨35, _⟩ => ⟨S10000x128, .f32⟩
  | _, _ => ⟨S800000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_9 : Ref sig .tc := ⟨.hbm, 75, rfl⟩
abbrev main_v52 : Ref sig .tc := ⟨.hbm, 76, rfl⟩
abbrev main_v53 : Ref sig .tc := ⟨.hbm, 77, rfl⟩
abbrev main_c_10 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_12 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_c_13 : Ref sig .tc := ⟨.hbm, 98, rfl⟩
abbrev main_v71 : Ref sig .tc := ⟨.hbm, 99, rfl⟩
abbrev main_v72 : Ref sig .tc := ⟨.hbm, 100, rfl⟩
abbrev main_c_14 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_c_15 : Ref sig .tc := ⟨.hbm, 107, rfl⟩
abbrev main_v78 : Ref sig .tc := ⟨.hbm, 108, rfl⟩
abbrev main_v79 : Ref sig .tc := ⟨.hbm, 109, rfl⟩
abbrev main_c_16 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_c_17 : Ref sig .tc := ⟨.hbm, 121, rfl⟩
abbrev main_v90 : Ref sig .tc := ⟨.hbm, 122, rfl⟩
abbrev main_v91 : Ref sig .tc := ⟨.hbm, 123, rfl⟩
abbrev main_c_18 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_c_19 : Ref sig .tc := ⟨.hbm, 130, rfl⟩
abbrev main_v97 : Ref sig .tc := ⟨.hbm, 131, rfl⟩
abbrev main_v98 : Ref sig .tc := ⟨.hbm, 132, rfl⟩
abbrev main_c_20 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x128 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000x1 : S_.BroadcastsInDim S800000x1 (![] : Fin 0 → Fin S800000x1.rank)
  bcast_S_S50000x1 : S_.BroadcastsInDim S50000x1 (![] : Fin 0 → Fin S50000x1.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S256x128_S128x128_0_0 : S256x128.Slices ![0, 0] S128x128
  slices_S256x128_S128x128_128_0 : S256x128.Slices ![128, 0] S128x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  packedbf16_S10000x128_S10000x128_0_0 : (Rect.unit (s := S10000x128) ![0, 0] S10000x128.size inb_S10000x128_S10000x128_0_0).PackedRows (EltTy.packing .bf16)
  bcast_S_S800000 : S_.BroadcastsInDim S800000 (![] : Fin 0 → Fin S800000.rank)
  concatenates_S800000x128_S800000x128_S800000x256_d1 : Shape.Concatenates [S800000x128, S800000x128] S800000x256 1
  slices_S256x1_S128x1_0_0 : S256x1.Slices ![0, 0] S128x1
  slices_S256x1_S128x1_128_0 : S256x1.Slices ![128, 0] S128x1
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  shapeCasts_S800000x1_S800000 : S800000x1.ShapeCasts S800000
  scatter_S50000x1_S800000x1_S800000x1_1_0_0_1_wf : ScatterDims.WF S50000x1 S800000x1 S800000x1 [1] [0] [0] 1
  scatter_S50000x128_S800000x1_S800000x128_1_0_0_1_wf : ScatterDims.WF S50000x128 S800000x1 S800000x128 [1] [0] [0] 1
  dot_S10000x128_S128x128_S10000x128_1_0_0_1_n_n_wf : DotDims.WF S10000x128 S128x128 S10000x128 [1] [0] [0] [1] [] []
  gather_S50000x128_S800000x1_S800000x128_1_0_n_n_0_1_1128_wf : GatherDims.WF S50000x128 S800000x1 S800000x128 [1] [0] [] [0] [] 1 ![1, 128]
  dot_S50000x128_S128x1_S50000x1_1_0_0_1_n_n_wf : DotDims.WF S50000x128 S128x1 S50000x1 [1] [0] [0] [1] [] []
  gather_S50000x1_S800000x1_S800000x1_1_0_n_n_0_1_11_wf : GatherDims.WF S50000x1 S800000x1 S800000x1 [1] [0] [] [0] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S50000x128.size a
  hwx0_1 : ∀ i : grid0.Coords, EltTy.bits .f32 = 32 ∨ (Rect.block (s := S50000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S50000x128.size a
  hwx0_5 : ∀ i : grid0.Coords, EltTy.bits .bf16 = 32 ∨ (Rect.block (s := S50000x128) S10000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .bf16 = 32 ∨ (Rect.block (s := S50000x128) S10000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S50000x128.size a
  hwx1_1 : ∀ i : grid1.Coords, EltTy.bits .f32 = 32 ∨ (Rect.block (s := S50000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S50000x128.size a
  hwx1_5 : ∀ i : grid1.Coords, EltTy.bits .bf16 = 32 ∨ (Rect.block (s := S50000x128) S10000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .bf16 = 32 ∨ (Rect.block (s := S50000x128) S10000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S50000x128.size a
  hwx2_1 : ∀ i : grid2.Coords, EltTy.bits .f32 = 32 ∨ (Rect.block (s := S50000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x128.size a ≤ S50000x128.size a
  hwx2_5 : ∀ i : grid2.Coords, EltTy.bits .bf16 = 32 ∨ (Rect.block (s := S50000x128) S10000x128.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .bf16 = 32 ∨ (Rect.block (s := S50000x128) S10000x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S50000x128.size a
  hwx3_1 : ∀ i : grid3.Coords, EltTy.bits .f32 = 32 ∨ (Rect.block (s := S50000x128) S10000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x128.size a ≤ S50000x128.size a
  hwx3_5 : ∀ i : grid3.Coords, EltTy.bits .f32 = 32 ∨ (Rect.block (s := S50000x128) S10000x128.size (cc3_transform_5 i) (hinb3_5 i)).WholeWords (EltTy.packing .f32)

variable [Facts₀]

def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf
def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf

abbrev win0_0 : Pipeline.Window sig grid0 :=
  Pipeline.Window.ofSpec (Memref.whole main_v17) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S10000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v28) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v47) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v48) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v49) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v50) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v51) S10000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v51) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S10000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v67) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v68) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v69) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v70) S10000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S800000x128 : Shape := ⟨2, ![800000, 128]⟩
abbrev S2x800000 : Shape := ⟨2, ![2, 800000]⟩
abbrev S256x128 : Shape := ⟨2, ![256, 128]⟩
abbrev S128 : Shape := ⟨1, ![128]⟩
abbrev S256x1 : Shape := ⟨2, ![256, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S50000x128 : Shape := ⟨2, ![50000, 128]⟩
abbrev S800000x1 : Shape := ⟨2, ![800000, 1]⟩
abbrev S50000x1 : Shape := ⟨2, ![50000, 1]⟩
abbrev S50000x256 : Shape := ⟨2, ![50000, 256]⟩
abbrev S1x128 : Shape := ⟨2, ![1, 128]⟩
abbrev S800000x256 : Shape := ⟨2, ![800000, 256]⟩
abbrev S1x1 : Shape := ⟨2, ![1, 1]⟩

abbrev nBuf : Space → Nat
  | .hbm => 165
  | .vmem => 0
  | .smem => 0
  | _ => 0

abbrev hbmTy0_0 (i : Nat) : BufTy := match i % 128 with
  | 0 => ⟨S800000x128, .f32⟩
  | 1 => ⟨S2x800000, .i32⟩
  | 2 => ⟨S256x128, .f32⟩
  | 3 => ⟨S128, .f32⟩
  | 4 => ⟨S256x128, .f32⟩
  | 5 => ⟨S128, .f32⟩
  | 6 => ⟨S256x128, .f32⟩
  | 7 => ⟨S128, .f32⟩
  | 8 => ⟨S256x128, .f32⟩
  | 9 => ⟨S128, .f32⟩
  | 10 => ⟨S256x1, .f32⟩
  | 11 => ⟨S1, .f32⟩
  | 12 => ⟨S1x800000, .i32⟩
  | 13 => ⟨S800000, .i32⟩
  | 14 => ⟨S1x800000, .i32⟩
  | 15 => ⟨S800000, .i32⟩
  | 16 => ⟨S_, .f32⟩
  | 17 => ⟨S50000x128, .f32⟩
  | 18 => ⟨S800000x1, .i32⟩
  | 19 => ⟨S50000x128, .f32⟩
  | 20 => ⟨S_, .f32⟩
  | 21 => ⟨S800000x1, .f32⟩
  | 22 => ⟨S_, .f32⟩
  | 23 => ⟨S50000x1, .f32⟩
  | 24 => ⟨S800000x1, .i32⟩
  | 25 => ⟨S50000x1, .f32⟩
  | 26 => ⟨S_, .f32⟩
  | 27 => ⟨S50000x1, .f32⟩
  | 28 => ⟨S50000x1, .f32⟩
  | 29 => ⟨S50000x128, .f32⟩
  | 30 => ⟨S50000x128, .f32⟩
  | 31 => ⟨S_, .f32⟩
  | 32 => ⟨S50000x128, .f32⟩
  | 33 => ⟨S800000x1, .i32⟩
  | 34 => ⟨S50000x128, .f32⟩
  | 35 => ⟨S_, .f32⟩
  | 36 => ⟨S800000x1, .f32⟩
  | 37 => ⟨S_, .f32⟩
  | 38 => ⟨S50000x1, .f32⟩
  | 39 => ⟨S800000x1, .i32⟩
  | 40 => ⟨S50000x1, .f32⟩
  | 41 => ⟨S_, .f32⟩
  | 42 => ⟨S50000x1, .f32⟩
  | 43 => ⟨S50000x1, .f32⟩
  | 44 => ⟨S50000x128, .f32⟩
  | 45 => ⟨S50000x128, .f32⟩
  | 46 => ⟨S50000x256, .f32⟩
  | 47 => ⟨S50000x128, .f32⟩
  | 48 => ⟨S1x128, .f32⟩
  | 49 => ⟨S50000x128, .f32⟩
  | 50 => ⟨S50000x128, .f32⟩
  | 51 => ⟨S_, .f32⟩
  | 52 => ⟨S50000x128, .f32⟩
  | 53 => ⟨S50000x128, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x128, .f32⟩
  | 63 => ⟨S_, .f32⟩
  | 64 => ⟨S50000x128, .f32⟩
  | 65 => ⟨S800000x1, .i32⟩
  | 66 => ⟨S50000x128, .f32⟩
  | 67 => ⟨S_, .f32⟩
  | 68 => ⟨S800000x1, .f32⟩
  | 69 => ⟨S_, .f32⟩
  | 70 => ⟨S50000x1, .f32⟩
  | 71 => ⟨S800000x1, .i32⟩
  | 72 => ⟨S50000x1, .f32⟩
  | 73 => ⟨S_, .f32⟩
  | 74 => ⟨S50000x1, .f32⟩
  | 75 => ⟨S50000x1, .f32⟩
  | 76 => ⟨S50000x128, .f32⟩
  | 77 => ⟨S50000x128, .f32⟩
  | 78 => ⟨S50000x256, .f32⟩
  | 79 => ⟨S50000x128, .f32⟩
  | 80 => ⟨S1x128, .f32⟩
  | 81 => ⟨S50000x128, .f32⟩
  | 82 => ⟨S50000x128, .f32⟩
  | 83 => ⟨S_, .f32⟩
  | 84 => ⟨S50000x128, .f32⟩
  | 85 => ⟨S50000x128, .f32⟩
  | 86 => ⟨S_, .f32⟩
  | 87 => ⟨S50000x128, .f32⟩
  | 88 => ⟨S800000x1, .i32⟩
  | 89 => ⟨S50000x128, .f32⟩
  | 90 => ⟨S_, .f32⟩
  | 91 => ⟨S800000x1, .f32⟩
  | 92 => ⟨S_, .f32⟩
  | 93 => ⟨S50000x1, .f32⟩
  | 94 => ⟨S800000x1, .i32⟩
  | 95 => ⟨S50000x1, .f32⟩
  | 96 => ⟨S_, .f32⟩
  | 97 => ⟨S50000x1, .f32⟩
  | 98 => ⟨S50000x1, .f32⟩
  | 99 => ⟨S50000x128, .f32⟩
  | 100 => ⟨S50000x128, .f32⟩
  | 101 => ⟨S50000x256, .f32⟩
  | 102 => ⟨S50000x128, .f32⟩
  | 103 => ⟨S1x128, .f32⟩
  | 104 => ⟨S50000x128, .f32⟩
  | 105 => ⟨S50000x128, .f32⟩
  | 106 => ⟨S_, .f32⟩
  | 107 => ⟨S50000x128, .f32⟩
  | 108 => ⟨S50000x128, .f32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S800000x128, .f32⟩
  | 118 => ⟨S_, .f32⟩
  | 119 => ⟨S50000x128, .f32⟩
  | 120 => ⟨S800000x1, .i32⟩
  | 121 => ⟨S50000x128, .f32⟩
  | 122 => ⟨S_, .f32⟩
  | 123 => ⟨S800000x1, .f32⟩
  | 124 => ⟨S_, .f32⟩
  | 125 => ⟨S50000x1, .f32⟩
  | 126 => ⟨S800000x1, .i32⟩
  | 127 => ⟨S50000x1, .f32⟩
  | _ => ⟨S800000x128, .f32⟩

abbrev hbmTy0_1 (i : Nat) : BufTy := match i % 128 with
  | 0 => ⟨S_, .f32⟩
  | 1 => ⟨S50000x1, .f32⟩
  | 2 => ⟨S50000x1, .f32⟩
  | 3 => ⟨S50000x128, .f32⟩
  | 4 => ⟨S50000x128, .f32⟩
  | 5 => ⟨S50000x256, .f32⟩
  | 6 => ⟨S50000x128, .f32⟩
  | 7 => ⟨S1x128, .f32⟩
  | 8 => ⟨S50000x128, .f32⟩
  | 9 => ⟨S50000x128, .f32⟩
  | 10 => ⟨S_, .f32⟩
  | 11 => ⟨S50000x128, .f32⟩
  | 12 => ⟨S50000x128, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x128, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x128, .f32⟩
  | 31 => ⟨S800000x256, .f32⟩
  | 32 => ⟨S800000x1, .f32⟩
  | 33 => ⟨S1x1, .f32⟩
  | 34 => ⟨S800000x1, .f32⟩
  | 35 => ⟨S800000x1, .f32⟩
  | 36 => ⟨S800000, .f32⟩
  | _ => ⟨S800000x128, .f32⟩

abbrev hbmTy (i : Nat) : BufTy := match i / 128 with
  | 0 => hbmTy0_0 i
  | 1 => hbmTy0_1 i
  | _ => ⟨S800000x128, .f32⟩

abbrev bufTy : (tb : Table) → Fin (tcTables nBuf tb) → BufTy
  | .hbm, ⟨i, _⟩ => hbmTy i
  | _, _ => ⟨S800000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_4 : Ref sig .tc := ⟨.hbm, 35, rfl⟩
abbrev main_v18 : Ref sig .tc := ⟨.hbm, 36, rfl⟩
abbrev main_cst_5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_6 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call0_cst : Ref sig .tc := ⟨.hbm, 51, rfl⟩
abbrev main_call0_v0 : Ref sig .tc := ⟨.hbm, 52, rfl⟩
abbrev main_v31 : Ref sig .tc := ⟨.hbm, 53, rfl⟩
abbrev main_c : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_8 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_9 : Ref sig .tc := ⟨.hbm, 67, rfl⟩
abbrev main_v42 : Ref sig .tc := ⟨.hbm, 68, rfl⟩
abbrev main_cst_10 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_11 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_call1_cst : Ref sig .tc := ⟨.hbm, 83, rfl⟩
abbrev main_call1_v0 : Ref sig .tc := ⟨.hbm, 84, rfl⟩
abbrev main_v55 : Ref sig .tc := ⟨.hbm, 85, rfl⟩
abbrev main_cst_12 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_13 : Ref sig .tc := ⟨.hbm, 90, rfl⟩
abbrev main_v59 : Ref sig .tc := ⟨.hbm, 91, rfl⟩
abbrev main_cst_14 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_15 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_call2_cst : Ref sig .tc := ⟨.hbm, 106, rfl⟩
abbrev main_call2_v0 : Ref sig .tc := ⟨.hbm, 107, rfl⟩
abbrev main_v72 : Ref sig .tc := ⟨.hbm, 108, rfl⟩
abbrev main_c_16 : Ref sig .tc := ⟨.hbm, 109, rfl⟩
abbrev main_v73 : Ref sig .tc := ⟨.hbm, 110, rfl⟩
abbrev main_v74 : Ref sig .tc := ⟨.hbm, 111, rfl⟩
abbrev main_c_17 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst_18 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_cst_19 : Ref sig .tc := ⟨.hbm, 122, rfl⟩
abbrev main_v83 : Ref sig .tc := ⟨.hbm, 123, rfl⟩
abbrev main_cst_20 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_cst_21 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_call3_cst : Ref sig .tc := ⟨.hbm, 138, rfl⟩
abbrev main_call3_v0 : Ref sig .tc := ⟨.hbm, 139, rfl⟩
abbrev main_v96 : Ref sig .tc := ⟨.hbm, 140, rfl⟩
abbrev main_c_22 : Ref sig .tc := ⟨.hbm, 141, rfl⟩
abbrev main_v97 : Ref sig .tc := ⟨.hbm, 142, rfl⟩
abbrev main_v98 : Ref sig .tc := ⟨.hbm, 143, rfl⟩
abbrev main_c_23 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_c_24 : Ref sig .tc := ⟨.hbm, 150, rfl⟩
abbrev main_v104 : Ref sig .tc := ⟨.hbm, 151, rfl⟩
abbrev main_v105 : Ref sig .tc := ⟨.hbm, 152, rfl⟩
abbrev main_c_25 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000x128 : S_.BroadcastsInDim S50000x128 (![] : Fin 0 → Fin S50000x128.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  concatenates_S800000x128_S800000x128_S800000x256_d1 : Shape.Concatenates [S800000x128, S800000x128] S800000x256 1
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  shapeCasts_S800000x1_S800000 : S800000x1.ShapeCasts S800000
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  dot_S800000x256_S256x1_S800000x1_1_0_0_1_n_n_wf : DotDims.WF S800000x256 S256x1 S800000x1 [1] [0] [0] [1] [] []

variable [Facts₀]

def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x1_S800000x1_1_0_0_1_n_n : DotDims S800000x256 S256x1 S800000x1 where
  lhsContracting := [1]
  rhsContracting := [0]
  lhsNonContracting := [0]
  rhsNonContracting := [1]
  lhsBatch := []
  rhsBatch := []
  wf := dot_S800000x256_S256x1_S800000x1_1_0_0_1_n_n_wf

class Facts : Prop extends Facts₀ where

variable [Facts]
-- ==== Proof.Spec.lean ====
/-
  The network both programs compute, as functions of the twelve argument arrays over the extended reals.

  There are 50000 nodes and 800000 edges.  The integer array `ei` has two rows of edge endpoints: row 0 the source
  node of each edge, row 1 its target node.  `x0` holds one row of 128 features per edge.

  * `segMean x idx` is the mean of the rows of `x` over the edges that `idx` sends to a node: the rows are added into
    the node named by the index (an index outside 0 … 49999 adds nowhere) and the sum is divided by the number of such
    edges, or by 1 where there is none (`count`, clipped below at 1).
  * `rows t idx` takes, for each edge, the row of the node table `t` named by `idx`: a negative index counts from the
    end (`wrap`), and the row number is then brought into 0 … 49999.
  * `layer a b W bias` joins the features `a` and `b` of a node side by side (256 numbers), multiplies by the
    [256, 128] weight, adds the bias and clips below at zero.

  The node features start as the mean of the incoming edges' features (`node0`); `eagg` is the mean over outgoing
  edges.  Each of the two rounds computes hidden features `h = layer node eagg` and then
  `node' = layer h (neigh h)`, where `neigh h` is, per node, the mean over incoming edges of the hidden features of
  the edge's source.  The results are the last node features (`node2`), their rows at both endpoints of every edge side
  by side (`edgeEmb`), and a score per edge: that row of 256 numbers times the [256, 1] weight, plus the bias
  (`logits`).  Every piece is spelt with the host operations of the printed reference program.
-/
import proofs.«147803_j8229157339892_2_alg».proof.Proof.Gen.ReferenceIdeal
import Idealize.ShloMosaic.PureOps.Ideal

noncomputable section

namespace Cert.Spec

open Cert.ReferenceIdeal Cert.ReferenceIdeal.Facts₀ Cert.ReferenceIdeal.Facts Idealize.ShloMosaic

abbrev Edges := (⟨S2x800000, .i32⟩ : BufTy).Contents (Elt Ideal)
abbrev EdgeVec := (⟨S800000, .i32⟩ : BufTy).Contents (Elt Ideal)
abbrev EdgeFeat := FVec Ideal S800000x128 .f32
abbrev NodeFeat := FVec Ideal S50000x128 .f32
abbrev Weight := FVec Ideal S256x128 .f32
abbrev Bias := FVec Ideal S128 .f32

/-- Row 0 of the endpoint array: each edge's source node. -/
def src (ei : Edges) : EdgeVec :=
  shapeCast S800000 (extractStridedSlice S1x800000 ![0, 0] ei slices_S2x800000_S1x800000_0_0) shapeCasts_S1x800000_S800000
/-- Row 1 of the endpoint array: each edge's target node. -/
def dst (ei : Edges) : EdgeVec :=
  shapeCast S800000 (extractStridedSlice S1x800000 ![1, 0] ei slices_S2x800000_S1x800000_1_0) shapeCasts_S1x800000_S800000

/-- An index vector laid out as a column, the form a gather or a scatter reads. -/
def col (v : EdgeVec) : (⟨S800000x1, .i32⟩ : BufTy).Contents (Elt Ideal) :=
  broadcastInDim S800000x1 ![0] bcast_S800000_S800000x1_0 v

/-- How many edges the index sends to each node. -/
def count (idx : EdgeVec) : FVec Ideal S50000x1 .f32 :=
  Host.scatterAdd (F := Ideal) scatter_S50000x1_S800000x1_S800000x1_1_0_0_1
    (broadcastInDim S50000x1 ![] bcast_S_S50000x1 (constant (F := Ideal) S_ .f32 0x00000000#32))
    (col idx)
    (broadcastInDim S800000x1 ![] bcast_S_S800000x1 (constant (F := Ideal) S_ .f32 0x3F800000#32))

/-- The mean of the rows of `x` over the edges sent to each node (the sum where no edge is sent there). -/
def segMean (x : EdgeFeat) (idx : EdgeVec) : NodeFeat :=
  Host.divf (F := Ideal)
    (Host.scatterAdd (F := Ideal) scatter_S50000x128_S800000x1_S800000x128_1_0_0_1
      (broadcastInDim S50000x128 ![] bcast_S_S50000x128 (constant (F := Ideal) S_ .f32 0x00000000#32)) (col idx) x)
    (broadcastInDim S50000x128 ![0, 1] bcast_S50000x1_S50000x128_0_1
      (maximumf (count idx) (broadcastInDim S50000x1 ![] bcast_S_S50000x1 (constant (F := Ideal) S_ .f32 0x3F800000#32))))

/-- A negative index counts from the end: 50000 is added to it. -/
def wrap (v : EdgeVec) : EdgeVec :=
  select (cmpi .slt v (broadcastInDim S800000 ![] bcast_S_S800000 (constantI S_ 32 0#32)))
    (addi v (broadcastInDim S800000 ![] bcast_S_S800000 (constantI S_ 32 50000#32))) v

/-- For each edge, the row of the node table that the index names. -/
def rows (t : NodeFeat) (idx : EdgeVec) : EdgeFeat :=
  Host.gather gather_S50000x128_S800000x1_S800000x128_1_0_n_n_0_1_1128 t (col (wrap idx))

/-- One dense step on the joined features: (a | b) · W + bias, clipped below at zero. -/
def layer (a b : NodeFeat) (W : Weight) (bias : Bias) : NodeFeat :=
  maximumf (addf (Host.dotGeneral (F := Ideal) (φ₁ := .f32) (φ₂ := .f32) dot_S50000x256_S256x128_S50000x128_1_0_0_1_n_n none
        (concatenate S50000x256 1 [⟨S50000x128, a⟩, ⟨S50000x128, b⟩] concatenates_S50000x128_S50000x128_S50000x256_d1) W)
      (broadcastInDim S50000x128 ![0, 1] bcast_S1x128_S50000x128_0_1 (broadcastInDim S1x128 ![1] bcast_S128_S1x128_1 bias)))
    (broadcastInDim S50000x128 ![] bcast_S_S50000x128 (constant (F := Ideal) S_ .f32 0x00000000#32))

/-- Per node, the mean over incoming edges of the hidden features of the edge's source. -/
def neigh (h : NodeFeat) (ei : Edges) : NodeFeat := segMean (rows h (src ei)) (dst ei)

section Net
variable (x0 : EdgeFeat) (ei : Edges) (W0e : Weight) (b0e : Bias) (W0n : Weight) (b0n : Bias)
  (W1e : Weight) (b1e : Bias) (W1n : Weight) (b1n : Bias)

/-- The starting node features: the mean of the incoming edges' features. -/
def node0 : NodeFeat := segMean x0 (dst ei)
/-- The mean of the outgoing edges' features. -/
def eagg : NodeFeat := segMean x0 (src ei)
def h0 : NodeFeat := layer (node0 x0 ei) (eagg x0 ei) W0e b0e
def node1 : NodeFeat := layer (h0 x0 ei W0e b0e) (neigh (h0 x0 ei W0e b0e) ei) W0n b0n
def h1 : NodeFeat := layer (node1 x0 ei W0e b0e W0n b0n) (eagg x0 ei) W1e b1e
/-- The node embeddings. -/
def node2 : NodeFeat :=
  layer (h1 x0 ei W0e b0e W0n b0n W1e b1e) (neigh (h1 x0 ei W0e b0e W0n b0n W1e b1e) ei) W1n b1n
end Net

/-- The edge embeddings of a node table: its rows at the source and at the target of every edge, side by side. -/
def edgeEmb (n : NodeFeat) (ei : Edges) : FVec Ideal S800000x256 .f32 :=
  concatenate S800000x256 1 [⟨S800000x128, rows n (src ei)⟩, ⟨S800000x128, rows n (dst ei)⟩]
    concatenates_S800000x128_S800000x128_S800000x256_d1

/-- The bias of the final score, repeated down the edges. -/
def scoreBias (bf : FVec Ideal S1 .f32) : FVec Ideal S800000x1 .f32 :=
  broadcastInDim S800000x1 ![0, 1] bcast_S1x1_S800000x1_0_1 (broadcastInDim S1x1 ![1] bcast_S1_S1x1_1 bf)

/-- The score of every edge: its embedding times the [256, 1] weight, plus the bias. -/
def logits (n : NodeFeat) (ei : Edges) (Wf : FVec Ideal S256x1 .f32) (bf : FVec Ideal S1 .f32) : FVec Ideal S800000 .f32 :=
  shapeCast S800000 (addf (Host.dotGeneral (F := Ideal) (φ₁ := .f32) (φ₂ := .f32) dot_S800000x256_S256x1_S800000x1_1_0_0_1_n_n none (edgeEmb n ei) Wf) (scoreBias bf))
    shapeCasts_S800000x1_S800000

end Cert.Spec

end
-- ==== Proof.Keep.lean ====
/-
  Which buffers survive which parts of the kernel program.

  The program's buffer contents are followed from the launch through five stretches of host operations and four
  tiled regions (boundaries 0 … 9: stretch j leads from boundary 2j to 2j+1, region j from 2j+1 to 2j+2).  A host
  stretch changes only the buffers its operations write; a region changes only its own six arrays.  So a value
  computed early — the two index vectors, the in-degree counts, the aggregated edge features, a layer's output — and
  every argument array is found unchanged at each later boundary where it is read.
-/
import proofs.«147803_j8229157339892_2_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-! ## What each stretch writes -/

/-- The buffers stretch 0's operations write. -/
abbrev wr0 : List (Ref sig .tc) := [main_v0, main_v1, main_v2, main_v3, main_cst, main_v4, main_cst_0, main_v5, main_v6, main_v7, main_cst_1, main_v8, main_v9, main_v10, main_cst_2, main_v11, main_v12, main_v13, main_cst_3, main_v14, main_v15, main_v16, main_v17, main_cst_4, main_v18, main_v19, main_v20, main_cst_5, main_v21, main_v22, main_v23, main_v24, main_v25, main_v26, main_v27]
theorem hostOps0_writes : (hostOps0 : List (HloOp τ sig (Elt F))).Forall fun op => op.writes ⊆ (wr0.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer stretch 0 does not write holds after it what it held before it. -/
theorem W1_of (c : Dev nD) (r : Ref sig .tc) (h : r ∉ wr0) :
    W1 m ρ c (Proc.devRef .tc r) = W0 m ρ c (Proc.devRef .tc r) :=
  StableHlo.after_of_writes_sub hostOps0 _ hostOps0_writes h

/-- The buffers stretch 1's operations write. -/
abbrev wr1 : List (Ref sig .tc) := [main_c, main_v29, main_v30, main_c_6, main_v31, main_v32, main_v33, main_v34, main_v35, main_v36, main_cst_7, main_v37, main_v38, main_v39, main_cst_8, main_v40, main_v41, main_v42, main_v43, main_v44, main_v45, main_v46]
theorem hostOps1_writes : (hostOps1 : List (HloOp τ sig (Elt F))).Forall fun op => op.writes ⊆ (wr1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer stretch 1 does not write holds after it what it held before it. -/
theorem W3_of (c : Dev nD) (r : Ref sig .tc) (h : r ∉ wr1) :
    W3 m ρ c (Proc.devRef .tc r) = W2 m ρ c (Proc.devRef .tc r) :=
  StableHlo.after_of_writes_sub hostOps1 _ hostOps1_writes h

/-- The buffers stretch 2's operations write. -/
abbrev wr2 : List (Ref sig .tc) := [main_v48, main_v49, main_v50]
theorem hostOps2_writes : (hostOps2 : List (HloOp τ sig (Elt F))).Forall fun op => op.writes ⊆ (wr2.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer stretch 2 does not write holds after it what it held before it. -/
theorem W5_of (c : Dev nD) (r : Ref sig .tc) (h : r ∉ wr2) :
    W5 m ρ c (Proc.devRef .tc r) = W4 m ρ c (Proc.devRef .tc r) :=
  StableHlo.after_of_writes_sub hostOps2 _ hostOps2_writes h

/-- The buffers stretch 3's operations write. -/
abbrev wr3 : List (Ref sig .tc) := [main_c_9, main_v52, main_v53, main_c_10, main_v54, main_v55, main_v56, main_v57, main_v58, main_v59, main_cst_11, main_v60, main_v61, main_v62, main_cst_12, main_v63, main_v64, main_v65, main_v66, main_v67, main_v68, main_v69]
theorem hostOps3_writes : (hostOps3 : List (HloOp τ sig (Elt F))).Forall fun op => op.writes ⊆ (wr3.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer stretch 3 does not write holds after it what it held before it. -/
theorem W7_of (c : Dev nD) (r : Ref sig .tc) (h : r ∉ wr3) :
    W7 m ρ c (Proc.devRef .tc r) = W6 m ρ c (Proc.devRef .tc r) :=
  StableHlo.after_of_writes_sub hostOps3 _ hostOps3_writes h

/-- The buffers stretch 4's operations write. -/
abbrev wr4 : List (Ref sig .tc) := [main_c_13, main_v71, main_v72, main_c_14, main_v73, main_v74, main_v75, main_v76, main_v77, main_c_15, main_v78, main_v79, main_c_16, main_v80, main_v81, main_v82, main_v83, main_v84, main_v85, main_v86, main_v87, main_v88, main_v89, main_c_17, main_v90, main_v91, main_c_18, main_v92, main_v93, main_v94, main_v95, main_v96, main_c_19, main_v97, main_v98, main_c_20, main_v99, main_v100, main_v101, main_v102, main_v103, main_v104, main_v105, main_v106, main_v107, main_v108]
theorem hostOps4_writes : (hostOps4 : List (HloOp τ sig (Elt F))).Forall fun op => op.writes ⊆ (wr4.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer stretch 4 does not write holds after it what it held before it. -/
theorem W9_of (c : Dev nD) (r : Ref sig .tc) (h : r ∉ wr4) :
    W9 m ρ c (Proc.devRef .tc r) = W8 m ρ c (Proc.devRef .tc r) :=
  StableHlo.after_of_writes_sub hostOps4 _ hostOps4_writes h

/-! ## The index vectors and the in-degree counts, where the later stretches read them -/

/-- The source-node indices at the first region's exit. -/
theorem src_at2 (c : Dev nD) : W2 m ρ c (Proc.devRef .tc main_v1) = W1 m ρ c (Proc.devRef .tc main_v1) :=
  (W2_of_ne m ρ c main_v1 (by decide))

/-- The target-node indices at the first region's exit. -/
theorem dst_at2 (c : Dev nD) : W2 m ρ c (Proc.devRef .tc main_v3) = W1 m ρ c (Proc.devRef .tc main_v3) :=
  (W2_of_ne m ρ c main_v3 (by decide))

/-- The in-degree counts at the first region's exit. -/
theorem cnt_at2 (c : Dev nD) : W2 m ρ c (Proc.devRef .tc main_v7) = W1 m ρ c (Proc.devRef .tc main_v7) :=
  (W2_of_ne m ρ c main_v7 (by decide))

/-- The source-node indices at the third region's exit. -/
theorem src_at6 (c : Dev nD) : W6 m ρ c (Proc.devRef .tc main_v1) = W1 m ρ c (Proc.devRef .tc main_v1) :=
  (W6_of_ne m ρ c main_v1 (by decide)).trans ((W5_of m ρ c main_v1 (by decide)).trans ((W4_of_ne m ρ c main_v1 (by decide)).trans ((W3_of m ρ c main_v1 (by decide)).trans ((W2_of_ne m ρ c main_v1 (by decide))))))

/-- The target-node indices at the third region's exit. -/
theorem dst_at6 (c : Dev nD) : W6 m ρ c (Proc.devRef .tc main_v3) = W1 m ρ c (Proc.devRef .tc main_v3) :=
  (W6_of_ne m ρ c main_v3 (by decide)).trans ((W5_of m ρ c main_v3 (by decide)).trans ((W4_of_ne m ρ c main_v3 (by decide)).trans ((W3_of m ρ c main_v3 (by decide)).trans ((W2_of_ne m ρ c main_v3 (by decide))))))

/-- The in-degree counts at the third region's exit. -/
theorem cnt_at6 (c : Dev nD) : W6 m ρ c (Proc.devRef .tc main_v7) = W1 m ρ c (Proc.devRef .tc main_v7) :=
  (W6_of_ne m ρ c main_v7 (by decide)).trans ((W5_of m ρ c main_v7 (by decide)).trans ((W4_of_ne m ρ c main_v7 (by decide)).trans ((W3_of m ρ c main_v7 (by decide)).trans ((W2_of_ne m ρ c main_v7 (by decide))))))

/-- The source-node indices at the last region's exit. -/
theorem src_at8 (c : Dev nD) : W8 m ρ c (Proc.devRef .tc main_v1) = W1 m ρ c (Proc.devRef .tc main_v1) :=
  (W8_of_ne m ρ c main_v1 (by decide)).trans ((W7_of m ρ c main_v1 (by decide)).trans ((W6_of_ne m ρ c main_v1 (by decide)).trans ((W5_of m ρ c main_v1 (by decide)).trans ((W4_of_ne m ρ c main_v1 (by decide)).trans ((W3_of m ρ c main_v1 (by decide)).trans ((W2_of_ne m ρ c main_v1 (by decide))))))))

/-- The target-node indices at the last region's exit. -/
theorem dst_at8 (c : Dev nD) : W8 m ρ c (Proc.devRef .tc main_v3) = W1 m ρ c (Proc.devRef .tc main_v3) :=
  (W8_of_ne m ρ c main_v3 (by decide)).trans ((W7_of m ρ c main_v3 (by decide)).trans ((W6_of_ne m ρ c main_v3 (by decide)).trans ((W5_of m ρ c main_v3 (by decide)).trans ((W4_of_ne m ρ c main_v3 (by decide)).trans ((W3_of m ρ c main_v3 (by decide)).trans ((W2_of_ne m ρ c main_v3 (by decide))))))))

/-! ## Layer outputs and the aggregated edge features, where the next region reads them -/

/-- The first layer's hidden features, written by region 0, at region 1's entry. -/
theorem h0_at3 (c : Dev nD) : W3 m ρ c (Proc.devRef .tc main_v28) = W2 m ρ c (Proc.devRef .tc main_v28) :=
  (W3_of m ρ c main_v28 (by decide))

/-- Region 0 only READS the aggregated edge features (they are its second input window): an input window's array is
    never written back, so it leaves the region as it entered. -/
theorem eagg_at2 (c : Dev nD) : W2 m ρ c (Proc.devRef .tc main_v24) = W1 m ρ c (Proc.devRef .tc main_v24) :=
  (W2_arr m ρ c 1).trans (((dat0 (V1 m ρ) c).arrAt_in 1 rfl cfg0.N).trans (A_eq0 (V1 m ρ) c 1))
/-- The aggregated edge features, computed before region 0, at region 2's entry. -/
theorem eagg_at5 (c : Dev nD) : W5 m ρ c (Proc.devRef .tc main_v24) = W1 m ρ c (Proc.devRef .tc main_v24) :=
  (W5_of m ρ c main_v24 (by decide)).trans ((W4_of_ne m ρ c main_v24 (by decide)).trans ((W3_of m ρ c main_v24 (by decide)).trans (eagg_at2 m ρ c)))

/-- The first layer's node features, written by region 1, at region 2's entry. -/
theorem node1_at5 (c : Dev nD) : W5 m ρ c (Proc.devRef .tc main_v47) = W4 m ρ c (Proc.devRef .tc main_v47) :=
  (W5_of m ρ c main_v47 (by decide))

/-- The second layer's hidden features, written by region 2, at region 3's entry. -/
theorem h1_at7 (c : Dev nD) : W7 m ρ c (Proc.devRef .tc main_v51) = W6 m ρ c (Proc.devRef .tc main_v51) :=
  (W7_of m ρ c main_v51 (by decide))

/-- The last layer's node features, written by region 3, at the end. -/
theorem node2_at9 (c : Dev nD) : W9 m ρ c (Proc.devRef .tc main_v70) = W8 m ρ c (Proc.devRef .tc main_v70) :=
  (W9_of m ρ c main_v70 (by decide))

/-! ## The arguments, where each stretch reads them -/

/-- Argument 4 is still as launched when boundary 2 is reached. -/
theorem arg4_at2 (c : Dev nD) : W2 m ρ c (Proc.devRef .tc main_arg4) = m ((c.tc : Thread nD τ).loc main_arg4) :=
  ((W2_of_ne m ρ c main_arg4 (by decide)).trans ((W1_of m ρ c main_arg4 (by decide)))).trans rfl

/-- Argument 5 is still as launched when boundary 2 is reached. -/
theorem arg5_at2 (c : Dev nD) : W2 m ρ c (Proc.devRef .tc main_arg5) = m ((c.tc : Thread nD τ).loc main_arg5) :=
  ((W2_of_ne m ρ c main_arg5 (by decide)).trans ((W1_of m ρ c main_arg5 (by decide)))).trans rfl

/-- Argument 6 is still as launched when boundary 4 is reached. -/
theorem arg6_at4 (c : Dev nD) : W4 m ρ c (Proc.devRef .tc main_arg6) = m ((c.tc : Thread nD τ).loc main_arg6) :=
  ((W4_of_ne m ρ c main_arg6 (by decide)).trans ((W3_of m ρ c main_arg6 (by decide)).trans ((W2_of_ne m ρ c main_arg6 (by decide)).trans ((W1_of m ρ c main_arg6 (by decide)))))).trans rfl

/-- Argument 7 is still as launched when boundary 4 is reached. -/
theorem arg7_at4 (c : Dev nD) : W4 m ρ c (Proc.devRef .tc main_arg7) = m ((c.tc : Thread nD τ).loc main_arg7) :=
  ((W4_of_ne m ρ c main_arg7 (by decide)).trans ((W3_of m ρ c main_arg7 (by decide)).trans ((W2_of_ne m ρ c main_arg7 (by decide)).trans ((W1_of m ρ c main_arg7 (by decide)))))).trans rfl

/-- Argument 8 is still as launched when boundary 6 is reached. -/
theorem arg8_at6 (c : Dev nD) : W6 m ρ c (Proc.devRef .tc main_arg8) = m ((c.tc : Thread nD τ).loc main_arg8) :=
  ((W6_of_ne m ρ c main_arg8 (by decide)).trans ((W5_of m ρ c main_arg8 (by decide)).trans ((W4_of_ne m ρ c main_arg8 (by decide)).trans ((W3_of m ρ c main_arg8 (by decide)).trans ((W2_of_ne m ρ c main_arg8 (by decide)).trans ((W1_of m ρ c main_arg8 (by decide)))))))).trans rfl

/-- Argument 9 is still as launched when boundary 6 is reached. -/
theorem arg9_at6 (c : Dev nD) : W6 m ρ c (Proc.devRef .tc main_arg9) = m ((c.tc : Thread nD τ).loc main_arg9) :=
  ((W6_of_ne m ρ c main_arg9 (by decide)).trans ((W5_of m ρ c main_arg9 (by decide)).trans ((W4_of_ne m ρ c main_arg9 (by decide)).trans ((W3_of m ρ c main_arg9 (by decide)).trans ((W2_of_ne m ρ c main_arg9 (by decide)).trans ((W1_of m ρ c main_arg9 (by decide)))))))).trans rfl

/-- Argument 10 is still as launched when boundary 8 is reached. -/
theorem arg10_at8 (c : Dev nD) : W8 m ρ c (Proc.devRef .tc main_arg10) = m ((c.tc : Thread nD τ).loc main_arg10) :=
  ((W8_of_ne m ρ c main_arg10 (by decide)).trans ((W7_of m ρ c main_arg10 (by decide)).trans ((W6_of_ne m ρ c main_arg10 (by decide)).trans ((W5_of m ρ c main_arg10 (by decide)).trans ((W4_of_ne m ρ c main_arg10 (by decide)).trans ((W3_of m ρ c main_arg10 (by decide)).trans ((W2_of_ne m ρ c main_arg10 (by decide)).trans ((W1_of m ρ c main_arg10 (by decide)))))))))).trans rfl

/-- Argument 11 is still as launched when boundary 8 is reached. -/
theorem arg11_at8 (c : Dev nD) : W8 m ρ c (Proc.devRef .tc main_arg11) = m ((c.tc : Thread nD τ).loc main_arg11) :=
  ((W8_of_ne m ρ c main_arg11 (by decide)).trans ((W7_of m ρ c main_arg11 (by decide)).trans ((W6_of_ne m ρ c main_arg11 (by decide)).trans ((W5_of m ρ c main_arg11 (by decide)).trans ((W4_of_ne m ρ c main_arg11 (by decide)).trans ((W3_of m ρ c main_arg11 (by decide)).trans ((W2_of_ne m ρ c main_arg11 (by decide)).trans ((W1_of m ρ c main_arg11 (by decide)))))))))).trans rfl

end Cert.KernelIdeal.Keep

end
-- ==== Proof.KernelRun.lean ====
/-
  The kernel program's run with its three results named.

  The program is four tiled regions among five stretches of host operations.  Running it from any memory with zero
  counters, every weakly fair execution terminates without a fault, and at the end every buffer that outlives the
  regions holds the contents obtained by folding the program over the launch memory: each host stretch applies its
  operations in order, each region replaces its output array by what its tiles wrote back and leaves every other
  buffer as it found it.  That fold is `Gen.W9`.  Here the end state is read at the three result buffers (the edge
  scores, the edge embeddings and the node embeddings) and at the twelve argument buffers, which no host operation
  and no region writes.
-/
import proofs.«147803_j8229157339892_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with each result buffer at the fold's
    contents and each argument buffer as launched. -/
theorem run : θ_run defs (onTc (τ := τ) (main (F := F))) ⟨m, fun _ => 0, ρ⟩ (fun r => ∀ c : Dev nD,
      r.2.mem ((c.tc : Thread nD τ).loc main_v108) = W9 m ρ c (Proc.devRef .tc main_v108)
      ∧ r.2.mem ((c.tc : Thread nD τ).loc main_v85) = W9 m ρ c (Proc.devRef .tc main_v85)
      ∧ r.2.mem ((c.tc : Thread nD τ).loc main_v70) = W9 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v108 (by decide)),
       h c _ (mem_uc main_v85 (by decide)),
       h c _ (mem_uc main_v70 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c)⟩)

end Cert.KernelIdeal.RunValue

end
-- ==== Proof.Stage0.lean ====
/-
  The kernel program's first stretch of host operations, read as functions of the arguments.

  Before the first tiled region the program splits the endpoint array into the source and target index vectors,
  counts the edges arriving at each node, forms the two segment means of the edge features (over incoming edges: the
  starting node features; over outgoing edges: the aggregated edge features), cuts the first [256, 128] weight into
  its upper and lower [128, 128] halves and lays the first bias out as a row.  Each of these buffers, when the first
  region is entered, holds the corresponding function of the argument arrays: the operations are, one for one, the
  ones the specification is spelt with.
-/
import proofs.«147803_j8229157339892_2_alg».proof.Proof.Gen.KernelIdeal.Frame
import proofs.«147803_j8229157339892_2_alg».proof.Proof.Spec

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The source-node index vector. -/
theorem s0_src (c : Dev nD) : V1 m ρ c main_v1 = Cert.Spec.src (m ((c.tc : Thread nD τ).loc main_arg1)) := by
  show StableHlo.after hostOps0 (W0 m ρ c) (Proc.devRef .tc main_v1) = _
  dsimp only [hostOps0]
  after_results_simp
  rfl

/-- The target-node index vector. -/
theorem s0_dst (c : Dev nD) : V1 m ρ c main_v3 = Cert.Spec.dst (m ((c.tc : Thread nD τ).loc main_arg1)) := by
  show StableHlo.after hostOps0 (W0 m ρ c) (Proc.devRef .tc main_v3) = _
  dsimp only [hostOps0]
  after_results_simp
  rfl

/-- The number of edges arriving at each node. -/
theorem s0_cnt (c : Dev nD) : V1 m ρ c main_v7 = Cert.Spec.count (Cert.Spec.dst (m ((c.tc : Thread nD τ).loc main_arg1))) := by
  show StableHlo.after hostOps0 (W0 m ρ c) (Proc.devRef .tc main_v7) = _
  dsimp only [hostOps0]
  after_results_simp
  rfl

/-- The starting node features: the mean of the incoming edges' features. -/
theorem s0_node0 (c : Dev nD) : V1 m ρ c main_v17 = Cert.Spec.node0 (m ((c.tc : Thread nD τ).loc main_arg0)) (m ((c.tc : Thread nD τ).loc main_arg1)) := by
  show StableHlo.after hostOps0 (W0 m ρ c) (Proc.devRef .tc main_v17) = _
  dsimp only [hostOps0]
  after_results_simp
  rfl

/-- The aggregated edge features: the mean of the outgoing edges' features. -/
theorem s0_eagg (c : Dev nD) : V1 m ρ c main_v24 = Cert.Spec.eagg (m ((c.tc : Thread nD τ).loc main_arg0)) (m ((c.tc : Thread nD τ).loc main_arg1)) := by
  show StableHlo.after hostOps0 (W0 m ρ c) (Proc.devRef .tc main_v24) = _
  dsimp only [hostOps0]
  after_results_simp
  rfl

/-- The upper half of the first weight. -/
theorem s0_wa (c : Dev nD) : V1 m ρ c main_v25 = extractStridedSlice S128x128 ![0, 0] (m ((c.tc : Thread nD τ).loc main_arg2)) slices_S256x128_S128x128_0_0 := by
  show StableHlo.after hostOps0 (W0 m ρ c) (Proc.devRef .tc main_v25) = _
  dsimp only [hostOps0]
  after_results_simp

/-- The lower half of the first weight. -/
theorem s0_wb (c : Dev nD) : V1 m ρ c main_v26 = extractStridedSlice S128x128 ![128, 0] (m ((c.tc : Thread nD τ).loc main_arg2)) slices_S256x128_S128x128_128_0 := by
  show StableHlo.after hostOps0 (W0 m ρ c) (Proc.devRef .tc main_v26) = _
  dsimp only [hostOps0]
  after_results_simp

/-- The first bias as a row. -/
theorem s0_bias (c : Dev nD) : V1 m ρ c main_v27 = shapeCast S1x128 (m ((c.tc : Thread nD τ).loc main_arg3)) shapeCasts_S128_S1x128 := by
  show StableHlo.after hostOps0 (W0 m ρ c) (Proc.devRef .tc main_v27) = _
  dsimp only [hostOps0]
  after_results_simp
  rfl

end Cert.KernelIdeal.Stages

end
-- ==== Proof.LibDenseEntries.lean ====
/-
  The two dense maps of the network, entry by entry over the extended reals.

  `affine x w b` is the input projection: entry (r, c) is the sum over k of x(r, k) · w(k, c), plus the bias row's
  entry (0, c).  `combine a h wl wr b` is one layer's dense step: entry (r, c) is the neighbour term
  (sum over k of a(r, k) · wl(k, c)) plus the bias b(0, c), plus the root term (sum over k of h(r, k) · wr(k, c)),
  the additions grouped in that order.  `combineRelu` is the same entry clipped below at zero.
  Only sums and products of extended reals occur, so no finiteness is needed anywhere these are used.
-/
import Idealize.ShloMosaic.Lib.ValueIdx
import Idealize.ShloMosaic.PureOps.Ideal

noncomputable section

namespace Cert.Entries

open Idealize.ShloMosaic Idealize.ShloMosaic.ValueIdx

variable {M K N : ℕ}

/-- The inner product of row `r` of `x` with column `c` of `w`. -/
def rowCol (x : (⟨2, ![M, K]⟩ : Shape).Idx → EReal) (w : (⟨2, ![K, N]⟩ : Shape).Idx → EReal) (r : Fin M) (c : Fin N) : EReal :=
  ∑ k : Fin K, x (ix2 r k) * w (ix2 k c)

/-- `x · w` plus the bias row, entry by entry. -/
def affine (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => rowCol x w (i 0) (i 1) + b (ix2 (0 : Fin 1) (i 1))

/-- `(a · wl + b) + h · wr`, entry by entry. -/
def combine (a h : (⟨2, ![M, K]⟩ : Shape).Idx → EReal) (wl wr : (⟨2, ![K, N]⟩ : Shape).Idx → EReal)
    (b : (⟨2, ![1, N]⟩ : Shape).Idx → EReal) : (⟨2, ![M, N]⟩ : Shape).Idx → EReal :=
  fun i => (rowCol a wl (i 0) (i 1) + b (ix2 (0 : Fin 1) (i 1))) + rowCol h wr (i 0) (i 1)

/-- The same entry clipped below at the zero word's value. -/
def combineRelu (a h : (⟨2, ![M, K]⟩ : Shape).Idx → EReal) (wl wr : (⟨2, ![K, N]⟩ : Shape).Idx → EReal)
    (b : (⟨2, ![1, N]⟩ : Shape).Idx → EReal) : (⟨2, ![M, N]⟩ : Shape).Idx → EReal :=
  fun i => max (combine a h wl wr b i) (Ideal.ofBits .f32 0x00000000#32)

theorem affine_ix2 (x : (⟨2, ![M, K]⟩ : Shape).Idx → EReal) (w : (⟨2, ![K, N]⟩ : Shape).Idx → EReal)
    (b : (⟨2, ![1, N]⟩ : Shape).Idx → EReal) (r : Fin M) (c : Fin N) :
    affine x w b (ix2 r c) = rowCol x w r c + b (ix2 (0 : Fin 1) c) := rfl

theorem combine_ix2 (a h : (⟨2, ![M, K]⟩ : Shape).Idx → EReal) (wl wr : (⟨2, ![K, N]⟩ : Shape).Idx → EReal)
    (b : (⟨2, ![1, N]⟩ : Shape).Idx → EReal) (r : Fin M) (c : Fin N) :
    combine a h wl wr b (ix2 r c) = (rowCol a wl r c + b (ix2 (0 : Fin 1) c)) + rowCol h wr r c := rfl

theorem combineRelu_ix2 (a h : (⟨2, ![M, K]⟩ : Shape).Idx → EReal) (wl wr : (⟨2, ![K, N]⟩ : Shape).Idx → EReal)
    (b : (⟨2, ![1, N]⟩ : Shape).Idx → EReal) (r : Fin M) (c : Fin N) :
    combineRelu a h wl wr b (ix2 r c)
      = max ((rowCol a wl r c + b (ix2 (0 : Fin 1) c)) + rowCol h wr r c) (Ideal.ofBits .f32 0x00000000#32) := rfl

/-! ## An entry from a tile's loads

A tile's body sees `m` rows of the left operands and the whole right operands.  If row `p` of what it loaded is row
`i 0` of the array, column `q` of the loaded weights is column `i 1`, and the loaded bias at `q` is the bias at
`i 1`, then what the body computes at `(p, q)` is the whole-array map's entry `i`. -/

variable {m : ℕ}

theorem rowCol_of_rows (X : (⟨2, ![M, K]⟩ : Shape).Idx → EReal) (W : (⟨2, ![K, N]⟩ : Shape).Idx → EReal)
    (x : (⟨2, ![m, K]⟩ : Shape).Idx → EReal) (w : (⟨2, ![K, N]⟩ : Shape).Idx → EReal)
    (r : Fin M) (c : Fin N) (p : Fin m) (q : Fin N)
    (hx : ∀ k : Fin K, x (ix2 p k) = X (ix2 r k)) (hw : ∀ k : Fin K, w (ix2 k q) = W (ix2 k c)) :
    rowCol x w p q = rowCol X W r c :=
  Finset.sum_congr rfl fun k _ => by rw [hx k, hw k]

theorem affine_of_rows (X : (⟨2, ![M, K]⟩ : Shape).Idx → EReal) (W : (⟨2, ![K, N]⟩ : Shape).Idx → EReal)
    (B : (⟨2, ![1, N]⟩ : Shape).Idx → EReal)
    (x : (⟨2, ![m, K]⟩ : Shape).Idx → EReal) (w : (⟨2, ![K, N]⟩ : Shape).Idx → EReal) (b : (⟨2, ![1, N]⟩ : Shape).Idx → EReal)
    (i : (⟨2, ![M, N]⟩ : Shape).Idx) (p : Fin m) (q : Fin N)
    (hx : ∀ k : Fin K, x (ix2 p k) = X (ix2 (i 0) k)) (hw : ∀ k : Fin K, w (ix2 k q) = W (ix2 k (i 1)))
    (hb : b (ix2 (0 : Fin 1) q) = B (ix2 (0 : Fin 1) (i 1))) :
    rowCol x w p q + b (ix2 (0 : Fin 1) q) = affine X W B i := by
  unfold affine
  rw [rowCol_of_rows X W x w (i 0) (i 1) p q hx hw, hb]

theorem combine_of_rows (A H : (⟨2, ![M, K]⟩ : Shape).Idx → EReal) (Wl Wr : (⟨2, ![K, N]⟩ : Shape).Idx → EReal)
    (B : (⟨2, ![1, N]⟩ : Shape).Idx → EReal)
    (a h : (⟨2, ![m, K]⟩ : Shape).Idx → EReal) (wl wr : (⟨2, ![K, N]⟩ : Shape).Idx → EReal) (b : (⟨2, ![1, N]⟩ : Shape).Idx → EReal)
    (i : (⟨2, ![M, N]⟩ : Shape).Idx) (p : Fin m) (q : Fin N)
    (ha : ∀ k : Fin K, a (ix2 p k) = A (ix2 (i 0) k)) (hh : ∀ k : Fin K, h (ix2 p k) = H (ix2 (i 0) k))
    (hwl : ∀ k : Fin K, wl (ix2 k q) = Wl (ix2 k (i 1))) (hwr : ∀ k : Fin K, wr (ix2 k q) = Wr (ix2 k (i 1)))
    (hb : b (ix2 (0 : Fin 1) q) = B (ix2 (0 : Fin 1) (i 1))) :
    (rowCol a wl p q + b (ix2 (0 : Fin 1) q)) + rowCol h wr p q = combine A H Wl Wr B i := by
  unfold combine
  rw [rowCol_of_rows A Wl a wl (i 0) (i 1) p q ha hwl, rowCol_of_rows H Wr h wr (i 0) (i 1) p q hh hwr, hb]

theorem combineRelu_of_rows (A H : (⟨2, ![M, K]⟩ : Shape).Idx → EReal) (Wl Wr : (⟨2, ![K, N]⟩ : Shape).Idx → EReal)
    (B : (⟨2, ![1, N]⟩ : Shape).Idx → EReal)
    (a h : (⟨2, ![m, K]⟩ : Shape).Idx → EReal) (wl wr : (⟨2, ![K, N]⟩ : Shape).Idx → EReal) (b : (⟨2, ![1, N]⟩ : Shape).Idx → EReal)
    (i : (⟨2, ![M, N]⟩ : Shape).Idx) (p : Fin m) (q : Fin N)
    (ha : ∀ k : Fin K, a (ix2 p k) = A (ix2 (i 0) k)) (hh : ∀ k : Fin K, h (ix2 p k) = H (ix2 (i 0) k))
    (hwl : ∀ k : Fin K, wl (ix2 k q) = Wl (ix2 k (i 1))) (hwr : ∀ k : Fin K, wr (ix2 k q) = Wr (ix2 k (i 1)))
    (hb : b (ix2 (0 : Fin 1) q) = B (ix2 (0 : Fin 1) (i 1))) :
    max ((rowCol a wl p q + b (ix2 (0 : Fin 1) q)) + rowCol h wr p q) (Ideal.ofBits .f32 0x00000000#32)
      = combineRelu A H Wl Wr B i := by
  unfold combineRelu
  rw [combine_of_rows A H Wl Wr B a h wl wr b i p q ha hh hwl hwr hb]

end Cert.Entries

end
-- ==== Proof.Layer.lean ====
/-
  One dense step of the network, entry by entry over the extended reals.

  A layer takes two row-blocks of features `a` and `b` (one row per node), two weight matrices `wa` and `wb` and a
  bias laid out as a row.  Entry (r, c) of its result is the inner product of row r of `a` with column c of `wa`,
  plus the inner product of row r of `b` with column c of `wb`, plus the bias at column c, clipped below at zero:

      step a b wa wb bias (r, c) = max ((Σ_k a(r,k)·wa(k,c) + Σ_k b(r,k)·wb(k,c)) + bias(0,c)) 0.

  The additions are grouped exactly so.  Only sums, products and a maximum of extended reals occur: addition and
  multiplication there are commutative and associative, which is all that is used to compare two spellings of this
  entry, so no finiteness of the inputs is needed.
-/
import proofs.«147803_j8229157339892_2_alg».proof.Proof.LibDenseEntries

noncomputable section

namespace Cert.Layer

open Idealize.ShloMosaic Idealize.ShloMosaic.ValueIdx

variable {M K N : ℕ}

/-- One dense step: the two inner products, the bias of the column, the clip at zero. -/
def step (a b : (⟨2, ![M, K]⟩ : Shape).Idx → EReal) (wa wb : (⟨2, ![K, N]⟩ : Shape).Idx → EReal)
    (bias : (⟨2, ![1, N]⟩ : Shape).Idx → EReal) : (⟨2, ![M, N]⟩ : Shape).Idx → EReal :=
  fun i => max ((Entries.rowCol a wa (i 0) (i 1) + Entries.rowCol b wb (i 0) (i 1)) + bias (ix2 (0 : Fin 1) (i 1)))
    (Ideal.ofBits .f32 0x00000000#32)

theorem step_ix2 (a b : (⟨2, ![M, K]⟩ : Shape).Idx → EReal) (wa wb : (⟨2, ![K, N]⟩ : Shape).Idx → EReal)
    (bias : (⟨2, ![1, N]⟩ : Shape).Idx → EReal) (r : Fin M) (c : Fin N) :
    step a b wa wb bias (ix2 r c)
      = max ((Entries.rowCol a wa r c + Entries.rowCol b wb r c) + bias (ix2 (0 : Fin 1) c)) (Ideal.ofBits .f32 0x00000000#32) := rfl

/-- An entry from a tile's loads: if row `p` of the loaded feature blocks is row `i 0` of the arrays, column `q` of the
    loaded weights is column `i 1`, and the loaded bias at `q` is the bias at `i 1`, then what the tile computes at
    `(p, q)` is the whole-array step's entry `i`. -/
theorem step_of_rows {m : ℕ} (A B : (⟨2, ![M, K]⟩ : Shape).Idx → EReal) (Wa Wb : (⟨2, ![K, N]⟩ : Shape).Idx → EReal)
    (Bias : (⟨2, ![1, N]⟩ : Shape).Idx → EReal)
    (a b : (⟨2, ![m, K]⟩ : Shape).Idx → EReal) (wa wb : (⟨2, ![K, N]⟩ : Shape).Idx → EReal) (bias : (⟨2, ![1, N]⟩ : Shape).Idx → EReal)
    (i : (⟨2, ![M, N]⟩ : Shape).Idx) (p : Fin m) (q : Fin N)
    (ha : ∀ k : Fin K, a (ix2 p k) = A (ix2 (i 0) k)) (hb : ∀ k : Fin K, b (ix2 p k) = B (ix2 (i 0) k))
    (hwa : ∀ k : Fin K, wa (ix2 k q) = Wa (ix2 k (i 1))) (hwb : ∀ k : Fin K, wb (ix2 k q) = Wb (ix2 k (i 1)))
    (hbias : bias (ix2 (0 : Fin 1) q) = Bias (ix2 (0 : Fin 1) (i 1))) :
    max ((Entries.rowCol a wa p q + Entries.rowCol b wb p q) + bias (ix2 (0 : Fin 1) q)) (Ideal.ofBits .f32 0x00000000#32)
      = step A B Wa Wb Bias i := by
  unfold step
  rw [Entries.rowCol_of_rows A Wa a wa (i 0) (i 1) p q ha hwa, Entries.rowCol_of_rows B Wb b wb (i 0) (i 1) p q hb hwb, hbias]

end Cert.Layer

end
-- ==== Proof.LibPlainDot.lean ====
/-
  A plain matrix product — an [M, K] operand times a [K, N] operand, the left one contracted on its second axis
  and the right one on its first, no batch axis — read at the entry (r, c) over the extended reals: the sum over
  k of the left operand at (r, k) times the right operand at (k, c). Stated once for the on-chip product
  accumulated into a zero splat and once for the host's dot_general, for any dimension record that is the plain
  one, so that both sides of a comparison land on the same sum over `Fin K`.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The contraction index of the plain product has one axis, of extent `K`. -/
theorem contr_rank : (DotDims.plain M K N).contr.rank = 1 := rfl
theorem contr_size : (DotDims.plain M K N).contr.size ⟨0, by rw [contr_rank]; exact Nat.one_pos⟩ = K := rfl

/-- The one-coordinate contraction index with coordinate `k`. -/
abbrev cidx (k : Fin K) : (DotDims.plain M K N).contr.Idx := (contrEquiv1 (DotDims.plain M K N) K contr_rank contr_size).symm k

/-- The left operand is read at row `r`, column `k`. -/
theorem lhsIdx_eq (r : Fin M) (c : Fin N) (k : Fin K) :
    (DotDims.plain M K N).lhsIdx (ix2 r c) (cidx k) = ix2 r k := by
  funext a
  apply Fin.ext
  match a with
  | ⟨0, _⟩ => rfl
  | ⟨1, _⟩ =>
    exact ((DotDims.plain M K N).lhsIdx_val_of_single rfl (ix2 r c) (cidx k)).trans
      (contrEquiv1_symm_val (DotDims.plain M K N) K contr_rank contr_size k)

/-- The right operand is read at row `k`, column `c`. -/
theorem rhsIdx_eq (r : Fin M) (c : Fin N) (k : Fin K) :
    (DotDims.plain M K N).rhsIdx (ix2 r c) (cidx k) = ix2 k c := by
  funext a
  apply Fin.ext
  match a with
  | ⟨0, _⟩ =>
    exact ((DotDims.plain M K N).rhsIdx_val_of_single rfl (ix2 r c) (cidx k)).trans
      (contrEquiv1_symm_val (DotDims.plain M K N) K contr_rank contr_size k)
  | ⟨1, _⟩ => rfl

/-- The contraction sum of the plain product, re-indexed over `Fin K`. -/
theorem sum_eq (l : (⟨2, ![M, K]⟩ : Shape).Idx → EReal) (r : (⟨2, ![K, N]⟩ : Shape).Idx → EReal) (p : Fin M) (c : Fin N) :
    (∑ q : (DotDims.plain M K N).contr.Idx, l ((DotDims.plain M K N).lhsIdx (ix2 p c) q) * r ((DotDims.plain M K N).rhsIdx (ix2 p c) q))
      = ∑ k : Fin K, l (ix2 p k) * r (ix2 k c) := by
  rw [← Equiv.sum_comp (contrEquiv1 (DotDims.plain M K N) K contr_rank contr_size).symm]
  refine Finset.sum_congr rfl fun k _ => ?_
  rw [lhsIdx_eq p c k, rhsIdx_eq p c k]

/-- The on-chip product accumulated into the zero splat, at entry `(p, c)`: the plain sum. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    FloatOps.matmul d prec l r (constant (F := Ideal) ⟨2, ![M, N]⟩ .f32 0x00000000#32) (ix2 p c) = ∑ k : Fin K, l (ix2 p k) * r (ix2 k c) := by
  subst hd
  rw [Ideal.matmul_constant_zero_apply]
  exact sum_eq l r p c

/-- The host's dot_general at entry `(p, c)`: the same plain sum, whatever the precision and the schedule key. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂) (p : Fin M) (c : Fin N) :
    FloatOps.dotGeneral d prec sched l r (ix2 p c) = ∑ k : Fin K, l (ix2 p k) * r (ix2 k c) := by
  subst hd
  rw [Ideal.dotGeneral_apply]
  exact sum_eq l r p c

end Cert.PlainDot

end
-- ==== Proof.RegionPayload.lean ====
/-
  What one row-tile of a dense step computes, entry by entry over the extended reals.

  A tile holds 10000 rows of the two feature arrays, the two 128 x 128 weight matrices and the bias row.  Its
  result at row p and column q is the inner product of row p of the first feature block with column q of the
  first weight matrix, plus the inner product of row p of the second feature block with column q of the second
  weight matrix, plus the bias at column q, clipped below at zero.  A change of float format is the identity on
  extended reals, a reshape to the same shape moves nothing, a product accumulated into zeros is the plain sum
  over the contracted axis, and the bias row broadcast down the rows reads its one row: so each of the four
  tile bodies, whatever the formats of its operands and of its result, has this one entry.
-/
import proofs.«147803_j8229157339892_2_alg».proof.Proof.Layer
import proofs.«147803_j8229157339892_2_alg».proof.Proof.LibPlainDot
import proofs.«147803_j8229157339892_2_alg».proof.Proof.Gen.KernelIdeal.Skeleton
import Idealize.ShloMosaic.Lib.ValueLayout
import Idealize.ShloMosaic.Lib.Pipeline.Value
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.ValueIdx

/-- The entry (p, q) of a tile: two inner products, the bias of the column, the clip at zero. -/
abbrev tileEntry (x0 x1 : S10000x128.Idx → EReal) (x2 x3 : S128x128.Idx → EReal) (x4 : S1x128.Idx → EReal)
    (p : Fin 10000) (q : Fin 128) : EReal :=
  max ((Entries.rowCol x0 x2 p q + Entries.rowCol x1 x3 p q) + x4 (ix2 (0 : Fin 1) q)) (Ideal.ofBits .f32 0x00000000#32)

/-- The arithmetic shared by the four tile bodies, once their same-shape reshapes are gone: the two products
    into zeros added, the bias row broadcast down the rows added, the maximum with the zero splat.  The formats
    of the operands do not matter. -/
theorem dense_entry {φ0 φ1 φ2 φ3 : FTy} (l0 : FVec Ideal S10000x128 φ0) (l1 : FVec Ideal S10000x128 φ1)
    (r0 : FVec Ideal S128x128 φ2) (r1 : FVec Ideal S128x128 φ3) (b : FVec Ideal S1x128 .f32)
    (p : Fin 10000) (q : Fin 128) :
    maximumf
        (addf
          (addf
            (FloatOps.matmul dot_S10000x128_S128x128_S10000x128_1_0_0_1_n_n none l0 r0 (constant (F := Ideal) S10000x128 .f32 0x00000000#32))
            (FloatOps.matmul dot_S10000x128_S128x128_S10000x128_1_0_0_1_n_n none l1 r1 (constant (F := Ideal) S10000x128 .f32 0x00000000#32)))
          (broadcastTo S10000x128 b broadcasts_S1x128_S10000x128))
        (broadcast S10000x128 (Scalar.ofBits (F := Ideal) .f32 0x00000000#32)) (ix2 p q)
      = tileEntry l0 l1 r0 r1 b p q := by
  refine congrArg₂ max (congrArg₂ (· + ·) (congrArg₂ (· + ·) ?_ ?_) ?_) rfl
  · exact Cert.PlainDot.matmul_zero_apply _ rfl none l0 r0 p q
  · exact Cert.PlainDot.matmul_zero_apply _ rfl none l1 r1 p q
  · exact broadcastTo_1b_ab_apply b broadcasts_S1x128_S10000x128 p q

/-- The first tile body (both feature blocks and the result's source in single precision, the result stored in
    the short format) at (p, q). -/
theorem pay0_apply (x0 x1 : FVec Ideal S10000x128 .f32) (x2 x3 : FVec Ideal S128x128 .f32) (x4 : FVec Ideal S1x128 .f32)
    (p : Fin 10000) (q : Fin 128) :
    k0_pay1 (F := Ideal) x0 x1 x2 x3 x4 (ix2 p q)
      = max ((Entries.rowCol x0 x2 p q + Entries.rowCol x1 x3 p q) + x4 (ix2 (0 : Fin 1) q)) (Ideal.ofBits .f32 0x00000000#32) := by
  unfold k0_pay1
  simp only [shapeCast_self]
  exact dense_entry (φ0 := .bf16) (φ1 := .bf16) (φ2 := .bf16) (φ3 := .bf16) x0 x1 x2 x3 x4 p q

/-- The second tile body (first feature block in the short format) at (p, q). -/
theorem pay1_apply (x0 : FVec Ideal S10000x128 .bf16) (x1 : FVec Ideal S10000x128 .f32) (x2 x3 : FVec Ideal S128x128 .f32)
    (x4 : FVec Ideal S1x128 .f32) (p : Fin 10000) (q : Fin 128) :
    k1_pay1 (F := Ideal) x0 x1 x2 x3 x4 (ix2 p q)
      = max ((Entries.rowCol x0 x2 p q + Entries.rowCol x1 x3 p q) + x4 (ix2 (0 : Fin 1) q)) (Ideal.ofBits .f32 0x00000000#32) := by
  unfold k1_pay1
  simp only [shapeCast_self]
  exact dense_entry (φ0 := .bf16) (φ1 := .bf16) (φ2 := .bf16) (φ3 := .bf16) x0 x1 x2 x3 x4 p q

/-- The third tile body at (p, q): the same text as the second. -/
theorem pay2_apply (x0 : FVec Ideal S10000x128 .bf16) (x1 : FVec Ideal S10000x128 .f32) (x2 x3 : FVec Ideal S128x128 .f32)
    (x4 : FVec Ideal S1x128 .f32) (p : Fin 10000) (q : Fin 128) :
    k2_pay1 (F := Ideal) x0 x1 x2 x3 x4 (ix2 p q)
      = max ((Entries.rowCol x0 x2 p q + Entries.rowCol x1 x3 p q) + x4 (ix2 (0 : Fin 1) q)) (Ideal.ofBits .f32 0x00000000#32) := by
  unfold k2_pay1
  simp only [shapeCast_self]
  exact dense_entry (φ0 := .bf16) (φ1 := .bf16) (φ2 := .bf16) (φ3 := .bf16) x0 x1 x2 x3 x4 p q

/-- The fourth tile body at (p, q): as the second, its result kept in single precision. -/
theorem pay3_apply (x0 : FVec Ideal S10000x128 .bf16) (x1 : FVec Ideal S10000x128 .f32) (x2 x3 : FVec Ideal S128x128 .f32)
    (x4 : FVec Ideal S1x128 .f32) (p : Fin 10000) (q : Fin 128) :
    k3_pay1 (F := Ideal) x0 x1 x2 x3 x4 (ix2 p q)
      = max ((Entries.rowCol x0 x2 p q + Entries.rowCol x1 x3 p q) + x4 (ix2 (0 : Fin 1) q)) (Ideal.ofBits .f32 0x00000000#32) := by
  unfold k3_pay1
  simp only [shapeCast_self]
  exact dense_entry (φ0 := .bf16) (φ1 := .bf16) (φ2 := .bf16) (φ3 := .bf16) x0 x1 x2 x3 x4 p q

end Cert.KernelIdeal.RegionValue

end
-- ==== Proof.Region0.lean ====
/-
  The first dense step of the network, from its row-tiles to the whole array.

  The step runs over five tiles of 10000 rows.  At tile t the two feature windows hold rows 10000·t … 10000·t + 9999
  of their arrays (row p of the block is row 10000·t + p of the array, the columns as they are), the two weight
  windows and the bias window hold their whole arrays, and the result window's block is written back to the same
  rows of the result array.  So what tile t writes back is the restriction to its rows of one whole-array function,
  the dense step of the five arrays; and since row r lies in tile r / 10000, the five blocks fill the result array,
  which therefore ends holding that function.
-/
import proofs.«147803_j8229157339892_2_alg».proof.Proof.Gen.KernelIdeal.Frame
import proofs.«147803_j8229157339892_2_alg».proof.Proof.RegionPayload
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, however they are spelt. -/
theorem zeroOffsets0 : (![0, 0] : Fin 2 → Nat) = fun _ => 0 := funext fun a => by fin_cases a <;> rfl

/-- The block indices of the six windows at tile t, decided over the five tiles: the feature windows and the
    result window are at block (t, 0), the weight and bias windows at block (0, 0). -/
theorem blockIndex0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The input blocks as rows of their arrays -/

/-- Row p of the first feature block at tile t is row 10000·t + p of its array. -/
theorem featureA0 (c : Dev nD) (t : Fin cfg0.N) (p : Fin 10000) (k : Fin 128) (r : Fin 50000)
    (hr : r.val = 10000 * t.val + p.val) :
    (iblk0 V c 0 t : S10000x128.Idx → EReal) (ix2 p k) = (V c main_v17 : S50000x128.Idx → EReal) (ix2 r k) := by
  obtain ⟨e0, e1, -⟩ := blockIndex0 t
  show (V c main_v17 : S50000x128.Idx → EReal) (((cfg0.win 0).blk t).view.emb (ix2 p k)) = _
  refine congrArg (V c main_v17 : S50000x128.Idx → EReal) (funext fun a => Fin.ext ?_)
  match a with
  | ⟨0, _⟩ => show win0_0.index t (0 : Fin 2) * 10000 + 1 * p.val = r.val; rw [e0, hr]; omega
  | ⟨1, _⟩ => show win0_0.index t (1 : Fin 2) * 128 + 1 * k.val = k.val; rw [e1]; omega

/-- Row p of the second feature block at tile t is row 10000·t + p of its array. -/
theorem featureB0 (c : Dev nD) (t : Fin cfg0.N) (p : Fin 10000) (k : Fin 128) (r : Fin 50000)
    (hr : r.val = 10000 * t.val + p.val) :
    (iblk0 V c 1 t : S10000x128.Idx → EReal) (ix2 p k) = (V c main_v24 : S50000x128.Idx → EReal) (ix2 r k) := by
  obtain ⟨-, -, e0, e1, -⟩ := blockIndex0 t
  show (V c main_v24 : S50000x128.Idx → EReal) (((cfg0.win 1).blk t).view.emb (ix2 p k)) = _
  refine congrArg (V c main_v24 : S50000x128.Idx → EReal) (funext fun a => Fin.ext ?_)
  match a with
  | ⟨0, _⟩ => show win0_1.index t (0 : Fin 2) * 10000 + 1 * p.val = r.val; rw [e0, hr]; omega
  | ⟨1, _⟩ => show win0_1.index t (1 : Fin 2) * 128 + 1 * k.val = k.val; rw [e1]; omega

/-- The first weight window holds its whole matrix at every tile. -/
theorem weightA0 (c : Dev nD) (t : Fin cfg0.N) (k : Fin 128) (q s : Fin 128) (hs : s.val = q.val) :
    (iblk0 V c 2 t : S128x128.Idx → EReal) (ix2 k q) = (V c main_v25 : S128x128.Idx → EReal) (ix2 k s) := by
  obtain ⟨-, -, -, -, e0, e1, -⟩ := blockIndex0 t
  show (V c main_v25 : S128x128.Idx → EReal) (((cfg0.win 2).blk t).view.emb (ix2 k q)) = _
  refine congrArg (V c main_v25 : S128x128.Idx → EReal) (funext fun a => Fin.ext ?_)
  match a with
  | ⟨0, _⟩ => show win0_2.index t (0 : Fin 2) * 128 + 1 * k.val = k.val; rw [e0]; omega
  | ⟨1, _⟩ => show win0_2.index t (1 : Fin 2) * 128 + 1 * q.val = s.val; rw [e1, hs]; omega

/-- The second weight window holds its whole matrix at every tile. -/
theorem weightB0 (c : Dev nD) (t : Fin cfg0.N) (k : Fin 128) (q s : Fin 128) (hs : s.val = q.val) :
    (iblk0 V c 3 t : S128x128.Idx → EReal) (ix2 k q) = (V c main_v26 : S128x128.Idx → EReal) (ix2 k s) := by
  obtain ⟨-, -, -, -, -, -, e0, e1, -⟩ := blockIndex0 t
  show (V c main_v26 : S128x128.Idx → EReal) (((cfg0.win 3).blk t).view.emb (ix2 k q)) = _
  refine congrArg (V c main_v26 : S128x128.Idx → EReal) (funext fun a => Fin.ext ?_)
  match a with
  | ⟨0, _⟩ => show win0_3.index t (0 : Fin 2) * 128 + 1 * k.val = k.val; rw [e0]; omega
  | ⟨1, _⟩ => show win0_3.index t (1 : Fin 2) * 128 + 1 * q.val = s.val; rw [e1, hs]; omega

/-- The bias window holds its whole row at every tile. -/
theorem biasRow0 (c : Dev nD) (t : Fin cfg0.N) (q s : Fin 128) (hs : s.val = q.val) :
    (iblk0 V c 4 t : S1x128.Idx → EReal) (ix2 (0 : Fin 1) q) = (V c main_v27 : S1x128.Idx → EReal) (ix2 (0 : Fin 1) s) := by
  obtain ⟨-, -, -, -, -, -, -, -, e0, e1, -⟩ := blockIndex0 t
  show (V c main_v27 : S1x128.Idx → EReal) (((cfg0.win 4).blk t).view.emb (ix2 (0 : Fin 1) q)) = _
  refine congrArg (V c main_v27 : S1x128.Idx → EReal) (funext fun a => Fin.ext ?_)
  match a with
  | ⟨0, _⟩ => show win0_4.index t (0 : Fin 2) * 1 + 1 * 0 = 0; rw [e0]
  | ⟨1, _⟩ => show win0_4.index t (1 : Fin 2) * 128 + 1 * q.val = s.val; rw [e1, hs]; omega

/-! ## What a tile writes back -/

/-- The tile body's entry (p, q), for blocks that are rows of the arrays: the dense step's entry at the array index
    whose row is the block's row and whose column is q. -/
theorem tileStep0 (A B : S50000x128.Idx → EReal) (Wa Wb : S128x128.Idx → EReal) (Bias : S1x128.Idx → EReal)
    (x0 : FVec Ideal S10000x128 .f32) (x1 : FVec Ideal S10000x128 .f32) (x2 x3 : FVec Ideal S128x128 .f32)
    (x4 : FVec Ideal S1x128 .f32) (i : S50000x128.Idx) (p : Fin 10000) (q : Fin 128)
    (h0 : ∀ k : Fin 128, x0 (ix2 p k) = A (ix2 (i 0) k)) (h1 : ∀ k : Fin 128, x1 (ix2 p k) = B (ix2 (i 0) k))
    (h2 : ∀ k : Fin 128, x2 (ix2 k q) = Wa (ix2 k (i 1))) (h3 : ∀ k : Fin 128, x3 (ix2 k q) = Wb (ix2 k (i 1)))
    (h4 : x4 (ix2 (0 : Fin 1) q) = Bias (ix2 (0 : Fin 1) (i 1))) :
    k0_pay1 (F := Ideal) x0 x1 x2 x3 x4 (ix2 p q) = Cert.Layer.step A B Wa Wb Bias i :=
  (pay0_apply x0 x1 x2 x3 x4 p q).trans
    (Cert.Layer.step_of_rows (M := 50000) (K := 128) (N := 128) A B Wa Wb Bias x0 x1 x2 x3 x4 i p q h0 h1 h2 h3 h4)

/-- What tile t writes back is the block at rows 10000·t … of the dense step of the five arrays. -/
theorem flushed0 (c : Dev nD) (t : Fin cfg0.N) :
    (dat0 (F := Ideal) V c).flushed 5 t
      = ((cfg0.win 5).blk t).view.read (Elt Ideal)
          (Cert.Layer.step (M := 50000) (K := 128) (N := 128) (V c main_v17) (V c main_v24) (V c main_v25) (V c main_v26) (V c main_v27)) := by
  show (cfg0.win 5).cut (grid0.coords t) ((dat0 V c).after 5 t) = _
  rw [after0_5]
  unfold out0_5
  rw [View.canon_unit_zero zeroOffsets0]
  simp only [View.ld_unit_zero (S := S10000x128) zeroOffsets0, View.ld_unit_zero (S := S128x128) zeroOffsets0,
    View.ld_unit_zero (S := S1x128) zeroOffsets0]
  obtain ⟨-, -, -, -, -, -, -, -, -, -, e0, e1⟩ := blockIndex0 t
  refine funext fun (j : S10000x128.Idx) => ?_
  obtain ⟨p, q, rfl⟩ : ∃ (p : Fin 10000) (q : Fin 128), j = ix2 p q := ⟨j 0, j 1, eq_ix2 j⟩
  have hrow : ((((cfg0.win 5).blk t).view.emb (ix2 p q) : S50000x128.Idx) 0).val = 10000 * t.val + p.val := by
    show win0_5.index t (0 : Fin 2) * 10000 + 1 * p.val = _
    rw [e0]; omega
  have hcol : ((((cfg0.win 5).blk t).view.emb (ix2 p q) : S50000x128.Idx) 1).val = q.val := by
    show win0_5.index t (1 : Fin 2) * 128 + 1 * q.val = _
    rw [e1]; omega
  exact tileStep0 (V c main_v17) (V c main_v24) (V c main_v25) (V c main_v26) (V c main_v27)
    (iblk0 V c 0 t) (iblk0 V c 1 t) (iblk0 V c 2 t) (iblk0 V c 3 t) (iblk0 V c 4 t)
    (((cfg0.win 5).blk t).view.emb (ix2 p q)) p q
    (fun k => featureA0 V c t p k _ hrow) (fun k => featureB0 V c t p k _ hrow)
    (fun k => weightA0 V c t k q _ hcol) (fun k => weightB0 V c t k q _ hcol)
    (biasRow0 V c t q _ hcol)

/-! ## The five blocks fill the result array -/

/-- An index of the result array is in tile t's block iff each coordinate is in the block's range on its axis. -/
theorem memBlock0 (t : Fin cfg0.N) (i : S50000x128.Idx) :
    i ∈ ((cfg0.win 5).blk t).view.set ↔ ∀ a : Fin 2, win0_5.index t a * S10000x128.size a ≤ (i a).val
      ∧ (i a).val < win0_5.index t a * S10000x128.size a + S10000x128.size a := by
  show i ∈ ((View.whole main_v28).slice (win0_5.rect t)).set ↔ _
  rw [View.set_slice_whole, Rect.mem_set_unit]
  exact Iff.rfl

/-- Row r of the result array lies in the block of tile r / 10000, and every tile writes its block back. -/
theorem covered0 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : grid0.N = 5 := N_0
  obtain ⟨t, ht⟩ : ∃ t : Fin cfg0.N, t.val = (i 0).val / 10000 :=
    ⟨⟨(i 0).val / 10000, by show (i 0).val / 10000 < grid0.N; rw [hN]; omega⟩, rfl⟩
  obtain ⟨-, -, -, -, -, -, -, -, -, -, e0, e1⟩ := blockIndex0 t
  refine ⟨t, flush0_5 t, ?_⟩
  rw [memBlock0]
  intro a
  match a with
  | ⟨0, _⟩ =>
    show win0_5.index t (0 : Fin 2) * 10000 ≤ (i 0).val ∧ (i 0).val < win0_5.index t (0 : Fin 2) * 10000 + 10000
    rw [e0, ht]; omega
  | ⟨1, _⟩ =>
    show win0_5.index t (1 : Fin 2) * 128 ≤ (i 1).val ∧ (i 1).val < win0_5.index t (1 : Fin 2) * 128 + 128
    rw [e1]; omega

/-- The result array after the step is the dense step of the five arrays as the step found them. -/
theorem region0 (V : (c : Dev nD) → (b : Ref sig .tc) → Buf (Elt Ideal) ((c : Thread nD τ).loc b)) (c : Dev nD) :
    (dat0 (F := Ideal) V c).arrAt 5 cfg0.N
      = Cert.Layer.step (M := 50000) (K := 128) (N := 128) (V c main_v17) (V c main_v24) (V c main_v25) (V c main_v26) (V c main_v27) :=
  (dat0 (F := Ideal) V c).arrAt_eq_of_cover 5
    (Cert.Layer.step (M := 50000) (K := 128) (N := 128) (V c main_v17) (V c main_v24) (V c main_v25) (V c main_v26) (V c main_v27))
    (fun t _ => flushed0 V c t) covered0

end Cert.KernelIdeal.RegionValue

end
-- ==== Proof.Region1.lean ====
/-
  The second dense step of the network, from its row-tiles to the whole array.

  The step runs over five tiles of 10000 rows.  At tile t the two feature windows hold rows 10000·t … 10000·t + 9999
  of their arrays (row p of the block is row 10000·t + p of the array, the columns as they are), the two weight
  windows and the bias window hold their whole arrays, and the result window's block is written back to the same
  rows of the result array.  So what tile t writes back is the restriction to its rows of one whole-array function,
  the dense step of the five arrays; and since row r lies in tile r / 10000, the five blocks fill the result array,
  which therefore ends holding that function.
-/
import proofs.«147803_j8229157339892_2_alg».proof.Proof.Gen.KernelIdeal.Frame
import proofs.«147803_j8229157339892_2_alg».proof.Proof.RegionPayload
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, however they are spelt. -/
theorem zeroOffsets1 : (![0, 0] : Fin 2 → Nat) = fun _ => 0 := funext fun a => by fin_cases a <;> rfl

/-- The block indices of the six windows at tile t, decided over the five tiles: the feature windows and the
    result window are at block (t, 0), the weight and bias windows at block (0, 0). -/
theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! ## The input blocks as rows of their arrays -/

/-- Row p of the first feature block at tile t is row 10000·t + p of its array. -/
theorem featureA1 (c : Dev nD) (t : Fin cfg1.N) (p : Fin 10000) (k : Fin 128) (r : Fin 50000)
    (hr : r.val = 10000 * t.val + p.val) :
    (iblk1 V c 0 t : S10000x128.Idx → EReal) (ix2 p k) = (V c main_v28 : S50000x128.Idx → EReal) (ix2 r k) := by
  obtain ⟨e0, e1, -⟩ := blockIndex1 t
  show (V c main_v28 : S50000x128.Idx → EReal) (((cfg1.win 0).blk t).view.emb (ix2 p k)) = _
  refine congrArg (V c main_v28 : S50000x128.Idx → EReal) (funext fun a => Fin.ext ?_)
  match a with
  | ⟨0, _⟩ => show win1_0.index t (0 : Fin 2) * 10000 + 1 * p.val = r.val; rw [e0, hr]; omega
  | ⟨1, _⟩ => show win1_0.index t (1 : Fin 2) * 128 + 1 * k.val = k.val; rw [e1]; omega

/-- Row p of the second feature block at tile t is row 10000·t + p of its array. -/
theorem featureB1 (c : Dev nD) (t : Fin cfg1.N) (p : Fin 10000) (k : Fin 128) (r : Fin 50000)
    (hr : r.val = 10000 * t.val + p.val) :
    (iblk1 V c 1 t : S10000x128.Idx → EReal) (ix2 p k) = (V c main_v43 : S50000x128.Idx → EReal) (ix2 r k) := by
  obtain ⟨-, -, e0, e1, -⟩ := blockIndex1 t
  show (V c main_v43 : S50000x128.Idx → EReal) (((cfg1.win 1).blk t).view.emb (ix2 p k)) = _
  refine congrArg (V c main_v43 : S50000x128.Idx → EReal) (funext fun a => Fin.ext ?_)
  match a with
  | ⟨0, _⟩ => show win1_1.index t (0 : Fin 2) * 10000 + 1 * p.val = r.val; rw [e0, hr]; omega
  | ⟨1, _⟩ => show win1_1.index t (1 : Fin 2) * 128 + 1 * k.val = k.val; rw [e1]; omega

/-- The first weight window holds its whole matrix at every tile. -/
theorem weightA1 (c : Dev nD) (t : Fin cfg1.N) (k : Fin 128) (q s : Fin 128) (hs : s.val = q.val) :
    (iblk1 V c 2 t : S128x128.Idx → EReal) (ix2 k q) = (V c main_v44 : S128x128.Idx → EReal) (ix2 k s) := by
  obtain ⟨-, -, -, -, e0, e1, -⟩ := blockIndex1 t
  show (V c main_v44 : S128x128.Idx → EReal) (((cfg1.win 2).blk t).view.emb (ix2 k q)) = _
  refine congrArg (V c main_v44 : S128x128.Idx → EReal) (funext fun a => Fin.ext ?_)
  match a with
  | ⟨0, _⟩ => show win1_2.index t (0 : Fin 2) * 128 + 1 * k.val = k.val; rw [e0]; omega
  | ⟨1, _⟩ => show win1_2.index t (1 : Fin 2) * 128 + 1 * q.val = s.val; rw [e1, hs]; omega

/-- The second weight window holds its whole matrix at every tile. -/
theorem weightB1 (c : Dev nD) (t : Fin cfg1.N) (k : Fin 128) (q s : Fin 128) (hs : s.val = q.val) :
    (iblk1 V c 3 t : S128x128.Idx → EReal) (ix2 k q) = (V c main_v45 : S128x128.Idx → EReal) (ix2 k s) := by
  obtain ⟨-, -, -, -, -, -, e0, e1, -⟩ := blockIndex1 t
  show (V c main_v45 : S128x128.Idx → EReal) (((cfg1.win 3).blk t).view.emb (ix2 k q)) = _
  refine congrArg (V c main_v45 : S128x128.Idx → EReal) (funext fun a => Fin.ext ?_)
  match a with
  | ⟨0, _⟩ => show win1_3.index t (0 : Fin 2) * 128 + 1 * k.val = k.val; rw [e0]; omega
  | ⟨1, _⟩ => show win1_3.index t (1 : Fin 2) * 128 + 1 * q.val = s.val; rw [e1, hs]; omega

/-- The bias window holds its whole row at every tile. -/
theorem biasRow1 (c : Dev nD) (t : Fin cfg1.N) (q s : Fin 128) (hs : s.val = q.val) :
    (iblk1 V c 4 t : S1x128.Idx → EReal) (ix2 (0 : Fin 1) q) = (V c main_v46 : S1x128.Idx → EReal) (ix2 (0 : Fin 1) s) := by
  obtain ⟨-, -, -, -, -, -, -, -, e0, e1, -⟩ := blockIndex1 t
  show (V c main_v46 : S1x128.Idx → EReal) (((cfg1.win 4).blk t).view.emb (ix2 (0 : Fin 1) q)) = _
  refine congrArg (V c main_v46 : S1x128.Idx → EReal) (funext fun a => Fin.ext ?_)
  match a with
  | ⟨0, _⟩ => show win1_4.index t (0 : Fin 2) * 1 + 1 * 0 = 0; rw [e0]
  | ⟨1, _⟩ => show win1_4.index t (1 : Fin 2) * 128 + 1 * q.val = s.val; rw [e1, hs]; omega

/-! ## What a tile writes back -/

/-- The tile body's entry (p, q), for blocks that are rows of the arrays: the dense step's entry at the array index
    whose row is the block's row and whose column is q. -/
theorem tileStep1 (A B : S50000x128.Idx → EReal) (Wa Wb : S128x128.Idx → EReal) (Bias : S1x128.Idx → EReal)
    (x0 : FVec Ideal S10000x128 .bf16) (x1 : FVec Ideal S10000x128 .f32) (x2 x3 : FVec Ideal S128x128 .f32)
    (x4 : FVec Ideal S1x128 .f32) (i : S50000x128.Idx) (p : Fin 10000) (q : Fin 128)
    (h0 : ∀ k : Fin 128, x0 (ix2 p k) = A (ix2 (i 0) k)) (h1 : ∀ k : Fin 128, x1 (ix2 p k) = B (ix2 (i 0) k))
    (h2 : ∀ k : Fin 128, x2 (ix2 k q) = Wa (ix2 k (i 1))) (h3 : ∀ k : Fin 128, x3 (ix2 k q) = Wb (ix2 k (i 1)))
    (h4 : x4 (ix2 (0 : Fin 1) q) = Bias (ix2 (0 : Fin 1) (i 1))) :
    k1_pay1 (F := Ideal) x0 x1 x2 x3 x4 (ix2 p q) = Cert.Layer.step A B Wa Wb Bias i :=
  (pay1_apply x0 x1 x2 x3 x4 p q).trans
    (Cert.Layer.step_of_rows (M := 50000) (K := 128) (N := 128) A B Wa Wb Bias x0 x1 x2 x3 x4 i p q h0 h1 h2 h3 h4)

/-- What tile t writes back is the block at rows 10000·t … of the dense step of the five arrays. -/
theorem flushed1 (c : Dev nD) (t : Fin cfg1.N) :
    (dat1 (F := Ideal) V c).flushed 5 t
      = ((cfg1.win 5).blk t).view.read (Elt Ideal)
          (Cert.Layer.step (M := 50000) (K := 128) (N := 128) (V c main_v28) (V c main_v43) (V c main_v44) (V c main_v45) (V c main_v46)) := by
  show (cfg1.win 5).cut (grid1.coords t) ((dat1 V c).after 5 t) = _
  rw [after1_5]
  unfold out1_5
  rw [View.canon_unit_zero zeroOffsets1]
  simp only [View.ld_unit_zero (S := S10000x128) zeroOffsets1, View.ld_unit_zero (S := S128x128) zeroOffsets1,
    View.ld_unit_zero (S := S1x128) zeroOffsets1]
  obtain ⟨-, -, -, -, -, -, -, -, -, -, e0, e1⟩ := blockIndex1 t
  refine funext fun (j : S10000x128.Idx) => ?_
  obtain ⟨p, q, rfl⟩ : ∃ (p : Fin 10000) (q : Fin 128), j = ix2 p q := ⟨j 0, j 1, eq_ix2 j⟩
  have hrow : ((((cfg1.win 5).blk t).view.emb (ix2 p q) : S50000x128.Idx) 0).val = 10000 * t.val + p.val := by
    show win1_5.index t (0 : Fin 2) * 10000 + 1 * p.val = _
    rw [e0]; omega
  have hcol : ((((cfg1.win 5).blk t).view.emb (ix2 p q) : S50000x128.Idx) 1).val = q.val := by
    show win1_5.index t (1 : Fin 2) * 128 + 1 * q.val = _
    rw [e1]; omega
  exact tileStep1 (V c main_v28) (V c main_v43) (V c main_v44) (V c main_v45) (V c main_v46)
    (iblk1 V c 0 t) (iblk1 V c 1 t) (iblk1 V c 2 t) (iblk1 V c 3 t) (iblk1 V c 4 t)
    (((cfg1.win 5).blk t).view.emb (ix2 p q)) p q
    (fun k => featureA1 V c t p k _ hrow) (fun k => featureB1 V c t p k _ hrow)
    (fun k => weightA1 V c t k q _ hcol) (fun k => weightB1 V c t k q _ hcol)
    (biasRow1 V c t q _ hcol)

/-! ## The five blocks fill the result array -/

/-- An index of the result array is in tile t's block iff each coordinate is in the block's range on its axis. -/
theorem memBlock1 (t : Fin cfg1.N) (i : S50000x128.Idx) :
    i ∈ ((cfg1.win 5).blk t).view.set ↔ ∀ a : Fin 2, win1_5.index t a * S10000x128.size a ≤ (i a).val
      ∧ (i a).val < win1_5.index t a * S10000x128.size a + S10000x128.size a := by
  show i ∈ ((View.whole main_v47).slice (win1_5.rect t)).set ↔ _
  rw [View.set_slice_whole, Rect.mem_set_unit]
  exact Iff.rfl

/-- Row r of the result array lies in the block of tile r / 10000, and every tile writes its block back. -/
theorem covered1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : grid1.N = 5 := N_1
  obtain ⟨t, ht⟩ : ∃ t : Fin cfg1.N, t.val = (i 0).val / 10000 :=
    ⟨⟨(i 0).val / 10000, by show (i 0).val / 10000 < grid1.N; rw [hN]; omega⟩, rfl⟩
  obtain ⟨-, -, -, -, -, -, -, -, -, -, e0, e1⟩ := blockIndex1 t
  refine ⟨t, flush1_5 t, ?_⟩
  rw [memBlock1]
  intro a
  match a with
  | ⟨0, _⟩ =>
    show win1_5.index t (0 : Fin 2) * 10000 ≤ (i 0).val ∧ (i 0).val < win1_5.index t (0 : Fin 2) * 10000 + 10000
    rw [e0, ht]; omega
  | ⟨1, _⟩ =>
    show win1_5.index t (1 : Fin 2) * 128 ≤ (i 1).val ∧ (i 1).val < win1_5.index t (1 : Fin 2) * 128 + 128
    rw [e1]; omega

/-- The result array after the step is the dense step of the five arrays as the step found them. -/
theorem region1 (V : (c : Dev nD) → (b : Ref sig .tc) → Buf (Elt Ideal) ((c : Thread nD τ).loc b)) (c : Dev nD) :
    (dat1 (F := Ideal) V c).arrAt 5 cfg1.N
      = Cert.Layer.step (M := 50000) (K := 128) (N := 128) (V c main_v28) (V c main_v43) (V c main_v44) (V c main_v45) (V c main_v46) :=
  (dat1 (F := Ideal) V c).arrAt_eq_of_cover 5
    (Cert.Layer.step (M := 50000) (K := 128) (N := 128) (V c main_v28) (V c main_v43) (V c main_v44) (V c main_v45) (V c main_v46))
    (fun t _ => flushed1 V c t) covered1

end Cert.KernelIdeal.RegionValue

end
-- ==== Proof.Region2.lean ====
/-
  The third dense step of the network, from its row-tiles to the whole array.

  The step runs over five tiles of 10000 rows.  At tile t the two feature windows hold rows 10000·t … 10000·t + 9999
  of their arrays (row p of the block is row 10000·t + p of the array, the columns as they are), the two weight
  windows and the bias window hold their whole arrays, and the result window's block is written back to the same
  rows of the result array.  So what tile t writes back is the restriction to its rows of one whole-array function,
  the dense step of the five arrays; and since row r lies in tile r / 10000, the five blocks fill the result array,
  which therefore ends holding that function.
-/
import proofs.«147803_j8229157339892_2_alg».proof.Proof.Gen.KernelIdeal.Frame
import proofs.«147803_j8229157339892_2_alg».proof.Proof.RegionPayload
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, however they are spelt. -/
theorem zeroOffsets2 : (![0, 0] : Fin 2 → Nat) = fun _ => 0 := funext fun a => by fin_cases a <;> rfl

/-- The block indices of the six windows at tile t, decided over the five tiles: the feature windows and the
    result window are at block (t, 0), the weight and bias windows at block (0, 0). -/
theorem blockIndex2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-! ## The input blocks as rows of their arrays -/

/-- Row p of the first feature block at tile t is row 10000·t + p of its array. -/
theorem featureA2 (c : Dev nD) (t : Fin cfg2.N) (p : Fin 10000) (k : Fin 128) (r : Fin 50000)
    (hr : r.val = 10000 * t.val + p.val) :
    (iblk2 V c 0 t : S10000x128.Idx → EReal) (ix2 p k) = (V c main_v47 : S50000x128.Idx → EReal) (ix2 r k) := by
  obtain ⟨e0, e1, -⟩ := blockIndex2 t
  show (V c main_v47 : S50000x128.Idx → EReal) (((cfg2.win 0).blk t).view.emb (ix2 p k)) = _
  refine congrArg (V c main_v47 : S50000x128.Idx → EReal) (funext fun a => Fin.ext ?_)
  match a with
  | ⟨0, _⟩ => show win2_0.index t (0 : Fin 2) * 10000 + 1 * p.val = r.val; rw [e0, hr]; omega
  | ⟨1, _⟩ => show win2_0.index t (1 : Fin 2) * 128 + 1 * k.val = k.val; rw [e1]; omega

/-- Row p of the second feature block at tile t is row 10000·t + p of its array. -/
theorem featureB2 (c : Dev nD) (t : Fin cfg2.N) (p : Fin 10000) (k : Fin 128) (r : Fin 50000)
    (hr : r.val = 10000 * t.val + p.val) :
    (iblk2 V c 1 t : S10000x128.Idx → EReal) (ix2 p k) = (V c main_v24 : S50000x128.Idx → EReal) (ix2 r k) := by
  obtain ⟨-, -, e0, e1, -⟩ := blockIndex2 t
  show (V c main_v24 : S50000x128.Idx → EReal) (((cfg2.win 1).blk t).view.emb (ix2 p k)) = _
  refine congrArg (V c main_v24 : S50000x128.Idx → EReal) (funext fun a => Fin.ext ?_)
  match a with
  | ⟨0, _⟩ => show win2_1.index t (0 : Fin 2) * 10000 + 1 * p.val = r.val; rw [e0, hr]; omega
  | ⟨1, _⟩ => show win2_1.index t (1 : Fin 2) * 128 + 1 * k.val = k.val; rw [e1]; omega

/-- The first weight window holds its whole matrix at every tile. -/
theorem weightA2 (c : Dev nD) (t : Fin cfg2.N) (k : Fin 128) (q s : Fin 128) (hs : s.val = q.val) :
    (iblk2 V c 2 t : S128x128.Idx → EReal) (ix2 k q) = (V c main_v48 : S128x128.Idx → EReal) (ix2 k s) := by
  obtain ⟨-, -, -, -, e0, e1, -⟩ := blockIndex2 t
  show (V c main_v48 : S128x128.Idx → EReal) (((cfg2.win 2).blk t).view.emb (ix2 k q)) = _
  refine congrArg (V c main_v48 : S128x128.Idx → EReal) (funext fun a => Fin.ext ?_)
  match a with
  | ⟨0, _⟩ => show win2_2.index t (0 : Fin 2) * 128 + 1 * k.val = k.val; rw [e0]; omega
  | ⟨1, _⟩ => show win2_2.index t (1 : Fin 2) * 128 + 1 * q.val = s.val; rw [e1, hs]; omega

/-- The second weight window holds its whole matrix at every tile. -/
theorem weightB2 (c : Dev nD) (t : Fin cfg2.N) (k : Fin 128) (q s : Fin 128) (hs : s.val = q.val) :
    (iblk2 V c 3 t : S128x128.Idx → EReal) (ix2 k q) = (V c main_v49 : S128x128.Idx → EReal) (ix2 k s) := by
  obtain ⟨-, -, -, -, -, -, e0, e1, -⟩ := blockIndex2 t
  show (V c main_v49 : S128x128.Idx → EReal) (((cfg2.win 3).blk t).view.emb (ix2 k q)) = _
  refine congrArg (V c main_v49 : S128x128.Idx → EReal) (funext fun a => Fin.ext ?_)
  match a with
  | ⟨0, _⟩ => show win2_3.index t (0 : Fin 2) * 128 + 1 * k.val = k.val; rw [e0]; omega
  | ⟨1, _⟩ => show win2_3.index t (1 : Fin 2) * 128 + 1 * q.val = s.val; rw [e1, hs]; omega

/-- The bias window holds its whole row at every tile. -/
theorem biasRow2 (c : Dev nD) (t : Fin cfg2.N) (q s : Fin 128) (hs : s.val = q.val) :
    (iblk2 V c 4 t : S1x128.Idx → EReal) (ix2 (0 : Fin 1) q) = (V c main_v50 : S1x128.Idx → EReal) (ix2 (0 : Fin 1) s) := by
  obtain ⟨-, -, -, -, -, -, -, -, e0, e1, -⟩ := blockIndex2 t
  show (V c main_v50 : S1x128.Idx → EReal) (((cfg2.win 4).blk t).view.emb (ix2 (0 : Fin 1) q)) = _
  refine congrArg (V c main_v50 : S1x128.Idx → EReal) (funext fun a => Fin.ext ?_)
  match a with
  | ⟨0, _⟩ => show win2_4.index t (0 : Fin 2) * 1 + 1 * 0 = 0; rw [e0]
  | ⟨1, _⟩ => show win2_4.index t (1 : Fin 2) * 128 + 1 * q.val = s.val; rw [e1, hs]; omega

/-! ## What a tile writes back -/

/-- The tile body's entry (p, q), for blocks that are rows of the arrays: the dense step's entry at the array index
    whose row is the block's row and whose column is q. -/
theorem tileStep2 (A B : S50000x128.Idx → EReal) (Wa Wb : S128x128.Idx → EReal) (Bias : S1x128.Idx → EReal)
    (x0 : FVec Ideal S10000x128 .bf16) (x1 : FVec Ideal S10000x128 .f32) (x2 x3 : FVec Ideal S128x128 .f32)
    (x4 : FVec Ideal S1x128 .f32) (i : S50000x128.Idx) (p : Fin 10000) (q : Fin 128)
    (h0 : ∀ k : Fin 128, x0 (ix2 p k) = A (ix2 (i 0) k)) (h1 : ∀ k : Fin 128, x1 (ix2 p k) = B (ix2 (i 0) k))
    (h2 : ∀ k : Fin 128, x2 (ix2 k q) = Wa (ix2 k (i 1))) (h3 : ∀ k : Fin 128, x3 (ix2 k q) = Wb (ix2 k (i 1)))
    (h4 : x4 (ix2 (0 : Fin 1) q) = Bias (ix2 (0 : Fin 1) (i 1))) :
    k2_pay1 (F := Ideal) x0 x1 x2 x3 x4 (ix2 p q) = Cert.Layer.step A B Wa Wb Bias i :=
  (pay2_apply x0 x1 x2 x3 x4 p q).trans
    (Cert.Layer.step_of_rows (M := 50000) (K := 128) (N := 128) A B Wa Wb Bias x0 x1 x2 x3 x4 i p q h0 h1 h2 h3 h4)

/-- What tile t writes back is the block at rows 10000·t … of the dense step of the five arrays. -/
theorem flushed2 (c : Dev nD) (t : Fin cfg2.N) :
    (dat2 (F := Ideal) V c).flushed 5 t
      = ((cfg2.win 5).blk t).view.read (Elt Ideal)
          (Cert.Layer.step (M := 50000) (K := 128) (N := 128) (V c main_v47) (V c main_v24) (V c main_v48) (V c main_v49) (V c main_v50)) := by
  show (cfg2.win 5).cut (grid2.coords t) ((dat2 V c).after 5 t) = _
  rw [after2_5]
  unfold out2_5
  rw [View.canon_unit_zero zeroOffsets2]
  simp only [View.ld_unit_zero (S := S10000x128) zeroOffsets2, View.ld_unit_zero (S := S128x128) zeroOffsets2,
    View.ld_unit_zero (S := S1x128) zeroOffsets2]
  obtain ⟨-, -, -, -, -, -, -, -, -, -, e0, e1⟩ := blockIndex2 t
  refine funext fun (j : S10000x128.Idx) => ?_
  obtain ⟨p, q, rfl⟩ : ∃ (p : Fin 10000) (q : Fin 128), j = ix2 p q := ⟨j 0, j 1, eq_ix2 j⟩
  have hrow : ((((cfg2.win 5).blk t).view.emb (ix2 p q) : S50000x128.Idx) 0).val = 10000 * t.val + p.val := by
    show win2_5.index t (0 : Fin 2) * 10000 + 1 * p.val = _
    rw [e0]; omega
  have hcol : ((((cfg2.win 5).blk t).view.emb (ix2 p q) : S50000x128.Idx) 1).val = q.val := by
    show win2_5.index t (1 : Fin 2) * 128 + 1 * q.val = _
    rw [e1]; omega
  exact tileStep2 (V c main_v47) (V c main_v24) (V c main_v48) (V c main_v49) (V c main_v50)
    (iblk2 V c 0 t) (iblk2 V c 1 t) (iblk2 V c 2 t) (iblk2 V c 3 t) (iblk2 V c 4 t)
    (((cfg2.win 5).blk t).view.emb (ix2 p q)) p q
    (fun k => featureA2 V c t p k _ hrow) (fun k => featureB2 V c t p k _ hrow)
    (fun k => weightA2 V c t k q _ hcol) (fun k => weightB2 V c t k q _ hcol)
    (biasRow2 V c t q _ hcol)

/-! ## The five blocks fill the result array -/

/-- An index of the result array is in tile t's block iff each coordinate is in the block's range on its axis. -/
theorem memBlock2 (t : Fin cfg2.N) (i : S50000x128.Idx) :
    i ∈ ((cfg2.win 5).blk t).view.set ↔ ∀ a : Fin 2, win2_5.index t a * S10000x128.size a ≤ (i a).val
      ∧ (i a).val < win2_5.index t a * S10000x128.size a + S10000x128.size a := by
  show i ∈ ((View.whole main_v51).slice (win2_5.rect t)).set ↔ _
  rw [View.set_slice_whole, Rect.mem_set_unit]
  exact Iff.rfl

/-- Row r of the result array lies in the block of tile r / 10000, and every tile writes its block back. -/
theorem covered2 (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : grid2.N = 5 := N_2
  obtain ⟨t, ht⟩ : ∃ t : Fin cfg2.N, t.val = (i 0).val / 10000 :=
    ⟨⟨(i 0).val / 10000, by show (i 0).val / 10000 < grid2.N; rw [hN]; omega⟩, rfl⟩
  obtain ⟨-, -, -, -, -, -, -, -, -, -, e0, e1⟩ := blockIndex2 t
  refine ⟨t, flush2_5 t, ?_⟩
  rw [memBlock2]
  intro a
  match a with
  | ⟨0, _⟩ =>
    show win2_5.index t (0 : Fin 2) * 10000 ≤ (i 0).val ∧ (i 0).val < win2_5.index t (0 : Fin 2) * 10000 + 10000
    rw [e0, ht]; omega
  | ⟨1, _⟩ =>
    show win2_5.index t (1 : Fin 2) * 128 ≤ (i 1).val ∧ (i 1).val < win2_5.index t (1 : Fin 2) * 128 + 128
    rw [e1]; omega

/-- The result array after the step is the dense step of the five arrays as the step found them. -/
theorem region2 (V : (c : Dev nD) → (b : Ref sig .tc) → Buf (Elt Ideal) ((c : Thread nD τ).loc b)) (c : Dev nD) :
    (dat2 (F := Ideal) V c).arrAt 5 cfg2.N
      = Cert.Layer.step (M := 50000) (K := 128) (N := 128) (V c main_v47) (V c main_v24) (V c main_v48) (V c main_v49) (V c main_v50) :=
  (dat2 (F := Ideal) V c).arrAt_eq_of_cover 5
    (Cert.Layer.step (M := 50000) (K := 128) (N := 128) (V c main_v47) (V c main_v24) (V c main_v48) (V c main_v49) (V c main_v50))
    (fun t _ => flushed2 V c t) covered2

end Cert.KernelIdeal.RegionValue

end
-- ==== Proof.Region3.lean ====
/-
  The fourth dense step of the network, from its row-tiles to the whole array.

  The step runs over five tiles of 10000 rows.  At tile t the two feature windows hold rows 10000·t … 10000·t + 9999
  of their arrays (row p of the block is row 10000·t + p of the array, the columns as they are), the two weight
  windows and the bias window hold their whole arrays, and the result window's block is written back to the same
  rows of the result array.  So what tile t writes back is the restriction to its rows of one whole-array function,
  the dense step of the five arrays; and since row r lies in tile r / 10000, the five blocks fill the result array,
  which therefore ends holding that function.
-/
import proofs.«147803_j8229157339892_2_alg».proof.Proof.Gen.KernelIdeal.Frame
import proofs.«147803_j8229157339892_2_alg».proof.Proof.RegionPayload
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, however they are spelt. -/
theorem zeroOffsets3 : (![0, 0] : Fin 2 → Nat) = fun _ => 0 := funext fun a => by fin_cases a <;> rfl

/-- The block indices of the six windows at tile t, decided over the five tiles: the feature windows and the
    result window are at block (t, 0), the weight and bias windows at block (0, 0). -/
theorem blockIndex3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-! ## The input blocks as rows of their arrays -/

/-- Row p of the first feature block at tile t is row 10000·t + p of its array. -/
theorem featureA3 (c : Dev nD) (t : Fin cfg3.N) (p : Fin 10000) (k : Fin 128) (r : Fin 50000)
    (hr : r.val = 10000 * t.val + p.val) :
    (iblk3 V c 0 t : S10000x128.Idx → EReal) (ix2 p k) = (V c main_v51 : S50000x128.Idx → EReal) (ix2 r k) := by
  obtain ⟨e0, e1, -⟩ := blockIndex3 t
  show (V c main_v51 : S50000x128.Idx → EReal) (((cfg3.win 0).blk t).view.emb (ix2 p k)) = _
  refine congrArg (V c main_v51 : S50000x128.Idx → EReal) (funext fun a => Fin.ext ?_)
  match a with
  | ⟨0, _⟩ => show win3_0.index t (0 : Fin 2) * 10000 + 1 * p.val = r.val; rw [e0, hr]; omega
  | ⟨1, _⟩ => show win3_0.index t (1 : Fin 2) * 128 + 1 * k.val = k.val; rw [e1]; omega

/-- Row p of the second feature block at tile t is row 10000·t + p of its array. -/
theorem featureB3 (c : Dev nD) (t : Fin cfg3.N) (p : Fin 10000) (k : Fin 128) (r : Fin 50000)
    (hr : r.val = 10000 * t.val + p.val) :
    (iblk3 V c 1 t : S10000x128.Idx → EReal) (ix2 p k) = (V c main_v66 : S50000x128.Idx → EReal) (ix2 r k) := by
  obtain ⟨-, -, e0, e1, -⟩ := blockIndex3 t
  show (V c main_v66 : S50000x128.Idx → EReal) (((cfg3.win 1).blk t).view.emb (ix2 p k)) = _
  refine congrArg (V c main_v66 : S50000x128.Idx → EReal) (funext fun a => Fin.ext ?_)
  match a with
  | ⟨0, _⟩ => show win3_1.index t (0 : Fin 2) * 10000 + 1 * p.val = r.val; rw [e0, hr]; omega
  | ⟨1, _⟩ => show win3_1.index t (1 : Fin 2) * 128 + 1 * k.val = k.val; rw [e1]; omega

/-- The first weight window holds its whole matrix at every tile. -/
theorem weightA3 (c : Dev nD) (t : Fin cfg3.N) (k : Fin 128) (q s : Fin 128) (hs : s.val = q.val) :
    (iblk3 V c 2 t : S128x128.Idx → EReal) (ix2 k q) = (V c main_v67 : S128x128.Idx → EReal) (ix2 k s) := by
  obtain ⟨-, -, -, -, e0, e1, -⟩ := blockIndex3 t
  show (V c main_v67 : S128x128.Idx → EReal) (((cfg3.win 2).blk t).view.emb (ix2 k q)) = _
  refine congrArg (V c main_v67 : S128x128.Idx → EReal) (funext fun a => Fin.ext ?_)
  match a with
  | ⟨0, _⟩ => show win3_2.index t (0 : Fin 2) * 128 + 1 * k.val = k.val; rw [e0]; omega
  | ⟨1, _⟩ => show win3_2.index t (1 : Fin 2) * 128 + 1 * q.val = s.val; rw [e1, hs]; omega

/-- The second weight window holds its whole matrix at every tile. -/
theorem weightB3 (c : Dev nD) (t : Fin cfg3.N) (k : Fin 128) (q s : Fin 128) (hs : s.val = q.val) :
    (iblk3 V c 3 t : S128x128.Idx → EReal) (ix2 k q) = (V c main_v68 : S128x128.Idx → EReal) (ix2 k s) := by
  obtain ⟨-, -, -, -, -, -, e0, e1, -⟩ := blockIndex3 t
  show (V c main_v68 : S128x128.Idx → EReal) (((cfg3.win 3).blk t).view.emb (ix2 k q)) = _
  refine congrArg (V c main_v68 : S128x128.Idx → EReal) (funext fun a => Fin.ext ?_)
  match a with
  | ⟨0, _⟩ => show win3_3.index t (0 : Fin 2) * 128 + 1 * k.val = k.val; rw [e0]; omega
  | ⟨1, _⟩ => show win3_3.index t (1 : Fin 2) * 128 + 1 * q.val = s.val; rw [e1, hs]; omega

/-- The bias window holds its whole row at every tile. -/
theorem biasRow3 (c : Dev nD) (t : Fin cfg3.N) (q s : Fin 128) (hs : s.val = q.val) :
    (iblk3 V c 4 t : S1x128.Idx → EReal) (ix2 (0 : Fin 1) q) = (V c main_v69 : S1x128.Idx → EReal) (ix2 (0 : Fin 1) s) := by
  obtain ⟨-, -, -, -, -, -, -, -, e0, e1, -⟩ := blockIndex3 t
  show (V c main_v69 : S1x128.Idx → EReal) (((cfg3.win 4).blk t).view.emb (ix2 (0 : Fin 1) q)) = _
  refine congrArg (V c main_v69 : S1x128.Idx → EReal) (funext fun a => Fin.ext ?_)
  match a with
  | ⟨0, _⟩ => show win3_4.index t (0 : Fin 2) * 1 + 1 * 0 = 0; rw [e0]
  | ⟨1, _⟩ => show win3_4.index t (1 : Fin 2) * 128 + 1 * q.val = s.val; rw [e1, hs]; omega

/-! ## What a tile writes back -/

/-- The tile body's entry (p, q), for blocks that are rows of the arrays: the dense step's entry at the array index
    whose row is the block's row and whose column is q. -/
theorem tileStep3 (A B : S50000x128.Idx → EReal) (Wa Wb : S128x128.Idx → EReal) (Bias : S1x128.Idx → EReal)
    (x0 : FVec Ideal S10000x128 .bf16) (x1 : FVec Ideal S10000x128 .f32) (x2 x3 : FVec Ideal S128x128 .f32)
    (x4 : FVec Ideal S1x128 .f32) (i : S50000x128.Idx) (p : Fin 10000) (q : Fin 128)
    (h0 : ∀ k : Fin 128, x0 (ix2 p k) = A (ix2 (i 0) k)) (h1 : ∀ k : Fin 128, x1 (ix2 p k) = B (ix2 (i 0) k))
    (h2 : ∀ k : Fin 128, x2 (ix2 k q) = Wa (ix2 k (i 1))) (h3 : ∀ k : Fin 128, x3 (ix2 k q) = Wb (ix2 k (i 1)))
    (h4 : x4 (ix2 (0 : Fin 1) q) = Bias (ix2 (0 : Fin 1) (i 1))) :
    k3_pay1 (F := Ideal) x0 x1 x2 x3 x4 (ix2 p q) = Cert.Layer.step A B Wa Wb Bias i :=
  (pay3_apply x0 x1 x2 x3 x4 p q).trans
    (Cert.Layer.step_of_rows (M := 50000) (K := 128) (N := 128) A B Wa Wb Bias x0 x1 x2 x3 x4 i p q h0 h1 h2 h3 h4)

/-- What tile t writes back is the block at rows 10000·t … of the dense step of the five arrays. -/
theorem flushed3 (c : Dev nD) (t : Fin cfg3.N) :
    (dat3 (F := Ideal) V c).flushed 5 t
      = ((cfg3.win 5).blk t).view.read (Elt Ideal)
          (Cert.Layer.step (M := 50000) (K := 128) (N := 128) (V c main_v51) (V c main_v66) (V c main_v67) (V c main_v68) (V c main_v69)) := by
  show (cfg3.win 5).cut (grid3.coords t) ((dat3 V c).after 5 t) = _
  rw [after3_5]
  unfold out3_5
  rw [View.canon_unit_zero zeroOffsets3]
  simp only [View.ld_unit_zero (S := S10000x128) zeroOffsets3, View.ld_unit_zero (S := S128x128) zeroOffsets3,
    View.ld_unit_zero (S := S1x128) zeroOffsets3]
  obtain ⟨-, -, -, -, -, -, -, -, -, -, e0, e1⟩ := blockIndex3 t
  refine funext fun (j : S10000x128.Idx) => ?_
  obtain ⟨p, q, rfl⟩ : ∃ (p : Fin 10000) (q : Fin 128), j = ix2 p q := ⟨j 0, j 1, eq_ix2 j⟩
  have hrow : ((((cfg3.win 5).blk t).view.emb (ix2 p q) : S50000x128.Idx) 0).val = 10000 * t.val + p.val := by
    show win3_5.index t (0 : Fin 2) * 10000 + 1 * p.val = _
    rw [e0]; omega
  have hcol : ((((cfg3.win 5).blk t).view.emb (ix2 p q) : S50000x128.Idx) 1).val = q.val := by
    show win3_5.index t (1 : Fin 2) * 128 + 1 * q.val = _
    rw [e1]; omega
  exact tileStep3 (V c main_v51) (V c main_v66) (V c main_v67) (V c main_v68) (V c main_v69)
    (iblk3 V c 0 t) (iblk3 V c 1 t) (iblk3 V c 2 t) (iblk3 V c 3 t) (iblk3 V c 4 t)
    (((cfg3.win 5).blk t).view.emb (ix2 p q)) p q
    (fun k => featureA3 V c t p k _ hrow) (fun k => featureB3 V c t p k _ hrow)
    (fun k => weightA3 V c t k q _ hcol) (fun k => weightB3 V c t k q _ hcol)
    (biasRow3 V c t q _ hcol)

/-! ## The five blocks fill the result array -/

/-- An index of the result array is in tile t's block iff each coordinate is in the block's range on its axis. -/
theorem memBlock3 (t : Fin cfg3.N) (i : S50000x128.Idx) :
    i ∈ ((cfg3.win 5).blk t).view.set ↔ ∀ a : Fin 2, win3_5.index t a * S10000x128.size a ≤ (i a).val
      ∧ (i a).val < win3_5.index t a * S10000x128.size a + S10000x128.size a := by
  show i ∈ ((View.whole main_v70).slice (win3_5.rect t)).set ↔ _
  rw [View.set_slice_whole, Rect.mem_set_unit]
  exact Iff.rfl

/-- Row r of the result array lies in the block of tile r / 10000, and every tile writes its block back. -/
theorem covered3 (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  have hN : grid3.N = 5 := N_3
  obtain ⟨t, ht⟩ : ∃ t : Fin cfg3.N, t.val = (i 0).val / 10000 :=
    ⟨⟨(i 0).val / 10000, by show (i 0).val / 10000 < grid3.N; rw [hN]; omega⟩, rfl⟩
  obtain ⟨-, -, -, -, -, -, -, -, -, -, e0, e1⟩ := blockIndex3 t
  refine ⟨t, flush3_5 t, ?_⟩
  rw [memBlock3]
  intro a
  match a with
  | ⟨0, _⟩ =>
    show win3_5.index t (0 : Fin 2) * 10000 ≤ (i 0).val ∧ (i 0).val < win3_5.index t (0 : Fin 2) * 10000 + 10000
    rw [e0, ht]; omega
  | ⟨1, _⟩ =>
    show win3_5.index t (1 : Fin 2) * 128 ≤ (i 1).val ∧ (i 1).val < win3_5.index t (1 : Fin 2) * 128 + 128
    rw [e1]; omega

/-- The result array after the step is the dense step of the five arrays as the step found them. -/
theorem region3 (V : (c : Dev nD) → (b : Ref sig .tc) → Buf (Elt Ideal) ((c : Thread nD τ).loc b)) (c : Dev nD) :
    (dat3 (F := Ideal) V c).arrAt 5 cfg3.N
      = Cert.Layer.step (M := 50000) (K := 128) (N := 128) (V c main_v51) (V c main_v66) (V c main_v67) (V c main_v68) (V c main_v69) :=
  (dat3 (F := Ideal) V c).arrAt_eq_of_cover 5
    (Cert.Layer.step (M := 50000) (K := 128) (N := 128) (V c main_v51) (V c main_v66) (V c main_v67) (V c main_v68) (V c main_v69))
    (fun t _ => flushed3 V c t) covered3

end Cert.KernelIdeal.RegionValue

end
-- ==== Proof.LibBroadcasts.lean ====
/-
  Three broadcasts read at an entry.

  A scalar splat reads the scalar everywhere.  A vector `[a]` laid as a column `[a, 1]` and then along `b` columns reads,
  at `(n, j)`, the vector at `n`.  A vector `[b]` laid as a row `[1, b]` and then down `a` rows reads, at `(n, j)`, the
  vector at `j`.
-/
import Idealize.ShloMosaic.Lib.Pipeline.Value
import Idealize.ShloMosaic.Lib.ValueIdx

noncomputable section

namespace Cert.Broadcasts

open Idealize.ShloMosaic Idealize.ShloMosaic.ValueIdx

variable {α : Type}

/-- A splat of a scalar reads the scalar at every index. -/
theorem splat_apply {t : Shape} (dims : Fin (⟨0, ![]⟩ : Shape).rank → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun q => q.elim0)

/-- A vector laid as a column and then along the columns: at `(n, j)` the vector at `n`. -/
theorem alongColumns_apply {a b : ℕ} (d : (⟨1, ![a]⟩ : Shape).Idx → α)
    (h0 : (⟨1, ![a]⟩ : Shape).BroadcastsInDim ⟨2, ![a, 1]⟩ ![0])
    (h1 : (⟨2, ![a, 1]⟩ : Shape).BroadcastsInDim ⟨2, ![a, b]⟩ ![0, 1]) (n : Fin a) (j : Fin b) :
    broadcastInDim ⟨2, ![a, b]⟩ ![0, 1] h1 (broadcastInDim ⟨2, ![a, 1]⟩ ![0] h0 d) (ix2 n j) = d (ix1 n) := by
  refine (broadcastInDim_apply ![0, 1] h1 _ (ix2 n j) (ix2 n (0 : Fin 1)) (fun q => ?_)).trans ?_
  · match q with
    | ⟨0, _⟩ =>
      show n.val = if a = 1 then 0 else n.val
      by_cases ha : a = 1
      · rw [if_pos ha]; have := n.isLt; omega
      · rw [if_neg ha]
    | ⟨1, _⟩ =>
      show (0 : ℕ) = if (1 : ℕ) = 1 then 0 else j.val
      rw [if_pos rfl]
  · refine broadcastInDim_apply ![0] h0 d (ix2 n (0 : Fin 1)) (ix1 n) (fun q => ?_)
    match q with
    | ⟨0, _⟩ =>
      show n.val = if a = 1 then 0 else n.val
      by_cases ha : a = 1
      · rw [if_pos ha]; have := n.isLt; omega
      · rw [if_neg ha]

/-- A vector laid as a row and then down the rows: at `(n, j)` the vector at `j`. -/
theorem downRows_apply {a b : ℕ} (x : (⟨1, ![b]⟩ : Shape).Idx → α)
    (h0 : (⟨1, ![b]⟩ : Shape).BroadcastsInDim ⟨2, ![1, b]⟩ ![1])
    (h1 : (⟨2, ![1, b]⟩ : Shape).BroadcastsInDim ⟨2, ![a, b]⟩ ![0, 1]) (n : Fin a) (j : Fin b) :
    broadcastInDim ⟨2, ![a, b]⟩ ![0, 1] h1 (broadcastInDim ⟨2, ![1, b]⟩ ![1] h0 x) (ix2 n j) = x (ix1 j) := by
  refine (broadcastInDim_apply ![0, 1] h1 _ (ix2 n j) (ix2 (0 : Fin 1) j) (fun q => ?_)).trans ?_
  · match q with
    | ⟨0, _⟩ =>
      show (0 : ℕ) = if (1 : ℕ) = 1 then 0 else n.val
      rw [if_pos rfl]
    | ⟨1, _⟩ =>
      show j.val = if b = 1 then 0 else j.val
      by_cases hb : b = 1
      · rw [if_pos hb]; have := j.isLt; omega
      · rw [if_neg hb]
  · refine broadcastInDim_apply ![1] h0 x (ix2 (0 : Fin 1) j) (ix1 j) (fun q => ?_)
    match q with
    | ⟨0, _⟩ =>
      show j.val = if b = 1 then 0 else j.val
      by_cases hb : b = 1
      · rw [if_pos hb]; have := j.isLt; omega
      · rw [if_neg hb]

/-- A vector laid as a column: at `(n, u)` the vector at `n`. -/
theorem column_apply {a : ℕ} (d : (⟨1, ![a]⟩ : Shape).Idx → α)
    (h0 : (⟨1, ![a]⟩ : Shape).BroadcastsInDim ⟨2, ![a, 1]⟩ ![0]) (n : Fin a) (u : Fin 1) :
    broadcastInDim ⟨2, ![a, 1]⟩ ![0] h0 d (ix2 n u) = d (ix1 n) := by
  refine broadcastInDim_apply ![0] h0 d (ix2 n u) (ix1 n) (fun q => ?_)
  match q with
  | ⟨0, _⟩ =>
    show n.val = if a = 1 then 0 else n.val
    by_cases ha : a = 1
    · rw [if_pos ha]; have := n.isLt; omega
    · rw [if_neg ha]

end Cert.Broadcasts

end
-- ==== Proof.LibRowVector.lean ====
/-
  A vector laid out as a row. Reshaping a vector of n entries to a [1, n] array and broadcasting it to a [1, n] array
  along the second axis give the same array: entry (0, j) of either is entry j of the vector.
-/
import Idealize.ShloMosaic.Lib.Pipeline.Value
import Idealize.ShloMosaic.Lib.ValueIdx

noncomputable section

namespace Cert.RowVector

open Idealize.ShloMosaic

variable {α : Type} {n : ℕ}

/-- The reshape of a vector to a row, read at an entry: the vector at the entry's column. -/
theorem reshape_apply (x : (⟨1, ![n]⟩ : Shape).Idx → α) (h : (⟨1, ![n]⟩ : Shape).ShapeCasts ⟨2, ![1, n]⟩)
    (j : (⟨2, ![1, n]⟩ : Shape).Idx) : shapeCast ⟨2, ![1, n]⟩ x h j = x (fun a => j a.succ) :=
  shapeCast_addUnit_apply ![n] x h j

/-- The broadcast of a vector to a row along the second axis, read at an entry: the vector at the entry's column. -/
theorem broadcast_apply (x : (⟨1, ![n]⟩ : Shape).Idx → α) (h : (⟨1, ![n]⟩ : Shape).BroadcastsInDim ⟨2, ![1, n]⟩ ![1])
    (j : (⟨2, ![1, n]⟩ : Shape).Idx) : broadcastInDim ⟨2, ![1, n]⟩ ![1] h x j = x (fun a => j a.succ) := by
  refine broadcastInDim_apply ![1] h x j (fun a => j a.succ) (fun a => ?_)
  match a with
  | ⟨0, _⟩ =>
    show (j 1).val = if n = 1 then 0 else (j 1).val
    by_cases h1 : n = 1
    · rw [if_pos h1]
      have hlt : (j 1).val < n := (j 1).isLt
      omega
    · rw [if_neg h1]

/-- The two layouts are one array. -/
theorem reshape_eq_broadcast (x : (⟨1, ![n]⟩ : Shape).Idx → α) (h : (⟨1, ![n]⟩ : Shape).ShapeCasts ⟨2, ![1, n]⟩)
    (hb : (⟨1, ![n]⟩ : Shape).BroadcastsInDim ⟨2, ![1, n]⟩ ![1]) :
    shapeCast ⟨2, ![1, n]⟩ x h = broadcastInDim ⟨2, ![1, n]⟩ ![1] hb x :=
  funext fun j => (reshape_apply x h j).trans (broadcast_apply x hb j).symm

end Cert.RowVector

end
-- ==== Proof.LibDenseHost.lean ====
/-
  The reference's dense stages, entry by entry.

  The host computes a projection as a dot_general followed by the addition of the bias laid out as a row and repeated
  down the rows; a layer's dense step as two such products and the bias, the additions grouped as
  (neighbour product + bias) + root product; and the rectifier as the maximum with a zero splat.  Read at an entry
  these are the inner products of `Entries`: a dot_general over the extended reals is the sum over the contracted
  index, the repeated row reads the bias at the entry's column, and a vector reshaped to a row reads the same.
-/
import proofs.«147803_j8229157339892_2_alg».proof.Proof.LibDenseEntries
import proofs.«147803_j8229157339892_2_alg».proof.Proof.LibPlainDot
import proofs.«147803_j8229157339892_2_alg».proof.Proof.LibBroadcasts
import proofs.«147803_j8229157339892_2_alg».proof.Proof.LibRowVector
import Idealize.ShloMosaic.Lib.Pipeline.Value
import Idealize.ShloMosaic.Lib.ValueIdx
import Idealize.ShloMosaic.PureOps.Ideal.Laws

noncomputable section

namespace Cert.RefEntries

open Idealize.ShloMosaic Idealize.ShloMosaic.ValueIdx

variable {M K N : ℕ}

/-- A vector reshaped to a row, read at column `c`. -/
theorem row_apply (b : (⟨1, ![N]⟩ : Shape).Idx → EReal) (hc : (⟨1, ![N]⟩ : Shape).ShapeCasts ⟨2, ![1, N]⟩) (c : Fin N) :
    shapeCast ⟨2, ![1, N]⟩ b hc (ix2 (0 : Fin 1) c) = b (ix1 c) := by
  rw [Cert.RowVector.reshape_apply]
  refine congrArg b (funext fun a => ?_)
  match a with
  | ⟨0, _⟩ => rfl

/-- A host dot_general with the plain dimension record, read at an entry. -/
theorem dot_apply (D : DotDims ⟨2, ![M, K]⟩ ⟨2, ![K, N]⟩ ⟨2, ![M, N]⟩) (hD : D = DotDims.plain M K N)
    (x : FVec Ideal ⟨2, ![M, K]⟩ .f32) (w : FVec Ideal ⟨2, ![K, N]⟩ .f32) (r : Fin M) (c : Fin N) :
    Host.dotGeneral (F := Ideal) D none x w (ix2 r c) = Entries.rowCol x w r c := by
  simp only [Host.dotGeneral]
  exact Cert.PlainDot.dotGeneral_apply D hD none _ x w r c

/-- The projection stage is `Entries.affine` of its operands, the bias reshaped to a row. -/
theorem affine_eq (D : DotDims ⟨2, ![M, K]⟩ ⟨2, ![K, N]⟩ ⟨2, ![M, N]⟩) (hD : D = DotDims.plain M K N)
    (x : FVec Ideal ⟨2, ![M, K]⟩ .f32) (w : FVec Ideal ⟨2, ![K, N]⟩ .f32) (b : FVec Ideal ⟨1, ![N]⟩ .f32)
    (h0 : (⟨1, ![N]⟩ : Shape).BroadcastsInDim ⟨2, ![1, N]⟩ ![1])
    (h1 : (⟨2, ![1, N]⟩ : Shape).BroadcastsInDim ⟨2, ![M, N]⟩ ![0, 1])
    (hc : (⟨1, ![N]⟩ : Shape).ShapeCasts ⟨2, ![1, N]⟩) :
    addf (Host.dotGeneral (F := Ideal) D none x w) (broadcastInDim ⟨2, ![M, N]⟩ ![0, 1] h1 (broadcastInDim ⟨2, ![1, N]⟩ ![1] h0 b))
      = Entries.affine x w (shapeCast ⟨2, ![1, N]⟩ b hc) := by
  funext i
  obtain ⟨r, q, rfl⟩ : ∃ (r : Fin M) (q : Fin N), i = ix2 r q := ⟨i 0, i 1, eq_ix2 i⟩
  rw [Entries.affine_ix2, row_apply]
  exact congrArg₂ (· + ·) (dot_apply D hD x w r q) (Cert.Broadcasts.downRows_apply b h0 h1 r q)

/-- A layer's dense stage is `Entries.combine` of its operands, the bias reshaped to a row. -/
theorem combine_eq (D : DotDims ⟨2, ![M, K]⟩ ⟨2, ![K, N]⟩ ⟨2, ![M, N]⟩) (hD : D = DotDims.plain M K N)
    (a h : FVec Ideal ⟨2, ![M, K]⟩ .f32) (wl wr : FVec Ideal ⟨2, ![K, N]⟩ .f32) (b : FVec Ideal ⟨1, ![N]⟩ .f32)
    (h0 : (⟨1, ![N]⟩ : Shape).BroadcastsInDim ⟨2, ![1, N]⟩ ![1])
    (h1 : (⟨2, ![1, N]⟩ : Shape).BroadcastsInDim ⟨2, ![M, N]⟩ ![0, 1])
    (hc : (⟨1, ![N]⟩ : Shape).ShapeCasts ⟨2, ![1, N]⟩) :
    addf (addf (Host.dotGeneral (F := Ideal) D none a wl) (broadcastInDim ⟨2, ![M, N]⟩ ![0, 1] h1 (broadcastInDim ⟨2, ![1, N]⟩ ![1] h0 b)))
        (Host.dotGeneral (F := Ideal) D none h wr)
      = Entries.combine a h wl wr (shapeCast ⟨2, ![1, N]⟩ b hc) := by
  funext i
  obtain ⟨r, q, rfl⟩ : ∃ (r : Fin M) (q : Fin N), i = ix2 r q := ⟨i 0, i 1, eq_ix2 i⟩
  rw [Entries.combine_ix2, row_apply]
  exact congrArg₂ (· + ·)
    (congrArg₂ (· + ·) (dot_apply D hD a wl r q) (Cert.Broadcasts.downRows_apply b h0 h1 r q))
    (dot_apply D hD h wr r q)

/-- The rectified dense stage is `Entries.combineRelu`. -/
theorem combineRelu_eq (D : DotDims ⟨2, ![M, K]⟩ ⟨2, ![K, N]⟩ ⟨2, ![M, N]⟩) (hD : D = DotDims.plain M K N)
    (a h : FVec Ideal ⟨2, ![M, K]⟩ .f32) (wl wr : FVec Ideal ⟨2, ![K, N]⟩ .f32) (b : FVec Ideal ⟨1, ![N]⟩ .f32)
    (h0 : (⟨1, ![N]⟩ : Shape).BroadcastsInDim ⟨2, ![1, N]⟩ ![1])
    (h1 : (⟨2, ![1, N]⟩ : Shape).BroadcastsInDim ⟨2, ![M, N]⟩ ![0, 1])
    (hc : (⟨1, ![N]⟩ : Shape).ShapeCasts ⟨2, ![1, N]⟩)
    (hs : (⟨0, ![]⟩ : Shape).BroadcastsInDim ⟨2, ![M, N]⟩ ![]) :
    maximumf (addf (addf (Host.dotGeneral (F := Ideal) D none a wl) (broadcastInDim ⟨2, ![M, N]⟩ ![0, 1] h1 (broadcastInDim ⟨2, ![1, N]⟩ ![1] h0 b)))
        (Host.dotGeneral (F := Ideal) D none h wr))
        (broadcastInDim ⟨2, ![M, N]⟩ ![] hs (constant (F := Ideal) ⟨0, ![]⟩ .f32 0x00000000#32))
      = Entries.combineRelu a h wl wr (shapeCast ⟨2, ![1, N]⟩ b hc) := by
  rw [combine_eq D hD a h wl wr b h0 h1 hc]
  funext i
  show max (Entries.combine a h wl wr (shapeCast ⟨2, ![1, N]⟩ b hc) i)
      (broadcastInDim ⟨2, ![M, N]⟩ ![] hs (constant (F := Ideal) ⟨0, ![]⟩ .f32 0x00000000#32) i) = _
  rw [Cert.Broadcasts.splat_apply]
  rfl

end Cert.RefEntries

end
-- ==== Proof.LibConcatDense.lean ====
/-
  A dense map applied to two feature blocks laid side by side, split into the two blocks.

  Let `a` and `b` be two arrays of `M` rows and `K` columns, laid side by side into one array of `K2 = K + K` columns,
  and let `W` have `K2` rows and `N` columns.  Row r of the wide array times column c of `W` is a sum over the `K2` columns;
  the first `K` terms read `a` against the upper `K` rows of `W`, the last `K` terms read `b` against the lower `K` rows:

      Σ_{j<K2} [a | b](r,j) · W(j,c)  =  Σ_{k<K} a(r,k) · W(k,c)  +  Σ_{k<K} b(r,k) · W(K+k,c).

  `rowCol_concat` states this with the two halves of `W` spelt as unit-stride slices at row offsets 0 and `K`;
  `concatDense_eq` reads the host's whole stage — dot_general of the side-by-side array with `W`, plus the bias vector laid
  as a row and repeated down the rows, clipped below at a zero splat — entry by entry as that split sum plus the bias of
  the column, clipped at zero.  Only a finite sum over `Fin (K + K)` is cut in two: no finiteness of any entry is used.
  The extent `K2` is a separate variable tied by `hK : K2 = K + K`, so the lemmas apply at literal extents (256 = 128 + 128).
-/
import proofs.«147803_j8229157339892_2_alg».proof.Proof.LibDenseEntries
import proofs.«147803_j8229157339892_2_alg».proof.Proof.LibDenseHost
import proofs.«147803_j8229157339892_2_alg».proof.Proof.LibBroadcasts
import Idealize.ShloMosaic.Lib.Pipeline.Value
import Idealize.ShloMosaic.Lib.ValueIdx
import Idealize.ShloMosaic.PureOps.Ideal.Laws

noncomputable section

namespace Cert.ConcatDense

open Idealize.ShloMosaic Idealize.ShloMosaic.ValueIdx

variable {α : Type} {M K K2 N : ℕ}

/-- Column `k` of the first block, as a column of the wide array. -/
abbrev lo (hK : K2 = K + K) (k : Fin K) : Fin K2 := ⟨k.val, by have := k.isLt; omega⟩

/-- Column `k` of the second block, as a column of the wide array. -/
abbrev hi (hK : K2 = K + K) (k : Fin K) : Fin K2 := ⟨K + k.val, by have := k.isLt; omega⟩

/-- A sum over `K + K` positions is the sum over the first `K` plus the sum over the last `K`. -/
theorem sum_halves {β : Type*} [AddCommMonoid β] (hK : K2 = K + K) (f : Fin K2 → β) :
    ∑ j : Fin K2, f j = (∑ k : Fin K, f (lo hK k)) + ∑ k : Fin K, f (hi hK k) := by
  subst hK
  exact Fin.sum_univ_add f

/-- The side-by-side array read in the first block's columns is the first block. -/
theorem concat_lo (hK : K2 = K + K) (a b : (⟨2, ![M, K]⟩ : Shape).Idx → α)
    (hcat : Shape.Concatenates [(⟨2, ![M, K]⟩ : Shape), ⟨2, ![M, K]⟩] ⟨2, ![M, K2]⟩ 1) (r : Fin M) (k : Fin K) :
    concatenate ⟨2, ![M, K2]⟩ 1 [⟨⟨2, ![M, K]⟩, a⟩, ⟨⟨2, ![M, K]⟩, b⟩] hcat (ix2 r (lo hK k)) = a (ix2 r k) := by
  refine concatenate_pair_apply_left 1 a b hcat (ix2 r (lo hK k)) rfl (ix2 r k) (fun q => ?_)
  match q with
  | ⟨0, _⟩ => rfl
  | ⟨1, _⟩ => rfl

/-- The side-by-side array read in the second block's columns is the second block. -/
theorem concat_hi (hK : K2 = K + K) (a b : (⟨2, ![M, K]⟩ : Shape).Idx → α)
    (hcat : Shape.Concatenates [(⟨2, ![M, K]⟩ : Shape), ⟨2, ![M, K]⟩] ⟨2, ![M, K2]⟩ 1) (r : Fin M) (k : Fin K) :
    concatenate ⟨2, ![M, K2]⟩ 1 [⟨⟨2, ![M, K]⟩, a⟩, ⟨⟨2, ![M, K]⟩, b⟩] hcat (ix2 r (hi hK k)) = b (ix2 r k) := by
  refine concatenate_pair_apply_right 1 a b hcat (ix2 r (hi hK k)) rfl rfl (ix2 r k) (fun q hq => ?_) ?_
  · match q with
    | ⟨0, _⟩ => rfl
    | ⟨1, _⟩ => exact absurd rfl hq
  · show k.val + K = K + k.val
    omega

/-- The upper `K` rows of `W`, read at `(k, c)`. -/
theorem slice_lo (hK : K2 = K + K) (W : (⟨2, ![K2, N]⟩ : Shape).Idx → α)
    (hsl : (⟨2, ![K2, N]⟩ : Shape).Slices ![0, 0] ⟨2, ![K, N]⟩) (k : Fin K) (c : Fin N) :
    extractStridedSlice ⟨2, ![K, N]⟩ ![0, 0] W hsl (ix2 k c) = W (ix2 (lo hK k) c) := by
  refine extractStridedSlice_apply ![0, 0] W hsl (ix2 k c) (ix2 (lo hK k) c) (fun q => ?_)
  match q with
  | ⟨0, _⟩ => exact (Nat.zero_add k.val).symm
  | ⟨1, _⟩ => exact (Nat.zero_add c.val).symm

/-- The lower `K` rows of `W`, read at `(k, c)`. -/
theorem slice_hi (hK : K2 = K + K) (W : (⟨2, ![K2, N]⟩ : Shape).Idx → α)
    (hsl : (⟨2, ![K2, N]⟩ : Shape).Slices ![K, 0] ⟨2, ![K, N]⟩) (k : Fin K) (c : Fin N) :
    extractStridedSlice ⟨2, ![K, N]⟩ ![K, 0] W hsl (ix2 k c) = W (ix2 (hi hK k) c) := by
  refine extractStridedSlice_apply ![K, 0] W hsl (ix2 k c) (ix2 (hi hK k) c) (fun q => ?_)
  match q with
  | ⟨0, _⟩ => rfl
  | ⟨1, _⟩ => exact (Nat.zero_add c.val).symm

/-- Row `r` of the side-by-side array against column `c` of `W`: the first block against the upper half of `W` plus
    the second block against the lower half. -/
theorem rowCol_concat (hK : K2 = K + K) (a b : (⟨2, ![M, K]⟩ : Shape).Idx → EReal) (W : (⟨2, ![K2, N]⟩ : Shape).Idx → EReal)
    (hcat : Shape.Concatenates [(⟨2, ![M, K]⟩ : Shape), ⟨2, ![M, K]⟩] ⟨2, ![M, K2]⟩ 1)
    (hsl0 : (⟨2, ![K2, N]⟩ : Shape).Slices ![0, 0] ⟨2, ![K, N]⟩)
    (hsl1 : (⟨2, ![K2, N]⟩ : Shape).Slices ![K, 0] ⟨2, ![K, N]⟩) (r : Fin M) (c : Fin N) :
    Entries.rowCol (concatenate ⟨2, ![M, K2]⟩ 1 [⟨⟨2, ![M, K]⟩, a⟩, ⟨⟨2, ![M, K]⟩, b⟩] hcat) W r c
      = Entries.rowCol a (extractStridedSlice ⟨2, ![K, N]⟩ ![0, 0] W hsl0) r c
        + Entries.rowCol b (extractStridedSlice ⟨2, ![K, N]⟩ ![K, 0] W hsl1) r c := by
  unfold Entries.rowCol
  refine (sum_halves hK _).trans ?_
  refine congrArg₂ (· + ·) (Finset.sum_congr rfl fun k _ => ?_) (Finset.sum_congr rfl fun k _ => ?_)
  · rw [concat_lo hK a b hcat r k, slice_lo hK W hsl0 k c]
  · rw [concat_hi hK a b hcat r k, slice_hi hK W hsl1 k c]

/-- The host's dense stage over two blocks laid side by side — dot_general with the whole `W`, the bias vector laid as a
    row and repeated down the rows, the maximum with a zero splat — entry by entry: the two blocks against the two halves
    of `W`, plus the bias (reshaped to a row) at the column, clipped below at zero. -/
theorem concatDense_eq (hK : K2 = K + K)
    (D : DotDims ⟨2, ![M, K2]⟩ ⟨2, ![K2, N]⟩ ⟨2, ![M, N]⟩) (hD : D = DotDims.plain M K2 N)
    (a b : FVec Ideal ⟨2, ![M, K]⟩ .f32) (W : FVec Ideal ⟨2, ![K2, N]⟩ .f32) (bias : FVec Ideal ⟨1, ![N]⟩ .f32)
    (hcat : Shape.Concatenates [(⟨2, ![M, K]⟩ : Shape), ⟨2, ![M, K]⟩] ⟨2, ![M, K2]⟩ 1)
    (h0 : (⟨1, ![N]⟩ : Shape).BroadcastsInDim ⟨2, ![1, N]⟩ ![1])
    (h1 : (⟨2, ![1, N]⟩ : Shape).BroadcastsInDim ⟨2, ![M, N]⟩ ![0, 1])
    (hs : (⟨0, ![]⟩ : Shape).BroadcastsInDim ⟨2, ![M, N]⟩ ![])
    (hsl0 : (⟨2, ![K2, N]⟩ : Shape).Slices ![0, 0] ⟨2, ![K, N]⟩)
    (hsl1 : (⟨2, ![K2, N]⟩ : Shape).Slices ![K, 0] ⟨2, ![K, N]⟩)
    (hc : (⟨1, ![N]⟩ : Shape).ShapeCasts ⟨2, ![1, N]⟩) :
    maximumf (addf (Host.dotGeneral (F := Ideal) D none
            (concatenate ⟨2, ![M, K2]⟩ 1 [⟨⟨2, ![M, K]⟩, a⟩, ⟨⟨2, ![M, K]⟩, b⟩] hcat) W)
          (broadcastInDim ⟨2, ![M, N]⟩ ![0, 1] h1 (broadcastInDim ⟨2, ![1, N]⟩ ![1] h0 bias)))
        (broadcastInDim ⟨2, ![M, N]⟩ ![] hs (constant (F := Ideal) ⟨0, ![]⟩ .f32 0x00000000#32))
      = fun i : (⟨2, ![M, N]⟩ : Shape).Idx =>
          max ((Entries.rowCol a (extractStridedSlice ⟨2, ![K, N]⟩ ![0, 0] W hsl0) (i 0) (i 1)
                + Entries.rowCol b (extractStridedSlice ⟨2, ![K, N]⟩ ![K, 0] W hsl1) (i 0) (i 1))
              + shapeCast ⟨2, ![1, N]⟩ bias hc (ix2 (0 : Fin 1) (i 1)))
            (Ideal.ofBits .f32 0x00000000#32) := by
  rw [Cert.RefEntries.affine_eq D hD _ W bias h0 h1 hc]
  funext i
  show max (Entries.affine (concatenate ⟨2, ![M, K2]⟩ 1 [⟨⟨2, ![M, K]⟩, a⟩, ⟨⟨2, ![M, K]⟩, b⟩] hcat) W (shapeCast ⟨2, ![1, N]⟩ bias hc) i)
      (broadcastInDim ⟨2, ![M, N]⟩ ![] hs (constant (F := Ideal) ⟨0, ![]⟩ .f32 0x00000000#32) i) = _
  rw [Cert.Broadcasts.splat_apply]
  unfold Entries.affine
  rw [rowCol_concat hK a b W hcat hsl0 hsl1 (i 0) (i 1)]
  rfl

end Cert.ConcatDense

end
-- ==== Proof.LibEdgeIndex.lean ====
/-
  Gathers and accumulating scatters whose index array is a column [E, 1] of row numbers, read at an index.

  An index column `idx : [E, 1]` names one row per entry `e` (an edge).  Two readings of it occur:

  * a GATHER takes, for entry `e`, the row `idx[e, 0]` of a table with `N` rows — read signed and clamped into
    `[0, N - 1]` (`rowOf`).  From a vector `[N]` the result is `[E]`, its entry `e` the table at that row; from a
    matrix `[N, D]` the result is `[E, D]`, its entry `(e, j)` the table at that row and column `j`.
  * an ACCUMULATING SCATTER adds, for entry `e`, an update into row `idx[e, 0]` of the operand — read signed and
    NOT clamped: an update whose row is outside `[0, N - 1]` is dropped.  Entry `e` lands on row `n` exactly when
    `idx[e, 0] = n` as integers (`lands`).  Over the extended reals the result at row `n` is the operand there plus
    the sum over the entries that land on `n` of their updates; into a matrix `[N, D]` from updates `[E, D]` the
    update `(e, j')` lands on `(n, j)` exactly when `e` lands on `n` and `j' = j`, so column `j` of the result
    collects column `j` of the updates.

  Stated for any extents, over the dimension records with these dimension numbers; a printed record with the same
  numbers is such a record by unfolding.
-/
import Idealize.ShloMosaic.Lib.ValueIdx
import Idealize.ShloMosaic.PureOps.Ideal
import Idealize.ShloMosaic.PureOps.Ideal.Laws

noncomputable section

namespace Cert.EdgeIndex

open Idealize.ShloMosaic Idealize.ShloMosaic.ValueIdx

variable {α : Type} {N E D w : ℕ}

/-- A sum over a rank-1 index set is the sum over its coordinate. -/
def idxEquiv1 {n : ℕ} : (⟨1, ![n]⟩ : Shape).Idx ≃ Fin n where
  toFun i := i 0
  invFun a := ix1 a
  left_inv i := (eq_ix1 i).symm
  right_inv _ := rfl

theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- The index column's entry for `e`. -/
abbrev at0 (e : Fin E) : (⟨2, ![E, 1]⟩ : Shape).Idx := ix2 e (0 : Fin 1)

/-- The row a gather reads for entry `e`: the column's word read signed, clamped into `[0, N - 1]`. -/
def rowOf (hN : 0 < N) (idx : IVec ⟨2, ![E, 1]⟩ w) (e : Fin E) : Fin N :=
  ⟨min (idx (at0 e)).toInt.toNat (N - 1), by omega⟩

/-- Entry `e` of the index column names row `n`, as integers, with no clamping. -/
def lands (idx : IVec ⟨2, ![E, 1]⟩ w) (e : Fin E) (n : Fin N) : Prop := (idx (at0 e)).toInt = (n.val : Int)

instance (idx : IVec ⟨2, ![E, 1]⟩ w) (e : Fin E) (n : Fin N) : Decidable (lands idx e n) := by
  unfold lands; infer_instance

/-! ## Gathers -/

/-- The dimension numbers of `vector[idx]`: one collapsed axis, the index vector on the column's second axis. -/
abbrev vecGather (N E : ℕ) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- `vector[idx]` at entry `e`: the vector at the clamped row. -/
theorem vecGather_apply (hN : 0 < N) (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e) = x (ix1 (rowOf hN idx e)) := by
  unfold Host.gather
  congr 1
  funext a
  obtain rfl : a = 0 := Subsingleton.elim _ _
  refine Fin.ext ?_
  show (vecGather N E wf).start (ix1 e) idx 0 + (vecGather N E wf).batchCoord (ix1 e) 0 + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = at0 e := by
    funext b; refine Fin.ext ?_
    match b with
    | ⟨0, _⟩ => rfl
    | ⟨1, _⟩ => rfl
  rw [hsi]
  rfl

/-- The dimension numbers of `matrix[idx]` (whole rows): the row axis collapsed, the column axis an offset axis. -/
abbrev rowGather (N D E : ℕ) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- `matrix[idx]` at entry `(e, j)`: the matrix at the clamped row, column `j`. -/
theorem rowGather_apply (hN : 0 < N) (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowGather N D E wf) x idx (ix2 e j) = x (ix2 (rowOf hN idx e) j) := by
  unfold Host.gather
  congr 1
  have h0 : ((rowGather N D E wf).operandIdx (ix2 e j) idx (0 : Fin 2)).val = (rowOf hN idx e).val := by
    show (rowGather N D E wf).start (ix2 e j) idx (0 : Fin 2) + (rowGather N D E wf).batchCoord (ix2 e j) (0 : Fin 2)
      + (rowGather N D E wf).offCoord (ix2 e j) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N D E wf).startIndexMap from List.mem_singleton.mpr rfl)]
    have hsi : (rowGather N D E wf).siIdx (ix2 e j) ⟨List.idxOf (0 : Fin 2) (rowGather N D E wf).startIndexMap,
        List.idxOf_lt_length_iff.2 (List.mem_singleton.mpr rfl)⟩ = at0 e := by
      funext b; refine Fin.ext ?_
      match b with
      | ⟨0, _⟩ => rfl
      | ⟨1, _⟩ => rfl
    rw [hsi]
    rfl
  have h1 : ((rowGather N D E wf).operandIdx (ix2 e j) idx (1 : Fin 2)).val = j.val := by
    show (rowGather N D E wf).start (ix2 e j) idx (1 : Fin 2) + (rowGather N D E wf).batchCoord (ix2 e j) (1 : Fin 2)
      + (rowGather N D E wf).offCoord (ix2 e j) (1 : Fin 2) = _
    rw [GatherDims.batchCoord_eq_zero _ _ _ List.not_mem_nil]
    have hs : (rowGather N D E wf).start (ix2 e j) idx (1 : Fin 2) = 0 := by
      unfold GatherDims.start
      split
      · rename_i h
        exact ((by decide : ¬ (1 : Fin 2) ∈ ([0] : List (Fin 2))) h).elim
      · rfl
    have ho : (rowGather N D E wf).offCoord (ix2 e j) (1 : Fin 2) = j.val := by
      unfold GatherDims.offCoord
      split
      · rfl
      · rename_i h
        exact absurd ((GatherDims.mem_sKept _ _).mpr
          ⟨fun hh => absurd (hh : (1 : Fin 2) ∈ ([0] : List (Fin 2))) (by decide), List.not_mem_nil⟩) h
    rw [hs, ho, Nat.add_zero, Nat.zero_add]
  funext a
  refine Fin.ext ?_
  match a with
  | ⟨0, _⟩ => exact h0
  | ⟨1, _⟩ => exact h1

/-! ## Accumulating scatters -/

/-- An update lands on the operand index `i` exactly when, on every axis, its start plus its window coordinate is
    `i`'s coordinate. -/
theorem resultIdx?_eq_some_iff {s si u : Shape} (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h
    split at h
    · rename_i hb
      have hf := Option.some.inj h
      intro a
      have ha := congrArg (fun f => ((f a).val : Int)) hf
      have hb' := (hb a).1
      simp only [Int.toNat_of_nonneg hb'] at ha
      exact ha
    · cases h
  · intro h
    have hb : ∀ a, 0 ≤ d.start j idx a + (d.window j a : Int) ∧ d.start j idx a + (d.window j a : Int) < s.size a := fun a => by
      rw [h a]
      exact ⟨Int.natCast_nonneg _, by exact_mod_cast (i a).isLt⟩
    rw [dif_pos hb]
    congr 1
    funext a
    apply Fin.ext
    show (d.start j idx a + (d.window j a : Int)).toNat = (i a).val
    rw [h a, Int.toNat_natCast]

/-- An operand axis carries a window coordinate exactly when it is not an inserted axis. -/
theorem mem_sKept_iff {s si u : Shape} (d : ScatterDims s si u) (a : Fin s.rank) : a ∈ d.sKept ↔ a ∉ d.insertedWindowDims := by
  simp [ScatterDims.sKept, Shape.kept, List.mem_filter, List.mem_finRange]

/-- The dimension numbers of `vector.at[idx].add(updates)`. -/
abbrev vecScatter (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem vecScatter_lands (wf : ScatterDims.WF ⟨1, ![N]⟩ ⟨2, ![E, 1]⟩ ⟨1, ![E]⟩ [] [0] [0] 1)
    (idx : IVec ⟨2, ![E, 1]⟩ w) (e : Fin E) (n : Fin N) :
    (vecScatter N E wf).resultIdx? (ix1 e) idx = some (ix1 n) ↔ lands idx e n := by
  rw [resultIdx?_eq_some_iff]
  have hstart : (vecScatter N E wf).start (ix1 e) idx (0 : Fin 1) = (idx (at0 e)).toInt := by
    unfold ScatterDims.start
    rw [dif_pos (show (0 : Fin 1) ∈ (vecScatter N E wf).scatterDimsToOperandDims from List.mem_singleton.mpr rfl)]
    congr 2
    funext b; refine Fin.ext ?_
    match b with
    | ⟨0, _⟩ => rfl
    | ⟨1, _⟩ => rfl
  have hwin : (vecScatter N E wf).window (ix1 e) (0 : Fin 1) = 0 := by
    unfold ScatterDims.window
    split
    · rename_i h
      exact absurd (List.mem_singleton.mpr rfl) ((mem_sKept_iff _ _).mp h)
    · rfl
  constructor
  · intro h
    have h0 : (idx (at0 e)).toInt + ((0 : ℕ) : Int) = (n.val : Int) := by
      have := h (0 : Fin 1)
      rw [hstart, hwin] at this
      exact this
    show (idx (at0 e)).toInt = (n.val : Int)
    rw [Nat.cast_zero, add_zero] at h0
    exact h0
  · intro h a
    obtain rfl : a = 0 := Subsingleton.elim _ _
    rw [hstart, hwin]
    show (idx (at0 e)).toInt + ((0 : ℕ) : Int) = (n.val : Int)
    rw [Nat.cast_zero, add_zero]
    exact h

/-- `vector.at[idx].add(updates)` at row `n`, over the extended reals: the operand there plus the updates of the
    entries that land on `n`. -/
theorem vecScatterAdd_apply (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (n : Fin N) :
    Host.scatterAdd (F := Ideal) (vecScatter N E wf) x idx upd (ix1 n)
      = x (ix1 n) + ∑ e : Fin E, if lands idx e n then upd (ix1 e) else 0 := by
  show Ideal.hostScatterAdd (vecScatter N E wf) x idx upd (ix1 n) = _
  unfold Ideal.hostScatterAdd
  congr 1
  rw [Finset.sum_filter, sum_idx1]
  exact Finset.sum_congr rfl fun e _ => if_congr (vecScatter_lands wf idx e n) rfl rfl

/-- The dimension numbers of `matrix.at[idx].add(updates)` with whole-row updates. -/
abbrev rowScatter (N D E : ℕ) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

theorem rowScatter_lands (wf : ScatterDims.WF ⟨2, ![N, D]⟩ ⟨2, ![E, 1]⟩ ⟨2, ![E, D]⟩ [1] [0] [0] 1)
    (idx : IVec ⟨2, ![E, 1]⟩ w) (e : Fin E) (j' : Fin D) (n : Fin N) (j : Fin D) :
    (rowScatter N D E wf).resultIdx? (ix2 e j') idx = some (ix2 n j) ↔ lands idx e n ∧ j' = j := by
  rw [resultIdx?_eq_some_iff]
  have hstart0 : (rowScatter N D E wf).start (ix2 e j') idx (0 : Fin 2) = (idx (at0 e)).toInt := by
    unfold ScatterDims.start
    rw [dif_pos (show (0 : Fin 2) ∈ (rowScatter N D E wf).scatterDimsToOperandDims from List.mem_singleton.mpr rfl)]
    congr 2
    funext b; refine Fin.ext ?_
    match b with
    | ⟨0, _⟩ => rfl
    | ⟨1, _⟩ => rfl
  have hwin0 : (rowScatter N D E wf).window (ix2 e j') (0 : Fin 2) = 0 := by
    unfold ScatterDims.window
    split
    · rename_i h
      exact absurd (List.mem_singleton.mpr rfl) ((mem_sKept_iff _ _).mp h)
    · rfl
  have hstart1 : (rowScatter N D E wf).start (ix2 e j') idx (1 : Fin 2) = 0 := by
    unfold ScatterDims.start
    split
    · rename_i h
      exact ((by decide : ¬ (1 : Fin 2) ∈ ([0] : List (Fin 2))) h).elim
    · rfl
  have hwin1 : (rowScatter N D E wf).window (ix2 e j') (1 : Fin 2) = j'.val := by
    unfold ScatterDims.window
    split
    · rfl
    · rename_i h
      exact absurd ((mem_sKept_iff _ _).mpr
        (fun hh => absurd (hh : (1 : Fin 2) ∈ ([0] : List (Fin 2))) (by decide))) h
  constructor
  · intro h
    have h0 : (idx (at0 e)).toInt + ((0 : ℕ) : Int) = (n.val : Int) := by
      have := h (0 : Fin 2)
      rw [hstart0, hwin0] at this
      exact this
    have h1 : (0 : Int) + ((j'.val : ℕ) : Int) = (j.val : Int) := by
      have := h (1 : Fin 2)
      rw [hstart1, hwin1] at this
      exact this
    rw [Nat.cast_zero, add_zero] at h0
    rw [zero_add] at h1
    exact ⟨h0, Fin.ext (by exact_mod_cast h1)⟩
  · rintro ⟨h, rfl⟩ a
    match a with
    | ⟨0, _⟩ =>
      show (rowScatter N D E wf).start (ix2 e j') idx (0 : Fin 2) + (((rowScatter N D E wf).window (ix2 e j') (0 : Fin 2) : ℕ) : Int) = (n.val : Int)
      rw [hstart0, hwin0, Nat.cast_zero, add_zero]
      exact h
    | ⟨1, _⟩ =>
      show (rowScatter N D E wf).start (ix2 e j') idx (1 : Fin 2) + (((rowScatter N D E wf).window (ix2 e j') (1 : Fin 2) : ℕ) : Int) = (j'.val : Int)
      rw [hstart1, hwin1, zero_add]

/-- `matrix.at[idx].add(updates)` at `(n, j)`, over the extended reals: the operand there plus column `j` of the
    updates of the entries that land on row `n`. -/
theorem rowScatterAdd_apply (wf : ScatterDims.WF ⟨2, ![N, D]⟩ ⟨2, ![E, 1]⟩ ⟨2, ![E, D]⟩ [1] [0] [0] 1)
    (x : FVec Ideal ⟨2, ![N, D]⟩ .f32) (idx : IVec ⟨2, ![E, 1]⟩ w) (upd : FVec Ideal ⟨2, ![E, D]⟩ .f32) (n : Fin N) (j : Fin D) :
    Host.scatterAdd (F := Ideal) (rowScatter N D E wf) x idx upd (ix2 n j)
      = x (ix2 n j) + ∑ e : Fin E, if lands idx e n then upd (ix2 e j) else 0 := by
  show Ideal.hostScatterAdd (rowScatter N D E wf) x idx upd (ix2 n j) = _
  unfold Ideal.hostScatterAdd
  congr 1
  rw [Finset.sum_filter, sum_idx2]
  refine Finset.sum_congr rfl fun e _ => ?_
  rw [Finset.sum_congr rfl fun j' _ => if_congr (rowScatter_lands wf idx e j' n j) rfl rfl]
  by_cases h : lands idx e n
  · simp only [h, true_and, if_true]
    rw [Finset.sum_ite_eq' Finset.univ j (fun j' => upd (ix2 e j'))]
    simp
  · simp only [h, false_and, if_false, Finset.sum_const_zero]

end Cert.EdgeIndex

end
-- ==== Proof.LibGatherConcat.lean ====
/-
  Picking rows and multiplying, in either order.

  A gather of whole rows through an index column reads, for entry `e`, one row of its table — the row the column names
  for `e`, read signed and clamped into the table — whatever the table's width.  A matrix product is taken row by row,
  so picking row `n` of a product `x · w` is multiplying row `n` of `x` by `w`:

      (x · w)[row(idx, e), c]  =  Σ_k x(row(idx, e), k) · w(k, c)  =  (x[idx] · w)(e, c).

  `rowCol_gather` is this entry.  `gatherConcatDot_eq` is the two-ended form: with two index columns `si`, `di` and a
  weight matrix `Wf` of `K2 = K + K` rows, the product of `x` with the upper `K` rows of `Wf` picked through `si`, plus
  the product of `x` with the lower `K` rows picked through `di`, is the product with the whole `Wf` of the rows picked
  through `si` and the rows picked through `di` laid side by side.  The gather and product records are any records equal
  to the row-gather and the plain product.  Only finite sums are regrouped: no finiteness of any entry is used.
-/
import proofs.«147803_j8229157339892_2_alg».proof.Proof.LibDenseEntries
import proofs.«147803_j8229157339892_2_alg».proof.Proof.LibDenseHost
import proofs.«147803_j8229157339892_2_alg».proof.Proof.LibEdgeIndex
import proofs.«147803_j8229157339892_2_alg».proof.Proof.LibConcatDense
import Idealize.ShloMosaic.Lib.Pipeline.Value
import Idealize.ShloMosaic.Lib.ValueIdx
import Idealize.ShloMosaic.PureOps.Ideal.Laws

noncomputable section

namespace Cert.GatherConcat

open Idealize.ShloMosaic Idealize.ShloMosaic.ValueIdx

variable {Nn K K2 C E w : ℕ}

/-- Row `e` of the picked rows against column `c` of `wt` is the named row of the table against that column. -/
theorem rowCol_gather (hN : 0 < Nn)
    (G : GatherDims ⟨2, ![Nn, K]⟩ ⟨2, ![E, 1]⟩ ⟨2, ![E, K]⟩)
    (wf : GatherDims.WF ⟨2, ![Nn, K]⟩ ⟨2, ![E, 1]⟩ ⟨2, ![E, K]⟩ [1] [0] [] [0] [] 1 ![1, K])
    (hG : G = Cert.EdgeIndex.rowGather Nn K E wf)
    (x : (⟨2, ![Nn, K]⟩ : Shape).Idx → EReal) (idx : IVec ⟨2, ![E, 1]⟩ w) (wt : (⟨2, ![K, C]⟩ : Shape).Idx → EReal)
    (e : Fin E) (c : Fin C) :
    Entries.rowCol (Host.gather G x idx) wt e c = Entries.rowCol x wt (Cert.EdgeIndex.rowOf hN idx e) c := by
  subst hG
  exact Entries.rowCol_of_rows x wt (Host.gather (Cert.EdgeIndex.rowGather Nn K E wf) x idx) wt
    (Cert.EdgeIndex.rowOf hN idx e) c e c (fun k => Cert.EdgeIndex.rowGather_apply hN wf x idx e k) (fun _ => rfl)

/-- A product picked through an index column, at `(e, c)`: the named row of the left operand against column `c`. -/
theorem gather_dot_apply (hN : 0 < Nn)
    (D : DotDims ⟨2, ![Nn, K]⟩ ⟨2, ![K, C]⟩ ⟨2, ![Nn, C]⟩) (hD : D = DotDims.plain Nn K C)
    (G : GatherDims ⟨2, ![Nn, C]⟩ ⟨2, ![E, 1]⟩ ⟨2, ![E, C]⟩)
    (wf : GatherDims.WF ⟨2, ![Nn, C]⟩ ⟨2, ![E, 1]⟩ ⟨2, ![E, C]⟩ [1] [0] [] [0] [] 1 ![1, C])
    (hG : G = Cert.EdgeIndex.rowGather Nn C E wf)
    (x : FVec Ideal ⟨2, ![Nn, K]⟩ .f32) (wt : FVec Ideal ⟨2, ![K, C]⟩ .f32) (idx : IVec ⟨2, ![E, 1]⟩ w)
    (e : Fin E) (c : Fin C) :
    Host.gather G (Host.dotGeneral (F := Ideal) D none x wt) idx (ix2 e c)
      = Entries.rowCol x wt (Cert.EdgeIndex.rowOf hN idx e) c := by
  subst hG
  rw [Cert.EdgeIndex.rowGather_apply hN wf _ idx e c]
  exact Cert.RefEntries.dot_apply D hD x wt (Cert.EdgeIndex.rowOf hN idx e) c

/-- Products with the two halves of `Wf` picked through `si` and `di` and added, against the product with the whole
    `Wf` of the rows picked through `si` and through `di` laid side by side. -/
theorem gatherConcatDot_eq (hK : K2 = K + K) (hN : 0 < Nn)
    (D1 : DotDims ⟨2, ![Nn, K]⟩ ⟨2, ![K, C]⟩ ⟨2, ![Nn, C]⟩) (hD1 : D1 = DotDims.plain Nn K C)
    (D2 : DotDims ⟨2, ![E, K2]⟩ ⟨2, ![K2, C]⟩ ⟨2, ![E, C]⟩) (hD2 : D2 = DotDims.plain E K2 C)
    (G1 : GatherDims ⟨2, ![Nn, C]⟩ ⟨2, ![E, 1]⟩ ⟨2, ![E, C]⟩)
    (wf1 : GatherDims.WF ⟨2, ![Nn, C]⟩ ⟨2, ![E, 1]⟩ ⟨2, ![E, C]⟩ [1] [0] [] [0] [] 1 ![1, C])
    (hG1 : G1 = Cert.EdgeIndex.rowGather Nn C E wf1)
    (G2 : GatherDims ⟨2, ![Nn, K]⟩ ⟨2, ![E, 1]⟩ ⟨2, ![E, K]⟩)
    (wf2 : GatherDims.WF ⟨2, ![Nn, K]⟩ ⟨2, ![E, 1]⟩ ⟨2, ![E, K]⟩ [1] [0] [] [0] [] 1 ![1, K])
    (hG2 : G2 = Cert.EdgeIndex.rowGather Nn K E wf2)
    (x : FVec Ideal ⟨2, ![Nn, K]⟩ .f32) (si di : IVec ⟨2, ![E, 1]⟩ w) (Wf : FVec Ideal ⟨2, ![K2, C]⟩ .f32)
    (hcat : Shape.Concatenates [(⟨2, ![E, K]⟩ : Shape), ⟨2, ![E, K]⟩] ⟨2, ![E, K2]⟩ 1)
    (hsl0 : (⟨2, ![K2, C]⟩ : Shape).Slices ![0, 0] ⟨2, ![K, C]⟩)
    (hsl1 : (⟨2, ![K2, C]⟩ : Shape).Slices ![K, 0] ⟨2, ![K, C]⟩) :
    addf (Host.gather G1 (Host.dotGeneral (F := Ideal) D1 none x (extractStridedSlice ⟨2, ![K, C]⟩ ![0, 0] Wf hsl0)) si)
         (Host.gather G1 (Host.dotGeneral (F := Ideal) D1 none x (extractStridedSlice ⟨2, ![K, C]⟩ ![K, 0] Wf hsl1)) di)
      = Host.dotGeneral (F := Ideal) D2 none
          (concatenate ⟨2, ![E, K2]⟩ 1 [⟨⟨2, ![E, K]⟩, Host.gather G2 x si⟩, ⟨⟨2, ![E, K]⟩, Host.gather G2 x di⟩] hcat) Wf := by
  funext i
  obtain ⟨e, c, rfl⟩ : ∃ (e : Fin E) (c : Fin C), i = ix2 e c := ⟨i 0, i 1, eq_ix2 i⟩
  rw [Cert.RefEntries.dot_apply D2 hD2 _ Wf e c,
    Cert.ConcatDense.rowCol_concat hK (Host.gather G2 x si) (Host.gather G2 x di) Wf hcat hsl0 hsl1 e c,
    rowCol_gather hN G2 wf2 hG2 x si _ e c, rowCol_gather hN G2 wf2 hG2 x di _ e c]
  exact congrArg₂ (· + ·) (gather_dot_apply hN D1 hD1 G1 wf1 hG1 x _ si e c) (gather_dot_apply hN D1 hD1 G1 wf1 hG1 x _ di e c)

end Cert.GatherConcat

end
-- ==== Proof.Laws.lean ====
/-
  The two laws that join the two programs' host arithmetic, over the extended reals.

  `layer_law`: one layer of the network.  One program lays the two feature blocks `a`, `b` side by side, multiplies by
  one weight matrix `W` of 256 rows, adds the bias (laid as a row, repeated down the rows) and clips at zero.  The other
  feeds `a` and `b` with the upper and lower 128 rows of `W` and the bias reshaped to a row into the entrywise dense
  step.  Entry (r, c) of both is  max((Σ_{k<128} a(r,k)·W(k,c) + Σ_{k<128} b(r,k)·W(128+k,c)) + bias(c), 0):
  the sum over the 256 columns of the wide array is cut at column 128.

  `head_law`: the final edge score.  For an edge e with end rows s = row(si, e) and d = row(di, e) (the index read
  signed and clamped into the table), one program multiplies every node's features by each half of the weight column
  and then picks rows s and d of the two products and adds them; the other picks rows s and d of the features, lays
  them side by side and multiplies by the whole weight column.  Both are
  Σ_{k<128} node(s,k)·Wf(k,0) + Σ_{k<128} node(d,k)·Wf(128+k,0), because picking a row commutes with a product taken
  row by row.

  Only finite sums are regrouped: no finiteness of any entry is used.
-/
import proofs.«147803_j8229157339892_2_alg».proof.Proof.Gen.KernelIdeal
import proofs.«147803_j8229157339892_2_alg».proof.Proof.Gen.ReferenceIdeal
import proofs.«147803_j8229157339892_2_alg».proof.Proof.Layer
import proofs.«147803_j8229157339892_2_alg».proof.Proof.LibConcatDense
import proofs.«147803_j8229157339892_2_alg».proof.Proof.LibGatherConcat
import Idealize.ShloMosaic.Lib.Pipeline.Value
import Idealize.ShloMosaic.Lib.ValueIdx
import Idealize.ShloMosaic.PureOps.Ideal.Laws

noncomputable section

namespace Cert.Laws

open Idealize.ShloMosaic Idealize.ShloMosaic.ValueIdx

/-- One layer: the dense map of the side-by-side blocks against the whole weight matrix, with bias and clip, is the
    entrywise dense step of the two blocks against the two halves of the weight matrix. -/
theorem layer_law (a b : FVec Ideal Cert.ReferenceIdeal.S50000x128 .f32) (W : FVec Ideal Cert.ReferenceIdeal.S256x128 .f32)
    (bias : FVec Ideal Cert.ReferenceIdeal.S128 .f32) :
    maximumf (addf (Host.dotGeneral (F := Ideal) Cert.ReferenceIdeal.dot_S50000x256_S256x128_S50000x128_1_0_0_1_n_n none
          (concatenate Cert.ReferenceIdeal.S50000x256 1 [⟨Cert.ReferenceIdeal.S50000x128, a⟩, ⟨Cert.ReferenceIdeal.S50000x128, b⟩]
            Cert.ReferenceIdeal.Facts₀.concatenates_S50000x128_S50000x128_S50000x256_d1) W)
        (broadcastInDim Cert.ReferenceIdeal.S50000x128 ![0, 1] Cert.ReferenceIdeal.Facts₀.bcast_S1x128_S50000x128_0_1
          (broadcastInDim Cert.ReferenceIdeal.S1x128 ![1] Cert.ReferenceIdeal.Facts₀.bcast_S128_S1x128_1 bias)))
      (broadcastInDim Cert.ReferenceIdeal.S50000x128 ![] Cert.ReferenceIdeal.Facts₀.bcast_S_S50000x128
        (constant (F := Ideal) Cert.ReferenceIdeal.S_ .f32 0x00000000#32))
    = Cert.Layer.step a b
        (extractStridedSlice Cert.KernelIdeal.S128x128 ![0, 0] W Cert.KernelIdeal.Facts₀.slices_S256x128_S128x128_0_0)
        (extractStridedSlice Cert.KernelIdeal.S128x128 ![128, 0] W Cert.KernelIdeal.Facts₀.slices_S256x128_S128x128_128_0)
        (shapeCast Cert.KernelIdeal.S1x128 bias Cert.KernelIdeal.Facts₀.shapeCasts_S128_S1x128) :=
  Cert.ConcatDense.concatDense_eq (M := 50000) (K := 128) (K2 := 256) (N := 128) rfl
    Cert.ReferenceIdeal.dot_S50000x256_S256x128_S50000x128_1_0_0_1_n_n rfl a b W bias
    Cert.ReferenceIdeal.Facts₀.concatenates_S50000x128_S50000x128_S50000x256_d1
    Cert.ReferenceIdeal.Facts₀.bcast_S128_S1x128_1 Cert.ReferenceIdeal.Facts₀.bcast_S1x128_S50000x128_0_1
    Cert.ReferenceIdeal.Facts₀.bcast_S_S50000x128
    Cert.KernelIdeal.Facts₀.slices_S256x128_S128x128_0_0 Cert.KernelIdeal.Facts₀.slices_S256x128_S128x128_128_0
    Cert.KernelIdeal.Facts₀.shapeCasts_S128_S1x128

/-- The final edge score: products with the two halves of the weight column picked at the edge's two end rows and
    added, against the product with the whole weight column of the two picked feature rows laid side by side. -/
theorem head_law (node : FVec Ideal Cert.KernelIdeal.S50000x128 .f32) (si di : IVec Cert.KernelIdeal.S800000x1 32)
    (Wf : FVec Ideal Cert.KernelIdeal.S256x1 .f32) :
    addf (Host.gather Cert.KernelIdeal.gather_S50000x1_S800000x1_S800000x1_1_0_n_n_0_1_11
            (Host.dotGeneral (F := Ideal) Cert.KernelIdeal.dot_S50000x128_S128x1_S50000x1_1_0_0_1_n_n none node
              (extractStridedSlice Cert.KernelIdeal.S128x1 ![0, 0] Wf Cert.KernelIdeal.Facts₀.slices_S256x1_S128x1_0_0)) si)
         (Host.gather Cert.KernelIdeal.gather_S50000x1_S800000x1_S800000x1_1_0_n_n_0_1_11
            (Host.dotGeneral (F := Ideal) Cert.KernelIdeal.dot_S50000x128_S128x1_S50000x1_1_0_0_1_n_n none node
              (extractStridedSlice Cert.KernelIdeal.S128x1 ![128, 0] Wf Cert.KernelIdeal.Facts₀.slices_S256x1_S128x1_128_0)) di)
    = Host.dotGeneral (F := Ideal) Cert.ReferenceIdeal.dot_S800000x256_S256x1_S800000x1_1_0_0_1_n_n none
        (concatenate Cert.ReferenceIdeal.S800000x256 1
          [⟨Cert.ReferenceIdeal.S800000x128, Host.gather Cert.ReferenceIdeal.gather_S50000x128_S800000x1_S800000x128_1_0_n_n_0_1_1128 node si⟩,
           ⟨Cert.ReferenceIdeal.S800000x128, Host.gather Cert.ReferenceIdeal.gather_S50000x128_S800000x1_S800000x128_1_0_n_n_0_1_1128 node di⟩]
          Cert.ReferenceIdeal.Facts₀.concatenates_S800000x128_S800000x128_S800000x256_d1) Wf :=
  Cert.GatherConcat.gatherConcatDot_eq (Nn := 50000) (K := 128) (K2 := 256) (C := 1) (E := 800000) rfl (by decide)
    Cert.KernelIdeal.dot_S50000x128_S128x1_S50000x1_1_0_0_1_n_n rfl
    Cert.ReferenceIdeal.dot_S800000x256_S256x1_S800000x1_1_0_0_1_n_n rfl
    Cert.KernelIdeal.gather_S50000x1_S800000x1_S800000x1_1_0_n_n_0_1_11
    Cert.KernelIdeal.Facts₀.gather_S50000x1_S800000x1_S800000x1_1_0_n_n_0_1_11_wf rfl
    Cert.ReferenceIdeal.gather_S50000x128_S800000x1_S800000x128_1_0_n_n_0_1_1128
    Cert.ReferenceIdeal.Facts₀.gather_S50000x128_S800000x1_S800000x128_1_0_n_n_0_1_1128_wf rfl
    node si di Wf
    Cert.ReferenceIdeal.Facts₀.concatenates_S800000x128_S800000x128_S800000x256_d1
    Cert.KernelIdeal.Facts₀.slices_S256x1_S128x1_0_0 Cert.KernelIdeal.Facts₀.slices_S256x1_S128x1_128_0

/-! The two programs print the same dimension records for the row gather and the two accumulating scatters: the same
    dimension numbers over the same shapes. -/

theorem gatherRows_eq :
    Cert.KernelIdeal.gather_S50000x128_S800000x1_S800000x128_1_0_n_n_0_1_1128
      = Cert.ReferenceIdeal.gather_S50000x128_S800000x1_S800000x128_1_0_n_n_0_1_1128 := rfl

theorem scatterRows_eq :
    Cert.KernelIdeal.scatter_S50000x128_S800000x1_S800000x128_1_0_0_1
      = Cert.ReferenceIdeal.scatter_S50000x128_S800000x1_S800000x128_1_0_0_1 := rfl

theorem scatterCol_eq :
    Cert.KernelIdeal.scatter_S50000x1_S800000x1_S800000x1_1_0_0_1
      = Cert.ReferenceIdeal.scatter_S50000x1_S800000x1_S800000x1_1_0_0_1 := rfl

end Cert.Laws

end
-- ==== Proof.Stretches.lean ====
/-
  The host arithmetic between the dense steps, read against the network's specification.

  Between two dense steps the program prepares the next step's operands from buffers it already holds.  For each
  edge it takes the row of the previous step's result at the edge's source (a negative index counting from the
  end), adds these rows into the edge's target node and divides by the number of incoming edges, clipped below at
  one: the mean over incoming edges of the source's hidden features.  The previous result is held in the short
  float format and is widened before it is added; on extended reals a change of format moves nothing, so this is
  the specification's neighbour mean of that result.  The weight matrix of 256 rows is cut into its upper and lower
  128 rows, and the bias vector is laid out as a row.  After the last step the node table's rows at both ends of
  every edge are laid side by side, and the edge score is assembled from the products of the node table with the two
  halves of the weight column, picked at the edge's two ends, plus the bias.
-/
import proofs.«147803_j8229157339892_2_alg».proof.Proof.Gen.KernelIdeal.Launch
import proofs.«147803_j8229157339892_2_alg».proof.Proof.Spec
import proofs.«147803_j8229157339892_2_alg».proof.Proof.Laws

set_option maxRecDepth 16384

noncomputable section

namespace Cert.KernelIdeal.Stretch

open Cert.KernelIdeal Cert.KernelIdeal.Gen
open Idealize.ShloMosaic Idealize.ShloMosaic.TcCoe Idealize.ShloMosaic.StableHlo

variable (W : Valuation τ sig (Elt Ideal))

/-- Widening a float array is the identity on extended reals. -/
theorem extf_id {s : Shape} {φ ψ : FTy} (x : FVec Ideal s φ) (h : φ.bits < ψ.bits) :
    (extf ψ x h : FVec Ideal s ψ) = x := funext fun _ => rfl

/-! ## The operands of the second dense step -/

/-- The mean over incoming edges of the previous result's rows at the edges' sources. -/
theorem neigh1 (h : Cert.Spec.NodeFeat) (ei : Cert.Spec.Edges) (hh : W (Proc.devRef .tc main_v28) = h)
    (hs : W (Proc.devRef .tc main_v1) = Cert.Spec.src ei) (hd : W (Proc.devRef .tc main_v3) = Cert.Spec.dst ei)
    (hc : W (Proc.devRef .tc main_v7) = Cert.Spec.count (Cert.Spec.dst ei)) :
    StableHlo.after hostOps1 W (Proc.devRef .tc main_v43) = Cert.Spec.neigh h ei := by
  dsimp only [hostOps1]
  after_results_simp
  rw [hh, hs, hd, hc, extf_id]
  rfl

theorem wa1 (w : Cert.Spec.Weight) (hw : W (Proc.devRef .tc main_arg4) = w) :
    StableHlo.after hostOps1 W (Proc.devRef .tc main_v44)
      = extractStridedSlice S128x128 ![0, 0] w slices_S256x128_S128x128_0_0 := by
  dsimp only [hostOps1]
  after_results_simp
  rw [hw]

theorem wb1 (w : Cert.Spec.Weight) (hw : W (Proc.devRef .tc main_arg4) = w) :
    StableHlo.after hostOps1 W (Proc.devRef .tc main_v45)
      = extractStridedSlice S128x128 ![128, 0] w slices_S256x128_S128x128_128_0 := by
  dsimp only [hostOps1]
  after_results_simp
  rw [hw]

theorem bias1 (b : Cert.Spec.Bias) (hb : W (Proc.devRef .tc main_arg5) = b) :
    StableHlo.after hostOps1 W (Proc.devRef .tc main_v46) = shapeCast S1x128 b shapeCasts_S128_S1x128 := by
  dsimp only [hostOps1]
  after_results_simp
  rw [hb]
  rfl

/-! ## The operands of the third dense step -/

theorem wa2 (w : Cert.Spec.Weight) (hw : W (Proc.devRef .tc main_arg6) = w) :
    StableHlo.after hostOps2 W (Proc.devRef .tc main_v48)
      = extractStridedSlice S128x128 ![0, 0] w slices_S256x128_S128x128_0_0 := by
  dsimp only [hostOps2]
  after_results_simp
  rw [hw]

theorem wb2 (w : Cert.Spec.Weight) (hw : W (Proc.devRef .tc main_arg6) = w) :
    StableHlo.after hostOps2 W (Proc.devRef .tc main_v49)
      = extractStridedSlice S128x128 ![128, 0] w slices_S256x128_S128x128_128_0 := by
  dsimp only [hostOps2]
  after_results_simp
  rw [hw]

theorem bias2 (b : Cert.Spec.Bias) (hb : W (Proc.devRef .tc main_arg7) = b) :
    StableHlo.after hostOps2 W (Proc.devRef .tc main_v50) = shapeCast S1x128 b shapeCasts_S128_S1x128 := by
  dsimp only [hostOps2]
  after_results_simp
  rw [hb]
  rfl

/-! ## The operands of the fourth dense step -/

/-- The mean over incoming edges of the previous result's rows at the edges' sources. -/
theorem neigh3 (h : Cert.Spec.NodeFeat) (ei : Cert.Spec.Edges) (hh : W (Proc.devRef .tc main_v51) = h)
    (hs : W (Proc.devRef .tc main_v1) = Cert.Spec.src ei) (hd : W (Proc.devRef .tc main_v3) = Cert.Spec.dst ei)
    (hc : W (Proc.devRef .tc main_v7) = Cert.Spec.count (Cert.Spec.dst ei)) :
    StableHlo.after hostOps3 W (Proc.devRef .tc main_v66) = Cert.Spec.neigh h ei := by
  dsimp only [hostOps3]
  after_results_simp
  rw [hh, hs, hd, hc, extf_id]
  rfl

theorem wa3 (w : Cert.Spec.Weight) (hw : W (Proc.devRef .tc main_arg8) = w) :
    StableHlo.after hostOps3 W (Proc.devRef .tc main_v67)
      = extractStridedSlice S128x128 ![0, 0] w slices_S256x128_S128x128_0_0 := by
  dsimp only [hostOps3]
  after_results_simp
  rw [hw]

theorem wb3 (w : Cert.Spec.Weight) (hw : W (Proc.devRef .tc main_arg8) = w) :
    StableHlo.after hostOps3 W (Proc.devRef .tc main_v68)
      = extractStridedSlice S128x128 ![128, 0] w slices_S256x128_S128x128_128_0 := by
  dsimp only [hostOps3]
  after_results_simp
  rw [hw]

theorem bias3 (b : Cert.Spec.Bias) (hb : W (Proc.devRef .tc main_arg9) = b) :
    StableHlo.after hostOps3 W (Proc.devRef .tc main_v69) = shapeCast S1x128 b shapeCasts_S128_S1x128 := by
  dsimp only [hostOps3]
  after_results_simp
  rw [hb]
  rfl

/-! ## After the last dense step: the edge embeddings and the edge scores -/

/-- The node table's rows at the source and at the target of every edge, side by side. -/
theorem emb4 (n : Cert.Spec.NodeFeat) (ei : Cert.Spec.Edges) (hn : W (Proc.devRef .tc main_v70) = n)
    (hs : W (Proc.devRef .tc main_v1) = Cert.Spec.src ei) (hd : W (Proc.devRef .tc main_v3) = Cert.Spec.dst ei) :
    StableHlo.after hostOps4 W (Proc.devRef .tc main_v85) = Cert.Spec.edgeEmb n ei := by
  dsimp only [hostOps4]
  after_results_simp
  show _ = concatenate S800000x256 1
      [⟨S800000x128, Cert.Spec.rows n (Cert.Spec.src ei)⟩, ⟨S800000x128, Cert.Spec.rows n (Cert.Spec.dst ei)⟩]
      concatenates_S800000x128_S800000x128_S800000x256_d1
  refine congrArg₂ (fun a b : FVec Ideal S800000x128 .f32 =>
      concatenate S800000x256 1 [⟨S800000x128, a⟩, ⟨S800000x128, b⟩] concatenates_S800000x128_S800000x128_S800000x256_d1) ?_ ?_
  · after_results_simp
    rw [hn, hs]
    rfl
  · after_results_simp
    rw [hn, hd]
    rfl

/-- The score of every edge.  The program multiplies the node table by each half of the weight column, picks the
    two products at the edge's two ends and adds them; picking a row commutes with a product taken row by row, so
    this is the product of the side-by-side rows with the whole column, and the bias is added as in the
    specification. -/
theorem logits4 (n : Cert.Spec.NodeFeat) (ei : Cert.Spec.Edges) (wf : FVec Ideal Cert.ReferenceIdeal.S256x1 .f32)
    (bf : FVec Ideal Cert.ReferenceIdeal.S1 .f32) (hn : W (Proc.devRef .tc main_v70) = n)
    (hs : W (Proc.devRef .tc main_v1) = Cert.Spec.src ei) (hd : W (Proc.devRef .tc main_v3) = Cert.Spec.dst ei)
    (hwf : W (Proc.devRef .tc main_arg10) = wf) (hbf : W (Proc.devRef .tc main_arg11) = bf) :
    StableHlo.after hostOps4 W (Proc.devRef .tc main_v108) = Cert.Spec.logits n ei wf bf := by
  dsimp only [hostOps4]
  after_results_simp
  rw [hn, hs, hd, hwf, hbf]
  exact congrArg (fun z : FVec Ideal S800000x1 .f32 =>
      shapeCast S800000 (addf z (Cert.Spec.scoreBias bf)) shapeCasts_S800000x1_S800000)
    (Cert.Laws.head_law n (Cert.Spec.col (Cert.Spec.wrap (Cert.Spec.src ei)))
      (Cert.Spec.col (Cert.Spec.wrap (Cert.Spec.dst ei))) wf)

end Cert.KernelIdeal.Stretch

end
-- ==== Proof.KernelValue.lean ====
/-
  The kernel program's results as functions of its arguments.

  The program's buffer contents are followed from the launch to the end.  Before region 0 the host operations leave
  the index vectors, the in-degree counts, the starting node features and the aggregated edge features (the first
  stretch).  Each tiled region then computes one dense step of the network from its five input arrays: its output
  array, after all five row-tiles are written back, is `Layer.step` of the inputs (the regions' values), and
  `Layer.step` of two feature arrays, the two halves of a [256, 128] weight and the bias as a row IS the network's
  `layer` on the joined features — the sum over the 256 joined columns splits into the sums over its two halves, which
  needs only that addition of extended reals is commutative and associative.  Between the regions the host operations
  take, per node, the mean over incoming edges of the source node's hidden features (`neigh`), and after the last
  region they gather the node embeddings at both endpoints of every edge and score each edge.  A buffer computed
  early and read late is found unchanged where it is read, because no operation in between writes it.
  So region 0 leaves `h0`, region 1 `node1`, region 2 `h1`, region 3 `node2`, and the program ends with the
  specification's three results.
-/
import proofs.«147803_j8229157339892_2_alg».proof.Proof.Gen.KernelIdeal.Frame
import proofs.«147803_j8229157339892_2_alg».proof.Proof.Spec
import proofs.«147803_j8229157339892_2_alg».proof.Proof.Keep
import proofs.«147803_j8229157339892_2_alg».proof.Proof.KernelRun
import proofs.«147803_j8229157339892_2_alg».proof.Proof.Stage0
import proofs.«147803_j8229157339892_2_alg».proof.Proof.Region0
import proofs.«147803_j8229157339892_2_alg».proof.Proof.Region1
import proofs.«147803_j8229157339892_2_alg».proof.Proof.Region2
import proofs.«147803_j8229157339892_2_alg».proof.Proof.Region3
import proofs.«147803_j8229157339892_2_alg».proof.Proof.Laws
import proofs.«147803_j8229157339892_2_alg».proof.Proof.Stretches

set_option maxRecDepth 16384

noncomputable section

namespace Cert.KernelIdeal.Value

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The argument arrays, by name -/

abbrev xEdge (c : Dev nD) := m ((c.tc : Thread nD τ).loc main_arg0)
abbrev xEnds (c : Dev nD) := m ((c.tc : Thread nD τ).loc main_arg1)
abbrev w0e (c : Dev nD) := m ((c.tc : Thread nD τ).loc main_arg2)
abbrev b0e (c : Dev nD) := m ((c.tc : Thread nD τ).loc main_arg3)
abbrev w0n (c : Dev nD) := m ((c.tc : Thread nD τ).loc main_arg4)
abbrev b0n (c : Dev nD) := m ((c.tc : Thread nD τ).loc main_arg5)
abbrev w1e (c : Dev nD) := m ((c.tc : Thread nD τ).loc main_arg6)
abbrev b1e (c : Dev nD) := m ((c.tc : Thread nD τ).loc main_arg7)
abbrev w1n (c : Dev nD) := m ((c.tc : Thread nD τ).loc main_arg8)
abbrev b1n (c : Dev nD) := m ((c.tc : Thread nD τ).loc main_arg9)
abbrev wF (c : Dev nD) := m ((c.tc : Thread nD τ).loc main_arg10)
abbrev bF (c : Dev nD) := m ((c.tc : Thread nD τ).loc main_arg11)

/-- The four stages of the network at this memory's arguments. -/
abbrev sH0 (c : Dev nD) : Cert.Spec.NodeFeat := Cert.Spec.h0 (xEdge m c) (xEnds m c) (w0e m c) (b0e m c)
abbrev sNode1 (c : Dev nD) : Cert.Spec.NodeFeat := Cert.Spec.node1 (xEdge m c) (xEnds m c) (w0e m c) (b0e m c) (w0n m c) (b0n m c)
abbrev sH1 (c : Dev nD) : Cert.Spec.NodeFeat :=
  Cert.Spec.h1 (xEdge m c) (xEnds m c) (w0e m c) (b0e m c) (w0n m c) (b0n m c) (w1e m c) (b1e m c)
abbrev sNode2 (c : Dev nD) : Cert.Spec.NodeFeat :=
  Cert.Spec.node2 (xEdge m c) (xEnds m c) (w0e m c) (b0e m c) (w0n m c) (b0n m c) (w1e m c) (b1e m c) (w1n m c) (b1n m c)

/-! ## The index vectors and counts where the later stretches read them -/

theorem src2 (c : Dev nD) : W2 m ρ c (Proc.devRef .tc main_v1) = Cert.Spec.src (xEnds m c) := (Keep.src_at2 m ρ c).trans (Stages.s0_src m ρ c)
theorem dst2 (c : Dev nD) : W2 m ρ c (Proc.devRef .tc main_v3) = Cert.Spec.dst (xEnds m c) := (Keep.dst_at2 m ρ c).trans (Stages.s0_dst m ρ c)
theorem cnt2 (c : Dev nD) : W2 m ρ c (Proc.devRef .tc main_v7) = Cert.Spec.count (Cert.Spec.dst (xEnds m c)) := (Keep.cnt_at2 m ρ c).trans (Stages.s0_cnt m ρ c)
theorem src6 (c : Dev nD) : W6 m ρ c (Proc.devRef .tc main_v1) = Cert.Spec.src (xEnds m c) := (Keep.src_at6 m ρ c).trans (Stages.s0_src m ρ c)
theorem dst6 (c : Dev nD) : W6 m ρ c (Proc.devRef .tc main_v3) = Cert.Spec.dst (xEnds m c) := (Keep.dst_at6 m ρ c).trans (Stages.s0_dst m ρ c)
theorem cnt6 (c : Dev nD) : W6 m ρ c (Proc.devRef .tc main_v7) = Cert.Spec.count (Cert.Spec.dst (xEnds m c)) := (Keep.cnt_at6 m ρ c).trans (Stages.s0_cnt m ρ c)
theorem src8 (c : Dev nD) : W8 m ρ c (Proc.devRef .tc main_v1) = Cert.Spec.src (xEnds m c) := (Keep.src_at8 m ρ c).trans (Stages.s0_src m ρ c)
theorem dst8 (c : Dev nD) : W8 m ρ c (Proc.devRef .tc main_v3) = Cert.Spec.dst (xEnds m c) := (Keep.dst_at8 m ρ c).trans (Stages.s0_dst m ρ c)

/-! ## Region 0: the first hidden features -/

theorem h0_at2 (c : Dev nD) : W2 m ρ c (Proc.devRef .tc main_v28) = sH0 m c := by
  refine ((W2_arr (F := Ideal) m ρ c 5).trans (RegionValue.region0 (V1 m ρ) c)).trans ?_
  rw [Stages.s0_node0, Stages.s0_eagg, Stages.s0_wa, Stages.s0_wb, Stages.s0_bias]
  exact (Cert.Laws.layer_law _ _ _ _).symm

/-! ## Stretch 1 and region 1: the first node features -/

theorem h0_at3 (c : Dev nD) : V3 m ρ c main_v28 = sH0 m c := (Keep.h0_at3 m ρ c).trans (h0_at2 m ρ c)
theorem neigh0_at3 (c : Dev nD) : V3 m ρ c main_v43 = Cert.Spec.neigh (sH0 m c) (xEnds m c) :=
  Stretch.neigh1 (W2 m ρ c) _ _ (h0_at2 m ρ c) (src2 m ρ c) (dst2 m ρ c) (cnt2 m ρ c)
theorem wa_at3 (c : Dev nD) : V3 m ρ c main_v44 = extractStridedSlice S128x128 ![0, 0] (w0n m c) slices_S256x128_S128x128_0_0 :=
  Stretch.wa1 (W2 m ρ c) _ (Keep.arg4_at2 m ρ c)
theorem wb_at3 (c : Dev nD) : V3 m ρ c main_v45 = extractStridedSlice S128x128 ![128, 0] (w0n m c) slices_S256x128_S128x128_128_0 :=
  Stretch.wb1 (W2 m ρ c) _ (Keep.arg4_at2 m ρ c)
theorem bias_at3 (c : Dev nD) : V3 m ρ c main_v46 = shapeCast S1x128 (b0n m c) shapeCasts_S128_S1x128 :=
  Stretch.bias1 (W2 m ρ c) _ (Keep.arg5_at2 m ρ c)

theorem node1_at4 (c : Dev nD) : W4 m ρ c (Proc.devRef .tc main_v47) = sNode1 m c := by
  refine ((W4_arr (F := Ideal) m ρ c 5).trans (RegionValue.region1 (V3 m ρ) c)).trans ?_
  rw [h0_at3, neigh0_at3, wa_at3, wb_at3, bias_at3]
  exact (Cert.Laws.layer_law _ _ _ _).symm

/-! ## Stretch 2 and region 2: the second hidden features -/

theorem node1_at5 (c : Dev nD) : V5 m ρ c main_v47 = sNode1 m c := (Keep.node1_at5 m ρ c).trans (node1_at4 m ρ c)
theorem eagg_at5 (c : Dev nD) : V5 m ρ c main_v24 = Cert.Spec.eagg (xEdge m c) (xEnds m c) := (Keep.eagg_at5 m ρ c).trans (Stages.s0_eagg m ρ c)
theorem wa_at5 (c : Dev nD) : V5 m ρ c main_v48 = extractStridedSlice S128x128 ![0, 0] (w1e m c) slices_S256x128_S128x128_0_0 :=
  Stretch.wa2 (W4 m ρ c) _ (Keep.arg6_at4 m ρ c)
theorem wb_at5 (c : Dev nD) : V5 m ρ c main_v49 = extractStridedSlice S128x128 ![128, 0] (w1e m c) slices_S256x128_S128x128_128_0 :=
  Stretch.wb2 (W4 m ρ c) _ (Keep.arg6_at4 m ρ c)
theorem bias_at5 (c : Dev nD) : V5 m ρ c main_v50 = shapeCast S1x128 (b1e m c) shapeCasts_S128_S1x128 :=
  Stretch.bias2 (W4 m ρ c) _ (Keep.arg7_at4 m ρ c)

theorem h1_at6 (c : Dev nD) : W6 m ρ c (Proc.devRef .tc main_v51) = sH1 m c := by
  refine ((W6_arr (F := Ideal) m ρ c 5).trans (RegionValue.region2 (V5 m ρ) c)).trans ?_
  rw [node1_at5, eagg_at5, wa_at5, wb_at5, bias_at5]
  exact (Cert.Laws.layer_law _ _ _ _).symm

/-! ## Stretch 3 and region 3: the node embeddings -/

theorem h1_at7 (c : Dev nD) : V7 m ρ c main_v51 = sH1 m c := (Keep.h1_at7 m ρ c).trans (h1_at6 m ρ c)
theorem neigh1_at7 (c : Dev nD) : V7 m ρ c main_v66 = Cert.Spec.neigh (sH1 m c) (xEnds m c) :=
  Stretch.neigh3 (W6 m ρ c) _ _ (h1_at6 m ρ c) (src6 m ρ c) (dst6 m ρ c) (cnt6 m ρ c)
theorem wa_at7 (c : Dev nD) : V7 m ρ c main_v67 = extractStridedSlice S128x128 ![0, 0] (w1n m c) slices_S256x128_S128x128_0_0 :=
  Stretch.wa3 (W6 m ρ c) _ (Keep.arg8_at6 m ρ c)
theorem wb_at7 (c : Dev nD) : V7 m ρ c main_v68 = extractStridedSlice S128x128 ![128, 0] (w1n m c) slices_S256x128_S128x128_128_0 :=
  Stretch.wb3 (W6 m ρ c) _ (Keep.arg8_at6 m ρ c)
theorem bias_at7 (c : Dev nD) : V7 m ρ c main_v69 = shapeCast S1x128 (b1n m c) shapeCasts_S128_S1x128 :=
  Stretch.bias3 (W6 m ρ c) _ (Keep.arg9_at6 m ρ c)

theorem node2_at8 (c : Dev nD) : W8 m ρ c (Proc.devRef .tc main_v70) = sNode2 m c := by
  refine ((W8_arr (F := Ideal) m ρ c 5).trans (RegionValue.region3 (V7 m ρ) c)).trans ?_
  rw [h1_at7, neigh1_at7, wa_at7, wb_at7, bias_at7]
  exact (Cert.Laws.layer_law _ _ _ _).symm

/-! ## Stretch 4: the three results -/

theorem node2_at9 (c : Dev nD) : W9 m ρ c (Proc.devRef .tc main_v70) = sNode2 m c := (Keep.node2_at9 m ρ c).trans (node2_at8 m ρ c)
theorem emb_at9 (c : Dev nD) : W9 m ρ c (Proc.devRef .tc main_v85) = Cert.Spec.edgeEmb (sNode2 m c) (xEnds m c) :=
  Stretch.emb4 (W8 m ρ c) _ _ (node2_at8 m ρ c) (src8 m ρ c) (dst8 m ρ c)
theorem logits_at9 (c : Dev nD) : W9 m ρ c (Proc.devRef .tc main_v108) = Cert.Spec.logits (sNode2 m c) (xEnds m c) (wF m c) (bF m c) :=
  Stretch.logits4 (W8 m ρ c) _ _ _ _ (node2_at8 m ρ c) (src8 m ρ c) (dst8 m ρ c) (Keep.arg10_at8 m ρ c) (Keep.arg11_at8 m ρ c)

/-! ## The run -/

/-- Every weakly fair execution of the kernel program terminates, nothing faulting, with the edge scores, the edge
    embeddings and the node embeddings at the specification's functions of the arguments, and the arguments as launched. -/
theorem run : θ_run (defs (F := Ideal)) (onTc (τ := τ) (main (F := Ideal))) ⟨m, fun _ => 0, ρ⟩ (fun r => ∀ c : Dev nD,
      r.2.mem ((c.tc : Thread nD τ).loc main_v108) = Cert.Spec.logits (sNode2 m c) (xEnds m c) (wF m c) (bF m c)
      ∧ r.2.mem ((c.tc : Thread nD τ).loc main_v85) = Cert.Spec.edgeEmb (sNode2 m c) (xEnds m c)
      ∧ r.2.mem ((c.tc : Thread nD τ).loc main_v70) = sNode2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run (defs (F := Ideal)) _ _).mono
    (fun r h c => ⟨(h c).1.trans (logits_at9 m ρ c), (h c).2.1.trans (emb_at9 m ρ c), (h c).2.2.1.trans (node2_at9 m ρ c), (h c).2.2.2⟩)
    (RunValue.run (F := Ideal) m ρ)

end Cert.KernelIdeal.Value

end
-- ==== Proof.RefStages.lean ====
/-
  The reference program's run read stage by stage against the network's specification.

  The program is a line of 153 host operations; what a buffer holds at the end is the fold of their results over the
  launch contents.  The fold is cut into nine stretches and each stretch is read from an ARBITRARY entry valuation
  `W`: a stretch reads from before it only the two endpoint vectors (source and target of every edge), one earlier
  result and some arguments, and what it writes is one specification function of those:

    operations   0 …  38   the endpoint vectors; the dense step of round 1's hidden features, before the clip
    operations  39 …  41   its clip at zero:              h0    = layer node0 eagg W0e b0e
    operations  42 …  70   the dense step of round 1's node features, before the clip
    operations  71 …  73   its clip:                      node1 = layer h0 (neigh h0) W0n b0n
    operations  74 …  93   the dense step of round 2's hidden features
    operations  94 …  96   its clip:                      h1    = layer node1 eagg W1e b1e
    operations  97 … 125   the dense step of round 2's node features
    operations 126 … 128   its clip:                      node2 = layer h1 (neigh h1) W1n b1n
    operations 129 … 152   the edge embeddings and the score of every edge.

  A layer is its dense step (`pre`: the two feature arrays side by side times the weight, plus the bias row) followed
  by the clip (`clip`).  The in-degree counts and the mean over outgoing edges are recomputed by the program wherever
  they are used; each copy is the same specification term.  A buffer a stretch does not write keeps its contents
  through it: the arguments are written by no operation at all, the endpoint vectors by none after the first four.
-/
import proofs.«147803_j8229157339892_2_alg».proof.Proof.RefRun
import proofs.«147803_j8229157339892_2_alg».proof.Proof.Spec
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.ValueP

/-- The buffers' contents on one device. -/
abbrev Vl := Valuation τ sig (Elt Ideal)

/-- The program's operations over the extended reals. -/
abbrev O : List (HloOp τ sig (Elt Ideal)) := ops (F := Ideal)

/-! ## The fold over a line cut in two -/

theorem after_append (l l' : List (HloOp τ sig (Elt Ideal))) (V : Vl) : after (l ++ l') V = after l' (after l V) := by
  induction l generalizing V with
  | nil => rfl
  | cons op l ih => simp only [List.cons_append, after_cons, ih]

/-- The contents after the first `n` operations. -/
def Wn (n : ℕ) (V0 : Vl) : Vl := after (O.take n) V0

theorem Wn_zero (V0 : Vl) : Wn 0 V0 = V0 := rfl

/-- The first `n + k` operations are the first `n` and then the next `k`. -/
theorem Wn_add (n k : ℕ) (V0 : Vl) : Wn (n + k) V0 = after ((O.drop n).take k) (Wn n V0) := by
  unfold Wn
  rw [← after_append, List.take_add]

theorem Wn_all (V0 : Vl) : Wn 153 V0 = after O V0 := by
  unfold Wn
  have hlen : O.length = 153 := rfl
  rw [List.take_of_length_le (l := O) (i := 153) (le_of_eq hlen)]

/-! ## What an operation does not write is kept -/

/-- Every buffer some operation writes, in program order. -/
abbrev opsW : List (Ref sig .tc) :=
  [main_v0, main_v1, main_v2, main_v3, main_cst, main_v4, main_v5, main_v6, main_cst_0, main_v7, main_cst_1, main_v8, main_v9, main_v10, main_cst_2, main_v11, main_v12, main_v13, main_v14, main_cst_3, main_v15, main_v16, main_v17, main_cst_4, main_v18, main_cst_5, main_v19, main_v20, main_v21, main_cst_6, main_v22, main_v23, main_v24, main_v25, main_v26, main_v27, main_v28, main_v29, main_v30, main_call0_cst, main_call0_v0, main_v31, main_c, main_v32, main_v33, main_c_7, main_v34, main_v35, main_v36, main_v37, main_v38, main_cst_8, main_v39, main_v40, main_v41, main_cst_9, main_v42, main_cst_10, main_v43, main_v44, main_v45, main_cst_11, main_v46, main_v47, main_v48, main_v49, main_v50, main_v51, main_v52, main_v53, main_v54, main_call1_cst, main_call1_v0, main_v55, main_cst_12, main_v56, main_v57, main_v58, main_cst_13, main_v59, main_cst_14, main_v60, main_v61, main_v62, main_cst_15, main_v63, main_v64, main_v65, main_v66, main_v67, main_v68, main_v69, main_v70, main_v71, main_call2_cst, main_call2_v0, main_v72, main_c_16, main_v73, main_v74, main_c_17, main_v75, main_v76, main_v77, main_v78, main_v79, main_cst_18, main_v80, main_v81, main_v82, main_cst_19, main_v83, main_cst_20, main_v84, main_v85, main_v86, main_cst_21, main_v87, main_v88, main_v89, main_v90, main_v91, main_v92, main_v93, main_v94, main_v95, main_call3_cst, main_call3_v0, main_v96, main_c_22, main_v97, main_v98, main_c_23, main_v99, main_v100, main_v101, main_v102, main_v103, main_c_24, main_v104, main_v105, main_c_25, main_v106, main_v107, main_v108, main_v109, main_v110, main_v111, main_v112, main_v113, main_v114, main_v115, main_v116]

set_option maxRecDepth 8192 in
theorem ops_writes : O.Forall fun op => op.writes ⊆ (opsW.map (Proc.devRef (τ := τ) .tc)).toFinset := by
  simp only [List.Forall]
  repeat' apply And.intro
  all_goals
    simp only [nullary_writes, unary_writes, binary_writes, ternary_writes, reshape_writes, Finset.singleton_subset_iff,
      List.mem_toFinset]
    exact List.mem_map_of_mem (by decide)

/-- A buffer no operation writes holds its launch contents after any number of operations. -/
theorem Wn_keep (n : ℕ) (V0 : Vl) (r : Ref sig .tc) (hr : r ∉ opsW) : Wn n V0 (Proc.devRef .tc r) = V0 (Proc.devRef .tc r) :=
  after_of_writes_sub (O.take n) V0
    (List.forall_iff_forall_mem.mpr fun op hop => List.forall_iff_forall_mem.mp ops_writes op (List.mem_of_mem_take hop)) hr

set_option maxRecDepth 8192 in
/-- The operations after the first four write the buffers after the first four of the list. -/
theorem late_writes : (O.drop 4).Forall fun op => op.writes ⊆ ((opsW.drop 4).map (Proc.devRef (τ := τ) .tc)).toFinset := by
  simp only [O, ops, opsW, List.drop_succ_cons, List.drop_zero, List.Forall]
  repeat' apply And.intro
  all_goals
    simp only [nullary_writes, unary_writes, binary_writes, ternary_writes, reshape_writes, Finset.singleton_subset_iff,
      List.mem_toFinset]
    exact List.mem_map_of_mem (by decide)

/-- A buffer written by none of the operations after the first four is kept by any stretch of those. -/
theorem keep_late (j k : ℕ) (W : Vl) (r : Ref sig .tc) (hr : r ∉ opsW.drop 4) :
    after ((O.drop (4 + j)).take k) W (Proc.devRef .tc r) = W (Proc.devRef .tc r) :=
  after_of_writes_sub _ W
    (List.forall_iff_forall_mem.mpr fun op hop => List.forall_iff_forall_mem.mp late_writes op
      (List.mem_of_mem_drop (i := j) (by rw [List.drop_drop]; exact List.mem_of_mem_take hop))) hr

/-! ## Reading one stretch

The stretch's operations are spelt out of the whole line, the fold over them is unfolded, and each operation's
result is rewritten at its own buffer to its function's value and at any other buffer to what was there.  Two arrays
laid side by side are rewritten piece by piece. -/

/-- Two arrays laid side by side: equal pieces give equal wholes. -/
theorem concat_pair_congr {α : Type} {t : Shape} {ax : Fin t.rank} {s₁ s₂ : Shape} {a a' : s₁.Idx → α} {b b' : s₂.Idx → α}
    (h : Shape.Concatenates [s₁, s₂] t ax) (ha : a = a') (hb : b = b') :
    concatenate t ax [⟨s₁, a⟩, ⟨s₂, b⟩] h = concatenate t ax [⟨s₁, a'⟩, ⟨s₂, b'⟩] h := by
  subst ha hb; rfl

attribute [local congr] concat_pair_congr

macro "read_stretch" : tactic =>
  `(tactic| (simp only [O, ops, List.take_succ_cons, List.take_zero, List.drop_succ_cons, List.drop_zero]
             after_results_simp))

/-- The dense step before the clip: the two feature arrays side by side times the weight, plus the bias row. -/
def pre (a b : Spec.NodeFeat) (Wt : Spec.Weight) (bias : Spec.Bias) : Spec.NodeFeat :=
  addf (Host.dotGeneral (F := Ideal) (φ₁ := .f32) (φ₂ := .f32) dot_S50000x256_S256x128_S50000x128_1_0_0_1_n_n none
        (concatenate S50000x256 1 [⟨S50000x128, a⟩, ⟨S50000x128, b⟩] Facts₀.concatenates_S50000x128_S50000x128_S50000x256_d1) Wt)
      (broadcastInDim S50000x128 ![0, 1] Facts₀.bcast_S1x128_S50000x128_0_1 (broadcastInDim S1x128 ![1] Facts₀.bcast_S128_S1x128_1 bias))

/-- The clip below at zero. -/
def clip (p : Spec.NodeFeat) : Spec.NodeFeat :=
  maximumf p (broadcastInDim S50000x128 ![] Facts₀.bcast_S_S50000x128 (constant (F := Ideal) S_ .f32 0x00000000#32))

theorem layer_eq (a b : Spec.NodeFeat) (Wt : Spec.Weight) (bias : Spec.Bias) : Spec.layer a b Wt bias = clip (pre a b Wt bias) := rfl

section Stretches

variable (W : Vl)

/-! ### Operations 0 … 38: the endpoint vectors and round 1's hidden features before the clip -/

set_option maxRecDepth 8192 in
set_option maxHeartbeats 4000000 in
theorem src0 (x1 : Spec.Edges) (h1 : W (Proc.devRef .tc main_arg1) = x1) :
    after ((O.drop 0).take 39) W (Proc.devRef .tc main_v1) = Spec.src x1 := by
  read_stretch
  simp only [h1]
  rfl

set_option maxRecDepth 8192 in
set_option maxHeartbeats 4000000 in
theorem dst0 (x1 : Spec.Edges) (h1 : W (Proc.devRef .tc main_arg1) = x1) :
    after ((O.drop 0).take 39) W (Proc.devRef .tc main_v3) = Spec.dst x1 := by
  read_stretch
  simp only [h1]
  rfl

set_option maxRecDepth 8192 in
set_option maxHeartbeats 4000000 in
theorem pre0 (x0 : Spec.EdgeFeat) (x1 : Spec.Edges) (x2 : Spec.Weight) (x3 : Spec.Bias)
    (h0 : W (Proc.devRef .tc main_arg0) = x0) (h1 : W (Proc.devRef .tc main_arg1) = x1)
    (h2 : W (Proc.devRef .tc main_arg2) = x2) (h3 : W (Proc.devRef .tc main_arg3) = x3) :
    after ((O.drop 0).take 39) W (Proc.devRef .tc main_v30) = pre (Spec.node0 x0 x1) (Spec.eagg x0 x1) x2 x3 := by
  read_stretch
  simp only [h0, h1, h2, h3]
  rfl

/-! ### The four clips: operations 39 … 41, 71 … 73, 94 … 96, 126 … 128 -/

set_option maxRecDepth 8192 in
theorem relu0 (p : Spec.NodeFeat) (hp : W (Proc.devRef .tc main_v30) = p) :
    after ((O.drop 39).take 3) W (Proc.devRef .tc main_v31) = clip p := by
  read_stretch
  simp only [hp]
  rfl

set_option maxRecDepth 8192 in
theorem relu1 (p : Spec.NodeFeat) (hp : W (Proc.devRef .tc main_v54) = p) :
    after ((O.drop 71).take 3) W (Proc.devRef .tc main_v55) = clip p := by
  read_stretch
  simp only [hp]
  rfl

set_option maxRecDepth 8192 in
theorem relu2 (p : Spec.NodeFeat) (hp : W (Proc.devRef .tc main_v71) = p) :
    after ((O.drop 94).take 3) W (Proc.devRef .tc main_v72) = clip p := by
  read_stretch
  simp only [hp]
  rfl

set_option maxRecDepth 8192 in
theorem relu3 (p : Spec.NodeFeat) (hp : W (Proc.devRef .tc main_v95) = p) :
    after ((O.drop 126).take 3) W (Proc.devRef .tc main_v96) = clip p := by
  read_stretch
  simp only [hp]
  rfl

/-! ### Operations 42 … 70 and 97 … 125: a node-feature step from the hidden features `h` -/

set_option maxRecDepth 8192 in
set_option maxHeartbeats 4000000 in
theorem pre1 (x1 : Spec.Edges) (h : Spec.NodeFeat) (x4 : Spec.Weight) (x5 : Spec.Bias)
    (hv1 : W (Proc.devRef .tc main_v1) = Spec.src x1) (hv3 : W (Proc.devRef .tc main_v3) = Spec.dst x1)
    (hh : W (Proc.devRef .tc main_v31) = h) (h4 : W (Proc.devRef .tc main_arg4) = x4) (h5 : W (Proc.devRef .tc main_arg5) = x5) :
    after ((O.drop 42).take 29) W (Proc.devRef .tc main_v54) = pre h (Spec.neigh h x1) x4 x5 := by
  read_stretch
  simp only [hv1, hv3, hh, h4, h5]
  rfl

set_option maxRecDepth 8192 in
set_option maxHeartbeats 4000000 in
theorem pre3 (x1 : Spec.Edges) (h : Spec.NodeFeat) (x8 : Spec.Weight) (x9 : Spec.Bias)
    (hv1 : W (Proc.devRef .tc main_v1) = Spec.src x1) (hv3 : W (Proc.devRef .tc main_v3) = Spec.dst x1)
    (hh : W (Proc.devRef .tc main_v72) = h) (h8 : W (Proc.devRef .tc main_arg8) = x8) (h9 : W (Proc.devRef .tc main_arg9) = x9) :
    after ((O.drop 97).take 29) W (Proc.devRef .tc main_v95) = pre h (Spec.neigh h x1) x8 x9 := by
  read_stretch
  simp only [hv1, hv3, hh, h8, h9]
  rfl

/-! ### Operations 74 … 93: round 2's hidden-feature step from the node features `n` -/

set_option maxRecDepth 8192 in
set_option maxHeartbeats 4000000 in
theorem pre2 (x0 : Spec.EdgeFeat) (x1 : Spec.Edges) (n : Spec.NodeFeat) (x6 : Spec.Weight) (x7 : Spec.Bias)
    (hv1 : W (Proc.devRef .tc main_v1) = Spec.src x1) (hn : W (Proc.devRef .tc main_v55) = n)
    (h0 : W (Proc.devRef .tc main_arg0) = x0) (h6 : W (Proc.devRef .tc main_arg6) = x6) (h7 : W (Proc.devRef .tc main_arg7) = x7) :
    after ((O.drop 74).take 20) W (Proc.devRef .tc main_v71) = pre n (Spec.eagg x0 x1) x6 x7 := by
  read_stretch
  simp only [hv1, hn, h0, h6, h7]
  rfl

/-! ### Operations 129 … 152: the results from the node embeddings `n` -/

set_option maxRecDepth 8192 in
set_option maxHeartbeats 4000000 in
theorem emb4 (x1 : Spec.Edges) (n : Spec.NodeFeat)
    (hv1 : W (Proc.devRef .tc main_v1) = Spec.src x1) (hv3 : W (Proc.devRef .tc main_v3) = Spec.dst x1) (hn : W (Proc.devRef .tc main_v96) = n) :
    after ((O.drop 129).take 24) W (Proc.devRef .tc main_v111) = Spec.edgeEmb n x1 := by
  read_stretch
  simp only [hv1, hv3, hn]
  rfl

set_option maxRecDepth 8192 in
set_option maxHeartbeats 4000000 in
theorem score4 (x1 : Spec.Edges) (n : Spec.NodeFeat) (x10 : FVec Ideal S256x1 .f32) (x11 : FVec Ideal S1 .f32)
    (hv1 : W (Proc.devRef .tc main_v1) = Spec.src x1) (hv3 : W (Proc.devRef .tc main_v3) = Spec.dst x1) (hn : W (Proc.devRef .tc main_v96) = n)
    (h10 : W (Proc.devRef .tc main_arg10) = x10) (h11 : W (Proc.devRef .tc main_arg11) = x11) :
    after ((O.drop 129).take 24) W (Proc.devRef .tc main_v116) = Spec.logits n x1 x10 x11 := by
  read_stretch
  simp only [hv1, hv3, hn, h10, h11]
  rfl

set_option maxRecDepth 8192 in
theorem keep4 : after ((O.drop 129).take 24) W (Proc.devRef .tc main_v96) = W (Proc.devRef .tc main_v96) := by
  read_stretch

end Stretches

/-! ## The stretches joined -/

section Whole

variable (V0 : Vl)

/-- After `n` operations the two endpoint vectors are in place. -/
def EdgesAt (n : ℕ) : Prop :=
  Wn n V0 (Proc.devRef .tc main_v1) = Spec.src (V0 (Proc.devRef .tc main_arg1)) ∧ Wn n V0 (Proc.devRef .tc main_v3) = Spec.dst (V0 (Proc.devRef .tc main_arg1))

theorem edges_step (j k : ℕ) (h : EdgesAt V0 (4 + j)) : EdgesAt V0 (4 + j + k) := by
  unfold EdgesAt at *
  rw [Wn_add]
  exact ⟨(keep_late j k _ main_v1 (by decide)).trans h.1, (keep_late j k _ main_v3 (by decide)).trans h.2⟩

theorem step0 : Wn 39 V0 = after ((O.drop 0).take 39) V0 := by
  have h := Wn_add 0 39 V0
  rwa [Wn_zero] at h

theorem edges39 : EdgesAt V0 39 := by
  unfold EdgesAt
  rw [step0]
  exact ⟨src0 V0 _ rfl, dst0 V0 _ rfl⟩

theorem edges42 : EdgesAt V0 42 := edges_step V0 35 3 (edges39 V0)
theorem edges71 : EdgesAt V0 71 := edges_step V0 38 29 (edges42 V0)
theorem edges74 : EdgesAt V0 74 := edges_step V0 67 3 (edges71 V0)
theorem edges94 : EdgesAt V0 94 := edges_step V0 70 20 (edges74 V0)
theorem edges97 : EdgesAt V0 97 := edges_step V0 90 3 (edges94 V0)
theorem edges126 : EdgesAt V0 126 := edges_step V0 93 29 (edges97 V0)
theorem edges129 : EdgesAt V0 129 := edges_step V0 122 3 (edges126 V0)

theorem at42 : Wn 42 V0 (Proc.devRef .tc main_v31)
    = Spec.h0 (V0 (Proc.devRef .tc main_arg0)) (V0 (Proc.devRef .tc main_arg1)) (V0 (Proc.devRef .tc main_arg2)) (V0 (Proc.devRef .tc main_arg3)) := by
  rw [Wn_add 39 3 V0]
  refine (relu0 _ _ ?_).trans (layer_eq _ _ _ _).symm
  rw [step0]
  exact pre0 V0 _ _ _ _ rfl rfl rfl rfl

theorem at74 : Wn 74 V0 (Proc.devRef .tc main_v55)
    = Spec.node1 (V0 (Proc.devRef .tc main_arg0)) (V0 (Proc.devRef .tc main_arg1)) (V0 (Proc.devRef .tc main_arg2)) (V0 (Proc.devRef .tc main_arg3))
        (V0 (Proc.devRef .tc main_arg4)) (V0 (Proc.devRef .tc main_arg5)) := by
  rw [Wn_add 71 3 V0]
  refine (relu1 _ _ ?_).trans (layer_eq _ _ _ _).symm
  rw [Wn_add 42 29 V0]
  exact pre1 _ _ _ _ _ (edges42 V0).1 (edges42 V0).2 (at42 V0) (Wn_keep 42 V0 main_arg4 (by decide)) (Wn_keep 42 V0 main_arg5 (by decide))

theorem at97 : Wn 97 V0 (Proc.devRef .tc main_v72)
    = Spec.h1 (V0 (Proc.devRef .tc main_arg0)) (V0 (Proc.devRef .tc main_arg1)) (V0 (Proc.devRef .tc main_arg2)) (V0 (Proc.devRef .tc main_arg3))
        (V0 (Proc.devRef .tc main_arg4)) (V0 (Proc.devRef .tc main_arg5)) (V0 (Proc.devRef .tc main_arg6)) (V0 (Proc.devRef .tc main_arg7)) := by
  rw [Wn_add 94 3 V0]
  refine (relu2 _ _ ?_).trans (layer_eq _ _ _ _).symm
  rw [Wn_add 74 20 V0]
  exact pre2 _ _ _ _ _ _ (edges74 V0).1 (at74 V0) (Wn_keep 74 V0 main_arg0 (by decide)) (Wn_keep 74 V0 main_arg6 (by decide))
    (Wn_keep 74 V0 main_arg7 (by decide))

theorem at129 : Wn 129 V0 (Proc.devRef .tc main_v96)
    = Spec.node2 (V0 (Proc.devRef .tc main_arg0)) (V0 (Proc.devRef .tc main_arg1)) (V0 (Proc.devRef .tc main_arg2)) (V0 (Proc.devRef .tc main_arg3))
        (V0 (Proc.devRef .tc main_arg4)) (V0 (Proc.devRef .tc main_arg5)) (V0 (Proc.devRef .tc main_arg6)) (V0 (Proc.devRef .tc main_arg7))
        (V0 (Proc.devRef .tc main_arg8)) (V0 (Proc.devRef .tc main_arg9)) := by
  rw [Wn_add 126 3 V0]
  refine (relu3 _ _ ?_).trans (layer_eq _ _ _ _).symm
  rw [Wn_add 97 29 V0]
  exact pre3 _ _ _ _ _ (edges97 V0).1 (edges97 V0).2 (at97 V0) (Wn_keep 97 V0 main_arg8 (by decide)) (Wn_keep 97 V0 main_arg9 (by decide))

theorem read96 : after O V0 (Proc.devRef .tc main_v96)
    = Spec.node2 (V0 (Proc.devRef .tc main_arg0)) (V0 (Proc.devRef .tc main_arg1)) (V0 (Proc.devRef .tc main_arg2)) (V0 (Proc.devRef .tc main_arg3))
        (V0 (Proc.devRef .tc main_arg4)) (V0 (Proc.devRef .tc main_arg5)) (V0 (Proc.devRef .tc main_arg6)) (V0 (Proc.devRef .tc main_arg7))
        (V0 (Proc.devRef .tc main_arg8)) (V0 (Proc.devRef .tc main_arg9)) := by
  rw [← Wn_all, Wn_add 129 24 V0, keep4]
  exact at129 V0

theorem read111 : after O V0 (Proc.devRef .tc main_v111)
    = Spec.edgeEmb (Spec.node2 (V0 (Proc.devRef .tc main_arg0)) (V0 (Proc.devRef .tc main_arg1)) (V0 (Proc.devRef .tc main_arg2)) (V0 (Proc.devRef .tc main_arg3))
        (V0 (Proc.devRef .tc main_arg4)) (V0 (Proc.devRef .tc main_arg5)) (V0 (Proc.devRef .tc main_arg6)) (V0 (Proc.devRef .tc main_arg7))
        (V0 (Proc.devRef .tc main_arg8)) (V0 (Proc.devRef .tc main_arg9))) (V0 (Proc.devRef .tc main_arg1)) := by
  rw [← Wn_all, Wn_add 129 24 V0]
  exact emb4 _ _ _ (edges129 V0).1 (edges129 V0).2 (at129 V0)

theorem read116 : after O V0 (Proc.devRef .tc main_v116)
    = Spec.logits (Spec.node2 (V0 (Proc.devRef .tc main_arg0)) (V0 (Proc.devRef .tc main_arg1)) (V0 (Proc.devRef .tc main_arg2)) (V0 (Proc.devRef .tc main_arg3))
        (V0 (Proc.devRef .tc main_arg4)) (V0 (Proc.devRef .tc main_arg5)) (V0 (Proc.devRef .tc main_arg6)) (V0 (Proc.devRef .tc main_arg7))
        (V0 (Proc.devRef .tc main_arg8)) (V0 (Proc.devRef .tc main_arg9))) (V0 (Proc.devRef .tc main_arg1)) (V0 (Proc.devRef .tc main_arg10)) (V0 (Proc.devRef .tc main_arg11)) := by
  rw [← Wn_all, Wn_add 129 24 V0]
  exact score4 _ _ _ _ _ (edges129 V0).1 (edges129 V0).2 (at129 V0) (Wn_keep 129 V0 main_arg10 (by decide))
    (Wn_keep 129 V0 main_arg11 (by decide))

theorem read_arg (r : Ref sig .tc) (hr : r ∉ opsW) : after O V0 (Proc.devRef .tc r) = V0 (Proc.devRef .tc r) := by
  rw [← Wn_all]
  exact Wn_keep 153 V0 r hr

end Whole

/-- On every device, from any memory with zero counters: every weakly fair execution of the reference program terminates
    with the score of every edge, the edge embeddings and the node embeddings of the specification in its three result
    buffers, and the twelve arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v116) = Cert.Spec.logits (Cert.Spec.node2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg1)) (m ((c.tc : Thread nD τ).loc main_arg10)) (m ((c.tc : Thread nD τ).loc main_arg11))
      ∧ r.2.mem ((c.tc : Thread nD τ).loc main_v111) = Cert.Spec.edgeEmb (Cert.Spec.node2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg1))
      ∧ r.2.mem ((c.tc : Thread nD τ).loc main_v96) = (Cert.Spec.node2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c =>
    ⟨(h c main_v116).trans (read116 (launchContents m c)),
      (h c main_v111).trans (read111 (launchContents m c)),
      (h c main_v96).trans (read96 (launchContents m c)),
      (h c main_arg0).trans (read_arg (launchContents m c) main_arg0 (by decide)),
      (h c main_arg1).trans (read_arg (launchContents m c) main_arg1 (by decide)),
      (h c main_arg2).trans (read_arg (launchContents m c) main_arg2 (by decide)),
      (h c main_arg3).trans (read_arg (launchContents m c) main_arg3 (by decide)),
      (h c main_arg4).trans (read_arg (launchContents m c) main_arg4 (by decide)),
      (h c main_arg5).trans (read_arg (launchContents m c) main_arg5 (by decide)),
      (h c main_arg6).trans (read_arg (launchContents m c) main_arg6 (by decide)),
      (h c main_arg7).trans (read_arg (launchContents m c) main_arg7 (by decide)),
      (h c main_arg8).trans (read_arg (launchContents m c) main_arg8 (by decide)),
      (h c main_arg9).trans (read_arg (launchContents m c) main_arg9 (by decide)),
      (h c main_arg10).trans (read_arg (launchContents m c) main_arg10 (by decide)),
      (h c main_arg11).trans (read_arg (launchContents m c) main_arg11 (by decide))⟩)
    (run_fold m ρ)

end Cert.ReferenceIdeal.RefValue

end
-- ==== Proof.Claims.lean ====
/-
  The five claims of the certificate.

  Three frames: each program, run from any memory with zero counters in which every float input is finite, terminates
  on every weakly fair execution without a fault and leaves its argument arrays as launched.  For the two kernel
  programs this is the launch of the five host stretches and the four tiled regions; for the reference, a host program,
  it is its run with the results dropped.

  The idealized kernel is the kernel program's own text read over the extended reals: the ideal pass rewrote no
  operation, so there is nothing to preserve.

  The algebraic claim: from memories that agree on the twelve arguments, the idealized kernel and the idealized
  reference both end with the edge scores, the edge embeddings and the node embeddings at the SAME functions of the
  arguments — the network of `Spec`.  The kernel program reaches them through its four regions, each a dense step on
  two feature blocks with the two halves of a weight, which over the extended reals is the reference's product of the
  joined features with the whole weight; its final scores multiply the node table by the two halves of the last weight
  first and gather afterwards, which is the reference's gather-then-multiply because a gather reads the same clamped row
  of a table whatever the table's width.  The reference reaches them operation by operation.  Nothing in either
  reading distributes a product over a sum or cancels, so the finiteness of the inputs is never used.
-/
import proofs.«147803_j8229157339892_2_alg».proof.Defs
import proofs.«147803_j8229157339892_2_alg».proof.Proof.Gen.Kernel
import proofs.«147803_j8229157339892_2_alg».proof.Proof.Gen.Kernel.Frame
import proofs.«147803_j8229157339892_2_alg».proof.Proof.Gen.KernelIdeal
import proofs.«147803_j8229157339892_2_alg».proof.Proof.Gen.KernelIdeal.Frame
import proofs.«147803_j8229157339892_2_alg».proof.Proof.Gen.ReferenceIdeal
import proofs.«147803_j8229157339892_2_alg».proof.Proof.Gen.Pre_finite_inputs
import proofs.«147803_j8229157339892_2_alg».proof.Proof.KernelValue
import proofs.«147803_j8229157339892_2_alg».proof.Proof.RefStages

noncomputable section

namespace Cert.Proof.Claims

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the three results dropped. -/
theorem frame_ri : Cert.frame_ReferenceIdeal := fun m ρ _ =>
  (θ_run Cert.ReferenceIdeal.defs _ _).mono (fun _ h c => (h c).2.2.2) (Cert.ReferenceIdeal.RefValue.run m ρ)

theorem preserves : Cert.preserves_Kernel_KernelIdeal := trivial

/-- Both programs end at the network's three results of arguments that agree. -/
theorem algebraic : Cert.algebraic_KernelIdeal_ReferenceIdeal := by
  intro m ρ m' ρ' _ hagree
  refine ⟨_, _, _, Cert.KernelIdeal.Value.run m ρ, ?_⟩
  refine (θ_run Cert.ReferenceIdeal.defs _ _).mono (fun r h c => ?_) (Cert.ReferenceIdeal.RefValue.run m' ρ')
  obtain ⟨e0, e1, e2, e3, e4, e5, e6, e7, e8, e9, e10, e11⟩ := hagree c
  refine ⟨(h c).1.trans ?_, (h c).2.1.trans ?_, (h c).2.2.1.trans ?_, (h c).2.2.2⟩
  · rw [e0, e1, e2, e3, e4, e5, e6, e7, e8, e9, e10, e11]
  · rw [e0, e1, e2, e3, e4, e5, e6, e7, e8, e9]
  · rw [e0, e1, e2, e3, e4, e5, e6, e7, e8, e9]

end Cert.Proof.Claims

end
-- ==== Proof.lean ====
/-
  The certificate: the kernel program, its idealization and the idealized reference run, terminate and keep their
  arguments; the idealization rewrote nothing; and over the extended reals the idealized kernel and the idealized
  reference compute the same three arrays from the same arguments.  The claims are proved in `Proof/Claims.lean`; here
  they are put behind the witnesses of the side conditions the printed programs state.
-/
import proofs.«147803_j8229157339892_2_alg».proof.Defs
import proofs.«147803_j8229157339892_2_alg».proof.Proof.Gen.Kernel
import proofs.«147803_j8229157339892_2_alg».proof.Proof.Gen.Kernel.Skeleton
import proofs.«147803_j8229157339892_2_alg».proof.Proof.Gen.Kernel.Launch
import proofs.«147803_j8229157339892_2_alg».proof.Proof.Gen.Kernel.Points
import proofs.«147803_j8229157339892_2_alg».proof.Proof.Gen.Kernel.Frame
import proofs.«147803_j8229157339892_2_alg».proof.Proof.Gen.KernelIdeal
import proofs.«147803_j8229157339892_2_alg».proof.Proof.Gen.KernelIdeal.Skeleton
import proofs.«147803_j8229157339892_2_alg».proof.Proof.Gen.KernelIdeal.Launch
import proofs.«147803_j8229157339892_2_alg».proof.Proof.Gen.KernelIdeal.Points
import proofs.«147803_j8229157339892_2_alg».proof.Proof.Gen.KernelIdeal.Frame
import proofs.«147803_j8229157339892_2_alg».proof.Proof.Gen.ReferenceIdeal
import proofs.«147803_j8229157339892_2_alg».proof.Proof.Gen.Pre_finite_inputs
import proofs.«147803_j8229157339892_2_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
